-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S16x4096x64 : Shape := ⟨3, ![16, 4096, 64]⟩
abbrev S512x1024 : Shape := ⟨2, ![512, 1024]⟩
abbrev S16x512x64 : Shape := ⟨3, ![16, 512, 64]⟩
abbrev S512x16x64 : Shape := ⟨3, ![512, 16, 64]⟩
abbrev S1x512x64 : Shape := ⟨3, ![1, 512, 64]⟩
abbrev S1x2048x64 : Shape := ⟨3, ![1, 2048, 64]⟩
abbrev S64x1024 : Shape := ⟨2, ![64, 1024]⟩
abbrev S1x512x1024 : Shape := ⟨3, ![1, 512, 1024]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 26
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S16x4096x64, .bf16⟩
  | .hbm, ⟨23, _⟩ => ⟨S16x4096x64, .bf16⟩
  | .hbm, ⟨24, _⟩ => ⟨S16x4096x64, .bf16⟩
  | .hbm, ⟨25, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S16x512x64, .bf16⟩
  | .local _ .vmem, ⟨9, _⟩ => ⟨S16x512x64, .bf16⟩
  | .local _ .vmem, ⟨10, _⟩ => ⟨S16x512x64, .bf16⟩
  | .local _ .vmem, ⟨11, _⟩ => ⟨S16x512x64, .bf16⟩
  | .local _ .vmem, ⟨12, _⟩ => ⟨S16x512x64, .bf16⟩
  | .local _ .vmem, ⟨13, _⟩ => ⟨S16x512x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x2048x64, .bf16⟩
  | .local _ .vmem, ⟨17, _⟩ => ⟨S1x2048x64, .bf16⟩
  | .local _ .vmem, ⟨18, _⟩ => ⟨S1x2048x64, .bf16⟩
  | .local _ .vmem, ⟨19, _⟩ => ⟨S1x2048x64, .bf16⟩
  | .local _ .vmem, ⟨20, _⟩ => ⟨S64x1024, .bf16⟩
  | .local _ .vmem, ⟨21, _⟩ => ⟨S64x1024, .bf16⟩
  | .local _ .vmem, ⟨22, _⟩ => ⟨S1x1024, .f32⟩
  | .local _ .vmem, ⟨23, _⟩ => ⟨S1x512x1024, .f32⟩
  | .local _ .vmem, ⟨24, _⟩ => ⟨S1x512x1024, .f32⟩
  | .local _ .vmem, ⟨25, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem5_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![2, 4, 16], ![false, false, false]⟩

def k1_cond2 (i : grid1.Coords) : BitVec 1 :=
  let arg2 : BitVec 32 := BitVec.ofNat 32 (i 2).val
  let c15_i32 : BitVec 32 := 15#32
  let v32 : BitVec 1 := Scalar.cmpi .eq arg2 c15_i32
  let v33 : BitVec 32 := Scalar.extui v32
  let c0_i32_20 : BitVec 32 := 0#32
  let v34 : BitVec 1 := Scalar.cmpi .ne v33 c0_i32_20
  v34

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![arg2.toNat, v1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S64x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S2x2048x1024_S4096x1024 : S2x2048x1024.ShapeCasts S4096x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S512x16x64 : S512x1024.ShapeCasts S512x16x64
  transposes_S512x16x64_p1_0_2_S16x512x64 : S512x16x64.Transposes [1, 0, 2] S16x512x64
  inb_S16x512x64_S16x512x64_0_0_0 : ∀ a, (![0, 0, 0] : Fin 3 → Nat) a + S16x512x64.size a ≤ S16x512x64.size a
  h_S16x512x64 : 0 < S16x512x64.numel
  packedbf16_S16x512x64_S16x512x64_0_0_0 : (Rect.unit (s := S16x512x64) ![0, 0, 0] S16x512x64.size inb_S16x512x64_S16x512x64_0_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x512x64.size a ≤ S16x4096x64.size a
  hwx0_7 : ∀ i : grid0.Coords, EltTy.bits .bf16 = 32 ∨ (Rect.block (s := S16x4096x64) S16x512x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x512x64.size a ≤ S16x4096x64.size a
  hwx0_8 : ∀ i : grid0.Coords, EltTy.bits .bf16 = 32 ∨ (Rect.block (s := S16x4096x64) S16x512x64.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x512x64.size a ≤ S16x4096x64.size a
  hwx0_9 : ∀ i : grid0.Coords, EltTy.bits .bf16 = 32 ∨ (Rect.block (s := S16x4096x64) S16x512x64.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S16x4096x64.size a
  hwx1_0 : ∀ i : grid1.Coords, EltTy.bits .bf16 = 32 ∨ (Rect.block (s := S16x4096x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S16x4096x64.size a
  hwx1_1 : ∀ i : grid1.Coords, EltTy.bits .bf16 = 32 ∨ (Rect.block (s := S16x4096x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S16x4096x64.size a
  hwx1_2 : ∀ i : grid1.Coords, EltTy.bits .bf16 = 32 ∨ (Rect.block (s := S16x4096x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x1024.size a ≤ S1024x1024.size a
  hwx1_3 : ∀ i : grid1.Coords, EltTy.bits .bf16 = 32 ∨ (Rect.block (s := S1024x1024) S64x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S2x2048x1024.size a
  hwx1_5 : ∀ i : grid1.Coords, EltTy.bits .f32 = 32 ∨ (Rect.block (s := S2x2048x1024) S1x512x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13_0) S16x512x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13_1) S16x512x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13_2) S16x512x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v13_0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_1) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_2) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S64x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S_, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S_, .f32⟩
  | .hbm, ⟨35, _⟩ => ⟨S2x16x2048, .f32⟩
  | .hbm, ⟨36, _⟩ => ⟨S2x16x2048, .f32⟩
  | .hbm, ⟨37, _⟩ => ⟨S2x16x2048x1, .f32⟩
  | .hbm, ⟨38, _⟩ => ⟨S2x16x2048x2048, .f32⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2x16x2048, .f32⟩
  | .hbm, ⟨43, _⟩ => ⟨S2x16x2048x1, .f32⟩
  | .hbm, ⟨44, _⟩ => ⟨S2x16x2048x2048, .f32⟩
  | .hbm, ⟨45, _⟩ => ⟨S2x16x2048x2048, .f32⟩
  | .hbm, ⟨46, _⟩ => ⟨S2x16x2048x64, .f32⟩
  | .hbm, ⟨47, _⟩ => ⟨S2x2048x16x64, .f32⟩
  | .hbm, ⟨48, _⟩ => ⟨S2x2048x1024, .f32⟩
  | .hbm, ⟨49, _⟩ => ⟨S2x2048x1024, .f32⟩
  | .hbm, ⟨50, _⟩ => ⟨S1x1x1024, .f32⟩
  | .hbm, ⟨51, _⟩ => ⟨S2x2048x1024, .f32⟩
  | .hbm, ⟨52, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Ideal.Qkv.lean ====
/-
  Region 0 of the program: the fused q / k / v projection kernel on a grid of 8 row blocks.
  At a grid point the body reads the point's 512 rows of the activations and the three whole
  weight matrices and bias rows, and writes, for each of q, k and v, the block
  (rows · weight + bias), re-laid from [512, 16·64] to [16, 512, 64] (head-major).
  Here: each window's block as a function of the array the region finds; what the body leaves
  in each of the three output buffers as a function of the input blocks; the body's triple.
-/
import proofs.«100607_j81028853006766_2_alg».proof.Proof.Gen.KernelIdeal.Launch
import proofs.«100607_j81028853006766_2_alg».proof.Proof.Gen.KernelIdeal.Skeleton
import proofs.«100607_j81028853006766_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0
abbrev rO : Rect S16x512x64 := Rect.unit (s := S16x512x64) ![0, 0, 0] S16x512x64.size inb_S16x512x64_S16x512x64_0_0_0

/-! ## What the body leaves in each output buffer, from the input blocks -/

/-- The q block: (rows · Wq + bq), head-major. -/
def outQ (x : Vec F S512x1024 .f32) (w : Vec F S1024x1024 .bf16) (b : Vec F S1x1024 .f32) : Vec F S16x512x64 .bf16 :=
  View.canon [⟨rO, k0_pay3 (View.ld x rX) (View.ld w rW) (View.ld b rB)⟩]
/-- The k block: (rows · Wk + bk), head-major. -/
def outK (x : Vec F S512x1024 .f32) (w : Vec F S1024x1024 .bf16) (b : Vec F S1x1024 .f32) : Vec F S16x512x64 .bf16 :=
  View.canon [⟨rO, k0_pay4 (View.ld x rX) (View.ld w rW) (View.ld b rB)⟩]
/-- The v block: (rows · Wv + bv), head-major. -/
def outV (x : Vec F S512x1024 .f32) (w : Vec F S1024x1024 .bf16) (b : Vec F S1x1024 .f32) : Vec F S16x512x64 .bf16 :=
  View.canon [⟨rO, k0_pay1 (k0_pay5 (View.ld x rX) (View.ld w rW) (View.ld b rB))⟩]

/-- One store through the whole-buffer rectangle covers the buffer. -/
theorem coverO (p : Vec F S16x512x64 .bf16) (y : S16x512x64.Idx) :
    ∃ pc ∈ ([⟨rO, p⟩] : List (View.Piece (Elt F) S16x512x64 .bf16)), y ∈ pc.1.set :=
  View.cover_of_tiled [⟨rO, p⟩] S16x512x64.size (by rfl) y

/-! ## The body's triple -/

set_option maxHeartbeats 4000000 in
/-- On whole staging buffers — the seven inputs at read contents, the three outputs at anything — the body runs to
    the continuation with the inputs as they were and the outputs at the q, k and v blocks. -/
theorem sound_kernel (c : Dev nD) (E : Set ℕ) (i : grid0.Coords)
    (arg1 : Memref sig .tc .vmem S512x1024 .f32) (harg1 : arg1.IsWhole)
    (arg2 : Memref sig .tc .vmem S1024x1024 .bf16) (harg2 : arg2.IsWhole)
    (arg3 : Memref sig .tc .vmem S1x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S16x512x64 .bf16) (harg8 : arg8.IsWhole)
    (arg9 : Memref sig .tc .vmem S16x512x64 .bf16) (harg9 : arg9.IsWhole)
    (arg10 : Memref sig .tc .vmem S16x512x64 .bf16) (harg10 : arg10.IsWhole)
    (x0 : Vec F S512x1024 .f32) (x1 : Vec F S1024x1024 .bf16) (x2 : Vec F S1x1024 .f32)
    (x3 : Vec F S1024x1024 .bf16) (x4 : Vec F S1x1024 .f32) (x5 : Vec F S1024x1024 .bf16) (x6 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare x5 ∗ owns (c : Thread nD τ) arg7 fullShare x6
            ∗ owns (c : Thread nD τ) arg8 fullShare (outQ x0 x1 x2) ∗ owns (c : Thread nD τ) arg9 fullShare (outK x0 x3 x4)
            ∗ owns (c : Thread nD τ) arg10 fullShare (outV x0 x5 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverO _)
  isplitl [H8]
  · iexists _; isplitr
    swap; · iexact H8
    ipureintro
    exact View.read_writes_eq_canon _ _ _ (coverO _)
  iexists _; isplitr
  swap; · iexact H9
  ipureintro
  exact View.read_writes_eq_canon _ _ _ (coverO _)

/-! ## The proof data, at the contents `V` the region is entered with -/

section Data
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: the weights and biases
    are fetched once and their block index never moves; the row block is fetched at every point. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of_6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The proof data: the arrays as the region finds them; after the body at point `t` each input buffer at its
    block and the three output buffers at the q, k and v blocks of the point's rows; the invariant is the scoped rest
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outQ (iblk V c 0 t) (iblk V c 1 t) (iblk V c 2 t)
    | ⟨8, _⟩ => outK (iblk V c 0 t) (iblk V c 3 t) (iblk V c 4 t)
    | ⟨9, _⟩ => outV (iblk V c 0 t) (iblk V c 5 t) (iblk V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = outQ (iblk V c 0 t) (iblk V c 1 t) (iblk V c 2 t) := by dsimp only [dat]
theorem after_8 (c : Dev nD) (t : Fin cfg0.N) : (dat V c).after 8 t = outK (iblk V c 0 t) (iblk V c 3 t) (iblk V c 4 t) := by dsimp only [dat]
theorem after_9 (c : Dev nD) (t : Fin cfg0.N) : (dat V c).after 9 t = outV (iblk V c 0 t) (iblk V c 5 t) (iblk V c 6 t) := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d
theorem before_4 (c : Dev nD) (t : Fin cfg0.N) (d) : (dat V c).before 4 t d = iblk V c 4 t :=
  before_of_4 V (dat V c) (A_eq V c 4) (after_4 V c) t d
theorem before_5 (c : Dev nD) (t : Fin cfg0.N) (d) : (dat V c).before 5 t d = iblk V c 5 t :=
  before_of_5 V (dat V c) (A_eq V c 5) (after_5 V c) t d
theorem before_6 (c : Dev nD) (t : Fin cfg0.N) (d) : (dat V c).before 6 t d = iblk V c 6 t :=
  before_of_6 V (dat V c) (A_eq V c 6) (after_6 V c) t d

/-! ## The body obligation at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

set_option maxHeartbeats 4000000 in
/-- The body at any point: the inputs' buffers hold their blocks, so the triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _
    (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dat (F := F) V c) (defs₀ (F := F)) Variants.none () Set.univ := fun t => by
  rw [bigSep_W0, bigSep_W0]
  exact sound_body V c t

end Data

end Cert.KernelIdeal.Qkv

end
-- ==== Proof.Ideal.AttnRuns.lean ====
/-
  Region 1 of the program: attention fused with the output projection, on a grid (batch 2, query block 4, head 16)
  whose head axis is innermost. At a point the body reads one head's 512 query rows, that head's 2048 key and value
  rows of the batch, the head's 64 rows of the transposed output weight and the output bias; it adds the head's
  contribution to a 512 × 1024 accumulator kept in scratch — zeroed first when the head is 0 — and, when the head is 15,
  writes accumulator + bias to the output block. So there are three kinds of point: first head, middle head, last head.
  Here: what the three kinds share — the blocks, the two conditions in closed form over the grid, where the output
  window is idle, and the region's invariant with the scratch singled out.
-/
import proofs.«100607_j81028853006766_2_alg».proof.Proof.Gen.KernelIdeal.Launch
import proofs.«100607_j81028853006766_2_alg».proof.Proof.Gen.KernelIdeal.Skeleton
import proofs.«100607_j81028853006766_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the contents `V` the region is entered with -/

section Blocks
variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The two conditions, in closed form over the grid -/

/-- "The head is 0": the accumulator is zeroed first. -/
abbrev cond0 (i : grid1.Coords) : Prop := (Scalar.cmpi .ne (Scalar.extui (Scalar.cmpi .eq (BitVec.ofNat 32 (i 2).val) 0#32)) 0#32) = 1#1
theorem hcond0 : ∀ t : Fin cfg1.N, cond0 (grid1.coords t) ↔ t.val % 16 = 0 :=
  (by decide +kernel : ∀ t : Fin grid1.N, cond0 (grid1.coords t) ↔ t.val % 16 = 0)

/-- "The head is 15": the output block is written. -/
abbrev cond1 (i : grid1.Coords) : Prop := k1_cond2 i = 1#1
theorem hcond1 : ∀ t : Fin cfg1.N, cond1 (grid1.coords t) ↔ t.val % 16 = 15 :=
  (by decide +kernel : ∀ t : Fin grid1.N, cond1 (grid1.coords t) ↔ t.val % 16 = 15)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem live_4 : ∀ t : Fin cfg1.N, cfg1.idle 4 (grid1.coords t) = false := by decide +kernel
/-- Unless the head is 15 the output window is idle and not written back. -/
theorem idle_5 : ∀ t : Fin cfg1.N, ¬cond1 (grid1.coords t) → cfg1.idle 5 (grid1.coords t) = true := by decide +kernel
theorem noFlush_5 : ∀ t : Fin cfg1.N, ¬cond1 (grid1.coords t) → (cfg1.win 5).flush t = false := by decide +kernel
theorem live_5 : ∀ t : Fin cfg1.N, cond1 (grid1.coords t) → cfg1.idle 5 (grid1.coords t) = false := by decide +kernel

/-! ## The staging memrefs at a point, and the scratch -/

abbrev VO : View sig .tc .vmem S1x512x1024 .f32 := (Memref.whole cc1_stg5_0 : Memref sig .tc .vmem S1x512x1024 .f32).view
abbrev ms0 (t : Fin cfg1.N) : Memref sig .tc .vmem S1x512x64 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x2048x64 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2048x64 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S64x1024 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x512x1024 .f32 := win1_5.stage (cfg1.slots t 5)
abbrev hs5 (t : Fin cfg1.N) : (ms5 t).IsWhole := hstage1_5 ((cfg1.slots t 5).cast nbuf1_5)
/-- The accumulator: a whole scoped buffer of the kernel's own. -/
abbrev scM : Memref sig .tc .vmem S512x1024 .f32 := Memref.whole cc1_scratch0
abbrev VS : View sig .tc .vmem S512x1024 .f32 := scM.view

/-- The other scoped buffers that are no staging buffer of this region (region 0's staging buffers), each at anything. -/
def others (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ S)

/-- The class invariant with the accumulator singled out as a memref owned at some contents. -/
theorem PhiA_eq (c : Dev nD) :
    (Pipeline.ΦA spec1 c : sProp 𝕄) = iprop(others c (iprop(∃ d, owns (c : Thread nD τ) scM fullShare d)) ∗ (∃ r, prngReg c r)) := by
  unfold Pipeline.ΦA others; rw [scopedRest1_eq]; simp only [scM, owns_whole]; try rfl

end Cert.KernelIdeal.Attn

end
-- ==== Proof.Ideal.AttnRunA.lean ====
/-
  Region 1, the body's run at a point of the kind "A" — the first head: the accumulator is zeroed, then the head's contribution added; the output buffer is handed back untouched.
  The pieces each written buffer ends with are found by the run itself.
-/
import proofs.«100607_j81028853006766_2_alg».proof.Proof.Ideal.AttnRuns

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runA (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) :
    Σ' (L5 : List (View.Piece (Elt F) S1x512x1024 .f32)), { LS : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc1__attn_out_kernel i arg3 harg3 arg4 harg4 arg5 harg5 arg6 harg6 arg7 harg7 arg8 harg8 arg9 harg9) K } := by
  refine ⟨[], ?_, fun xi5 E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Attn

end
-- ==== Proof.Ideal.AttnRunB.lean ====
/-
  Region 1, the body's run at a point of the kind "B" — a middle head: the head's contribution is added to what the point before left in the accumulator; the output buffer is handed back untouched.
  The pieces each written buffer ends with are found by the run itself.
-/
import proofs.«100607_j81028853006766_2_alg».proof.Proof.Ideal.AttnRunA

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runB (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) :
    Σ' (L5 : List (View.Piece (Elt F) S1x512x1024 .f32)), { LS : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc1__attn_out_kernel i arg3 harg3 arg4 harg4 arg5 harg5 arg6 harg6 arg7 harg7 arg8 harg8 arg9 harg9) K } := by
  refine ⟨[], ?_, fun xi5 E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Attn

end
-- ==== Proof.Ideal.AttnRunC.lean ====
/-
  Region 1, the body's run at a point of the kind "C" — the last head: the head's contribution is added to the accumulator, and accumulator + bias is stored to the output buffer.
  The pieces each written buffer ends with are found by the run itself.
-/
import proofs.«100607_j81028853006766_2_alg».proof.Proof.Ideal.AttnRunB

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runC (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) :
    Σ' (L5 : List (View.Piece (Elt F) S1x512x1024 .f32)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc1__attn_out_kernel i arg3 harg3 arg4 harg4 arg5 harg5 arg6 harg6 arg7 harg7 arg8 harg8 arg9 harg9) K } := by
  refine ⟨?_, ?_, fun E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.KernelIdeal.Attn

end
-- ==== Proof.Ideal.Attn.lean ====
/-
  Region 1: from the three kinds of run to the pipeline's proof data and body obligation.
  The accumulator after point n is a function of the point's blocks and, unless the head is 0, of the accumulator after
  point n − 1; the output buffer holds accumulator + bias at the points whose head is 15, where it is written back.
  The region's invariant tracks the accumulator: before the first point the scoped rest at anything, afterwards the
  accumulator at what the point before left and the other scoped buffers at anything.
-/
import proofs.«100607_j81028853006766_2_alg».proof.Proof.Ideal.AttnRunC

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Kind A: the pieces the accumulator ends with tile it. -/
theorem scoverA (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) (y : S512x1024.Idx) :
    ∃ pc ∈ (runA c i arg3 harg3 arg4 harg4 arg5 harg5 arg6 harg6 arg7 harg7 arg8 harg8 arg9 harg9 hc0 hc1 x0 x1 x2 x3 x4).2.1, y ∈ pc.1.set :=
  View.cover_of_tiledL (runA c i arg3 harg3 arg4 harg4 arg5 harg5 arg6 harg6 arg7 harg7 arg8 harg8 arg9 harg9 hc0 hc1 x0 x1 x2 x3 x4).2.1 S512x1024.size (by sl_kernel_rfl) y
/-- Kind A: what the accumulator holds after the body. -/
def soutA (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) : Vec F S512x1024 .f32 :=
  VS.read (Elt F) (VS.writes (Elt F) VS.junk (runA c i arg3 harg3 arg4 harg4 arg5 harg5 arg6 harg6 arg7 harg7 arg8 harg8 arg9 harg9 hc0 hc1 x0 x1 x2 x3 x4).2.1)
/-- Kind A: nothing is stored to the output buffer; a placeholder nothing consults (the window is idle and not written back). -/
def outA (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) : Vec F S1x512x1024 .f32 :=
  VO.read (Elt F) (VO.writes (Elt F) VO.junk (runA c i arg3 harg3 arg4 harg4 arg5 harg5 arg6 harg6 arg7 harg7 arg8 harg8 arg9 harg9 hc0 hc1 x0 x1 x2 x3 x4).1)

/-- Kind B: the pieces the accumulator ends with tile it. -/
theorem scoverB (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) (y : S512x1024.Idx) :
    ∃ pc ∈ (runB c i arg3 harg3 arg4 harg4 arg5 harg5 arg6 harg6 arg7 harg7 arg8 harg8 arg9 harg9 hc0 hc1 x0 x1 x2 x3 x4 xs).2.1, y ∈ pc.1.set :=
  View.cover_of_tiledL (runB c i arg3 harg3 arg4 harg4 arg5 harg5 arg6 harg6 arg7 harg7 arg8 harg8 arg9 harg9 hc0 hc1 x0 x1 x2 x3 x4 xs).2.1 S512x1024.size (by sl_kernel_rfl) y
/-- Kind B: what the accumulator holds after the body. -/
def soutB (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) : Vec F S512x1024 .f32 :=
  VS.read (Elt F) (VS.writes (Elt F) VS.junk (runB c i arg3 harg3 arg4 harg4 arg5 harg5 arg6 harg6 arg7 harg7 arg8 harg8 arg9 harg9 hc0 hc1 x0 x1 x2 x3 x4 xs).2.1)
/-- Kind B: nothing is stored to the output buffer; a placeholder nothing consults (the window is idle and not written back). -/
def outB (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) : Vec F S1x512x1024 .f32 :=
  VO.read (Elt F) (VO.writes (Elt F) VO.junk (runB c i arg3 harg3 arg4 harg4 arg5 harg5 arg6 harg6 arg7 harg7 arg8 harg8 arg9 harg9 hc0 hc1 x0 x1 x2 x3 x4 xs).1)

/-- Kind C: the pieces the accumulator ends with tile it. -/
theorem scoverC (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) (y : S512x1024.Idx) :
    ∃ pc ∈ (runC c i arg3 harg3 arg4 harg4 arg5 harg5 arg6 harg6 arg7 harg7 arg8 harg8 arg9 harg9 hc0 hc1 x0 x1 x2 x3 x4 xs).2.1, y ∈ pc.1.set :=
  View.cover_of_tiledL (runC c i arg3 harg3 arg4 harg4 arg5 harg5 arg6 harg6 arg7 harg7 arg8 harg8 arg9 harg9 hc0 hc1 x0 x1 x2 x3 x4 xs).2.1 S512x1024.size (by sl_kernel_rfl) y
/-- Kind C: what the accumulator holds after the body. -/
def soutC (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) : Vec F S512x1024 .f32 :=
  VS.read (Elt F) (VS.writes (Elt F) VS.junk (runC c i arg3 harg3 arg4 harg4 arg5 harg5 arg6 harg6 arg7 harg7 arg8 harg8 arg9 harg9 hc0 hc1 x0 x1 x2 x3 x4 xs).2.1)
/-- Kind C: the pieces the output buffer ends with tile it. -/
theorem coverC (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) (y : S1x512x1024.Idx) :
    ∃ pc ∈ (runC c i arg3 harg3 arg4 harg4 arg5 harg5 arg6 harg6 arg7 harg7 arg8 harg8 arg9 harg9 hc0 hc1 x0 x1 x2 x3 x4 xs).1, y ∈ pc.1.set :=
  View.cover_of_tiledL (runC c i arg3 harg3 arg4 harg4 arg5 harg5 arg6 harg6 arg7 harg7 arg8 harg8 arg9 harg9 hc0 hc1 x0 x1 x2 x3 x4 xs).1 S1x512x1024.size (by sl_kernel_rfl) y
/-- Kind C: what the output buffer holds after the body. -/
def outC (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) : Vec F S1x512x1024 .f32 :=
  VO.read (Elt F) (VO.writes (Elt F) VO.junk (runC c i arg3 harg3 arg4 harg4 arg5 harg5 arg6 harg6 arg7 harg7 arg8 harg8 arg9 harg9 hc0 hc1 x0 x1 x2 x3 x4 xs).1)

section Data
variable (V : (c : Dev nD) → (b : Ref sig .tc) → Buf (Elt F) ((c : Thread nD τ).loc b))

/-- What the output buffer and the accumulator hold after the body at position `n`. -/
def outsAt (c : Dev nD) : (n : ℕ) → n < cfg1.N → Vec F S1x512x1024 .f32 × Vec F S512x1024 .f32
  | 0, hn => (outA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩) (iblk V c 4 ⟨0, hn⟩), soutA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 16 = 0 then
      if h1 : (n + 1) % 16 = 15 then
        False.elim (by omega)
      else
        (outA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), soutA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : (n + 1) % 16 = 15 then
        (outC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, soutC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)
      else
        (outB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, soutB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)

theorem outsAt_A (c : Dev nD) (t : Fin cfg1.N) (h0 : t.val % 16 = 0) (h1 : ¬t.val % 16 = 15) :
    outsAt V c t.val t.isLt = (outA c (grid1.coords t) (ms0 t) (hs0 t) (ms1 t) (hs1 t) (ms2 t) (hs2 t) (ms3 t) (hs3 t) (ms4 t) (hs4 t) (ms5 t) (hs5 t) scM (Memref.isWhole_whole _) ((hcond0 t).mpr h0) (fun h => h1 ((hcond1 t).mp h)) (iblk V c 0 t) (iblk V c 1 t) (iblk V c 2 t) (iblk V c 3 t) (iblk V c 4 t), soutA c (grid1.coords t) (ms0 t) (hs0 t) (ms1 t) (hs1 t) (ms2 t) (hs2 t) (ms3 t) (hs3 t) (ms4 t) (hs4 t) (ms5 t) (hs5 t) scM (Memref.isWhole_whole _) ((hcond0 t).mpr h0) (fun h => h1 ((hcond1 t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans rfl)

theorem outsAt_B (c : Dev nD) (t : Fin cfg1.N) (h0 : ¬t.val % 16 = 0) (h1 : ¬t.val % 16 = 15) :
    outsAt V c t.val t.isLt = (outB c (grid1.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) (fun h => h1 ((hcond1 t).mp h)) (iblk V c 0 t) (iblk V c 1 t) (iblk V c 2 t) (iblk V c 3 t) (iblk V c 4 t) (outsAt V c (t.val - 1) (Nat.lt_of_le_of_lt (Nat.sub_le _ _) t.isLt)).2, soutB c (grid1.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) (fun h => h1 ((hcond1 t).mp h)) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 16 = 0) (h1 : t.val % 16 = 15) :
    outsAt V c t.val t.isLt = (outC c (grid1.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond1 t).mpr h1) (iblk V c 0 t) (iblk V c 1 t) (iblk V c 2 t) (iblk V c 3 t) (iblk V c 4 t) (outsAt V c (t.val - 1) (Nat.lt_of_le_of_lt (Nat.sub_le _ _) t.isLt)).2, soutC c (grid1.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond1 t).mpr h1) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`. -/
def PhiS (c : Dev nD) : (n : ℕ) → n ≤ cfg1.N → sProp 𝕄
  | 0, _ => Pipeline.ΦA spec1 c
  | n + 1, hn => iprop(others c (owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(others c (owns (c : Thread nD τ) scM fullShare ((outsAt V c n hn).2)) ∗ (∃ r, prngReg c r)) := rfl
theorem PhiS_pos (c : Dev nD) (n : ℕ) (h : n ≤ cfg1.N) (hz : n ≠ 0) :
    PhiS V c n h = iprop(others c (owns (c : Thread nD τ) scM fullShare ((outsAt V c (n - 1) (by omega)).2)) ∗ (∃ r, prngReg c r)) := by
  cases n with
  | zero => exact absurd rfl hz
  | succ n => rfl

/-- The proof data of the region on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]
theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 8000000 in
/-- The body at any point: the inputs' buffers hold their blocks; the closed forms say which kind the point is; the
    invariant hands over the accumulator at what the point before left (at anything before the first point) and takes
    it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg1.N = 128 from N_1)
  by_cases h0 : t.val % 16 = 0
  · by_cases h1 : t.val % 16 = 15
    · exfalso; omega
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [show (dat V c).leavesExact 3 t = owns (c : Thread nD τ) (ms3 t) fullShare ((dat V c).after 3 t) from by
        unfold Dat.leavesExact; rw [live_3 t], after_3]
      rw [show (dat V c).leavesExact 4 t = owns (c : Thread nD τ) (ms4 t) fullShare ((dat V c).after 4 t) from by
        unfold Dat.leavesExact; rw [live_4 t], after_4]
      rw [Dat.leavesExact_idle (dat V c) 5 t (idle_5 t (fun h => h1 ((hcond1 t).mp h))) (noFlush_5 t (fun h => h1 ((hcond1 t).mp h)))]
      rw [outsAt_A V c t h0 h1]
      unfold soutA; (try dsimp only)
      by_cases hz : t.val = 0
      ·
        rw [PhiS_castSucc V c t, PhiS_zero V c _ _ hz, PhiA_eq]
        unfold others
        iintro ⟨⟨⟨R1, R2, R3, R4, R5, R6, R7, R8, R9, R10, R11, R12, R13, R14, HS⟩, Hg⟩, Ho, ⟨%d0, H0⟩, ⟨%d1, H1⟩, ⟨%d2, H2⟩, ⟨%d3, H3⟩, ⟨%d4, H4⟩, ⟨%d5, H5⟩⟩
        iapply ((runA c (grid1.coords t) _ _ _ _ _ _ _ _ _ _ _ _ _ _ ((hcond0 t).mpr h0) (fun h => h1 ((hcond1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [R1 R2 R3 R4 R5 R6 R7 R8 R9 R10 R11 R12 R13 R14 HS Hg]
        · isplitl [R1 R2 R3 R4 R5 R6 R7 R8 R9 R10 R11 R12 R13 R14 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            unfold owns; iexists _; isplitr
            swap; · iexact HS
            ipureintro; exact View.read_writes_of_cover _ _ _ _ _ (scoverA c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS_castSucc V c t, PhiS_pos V c _ _ hz]
        unfold others
        iintro ⟨⟨⟨R1, R2, R3, R4, R5, R6, R7, R8, R9, R10, R11, R12, R13, R14, HS⟩, Hg⟩, Ho, ⟨%d0, H0⟩, ⟨%d1, H1⟩, ⟨%d2, H2⟩, ⟨%d3, H3⟩, ⟨%d4, H4⟩, ⟨%d5, H5⟩⟩
        iapply ((runA c (grid1.coords t) _ _ _ _ _ _ _ _ _ _ _ _ _ _ ((hcond0 t).mpr h0) (fun h => h1 ((hcond1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [R1 R2 R3 R4 R5 R6 R7 R8 R9 R10 R11 R12 R13 R14 HS Hg]
        · isplitl [R1 R2 R3 R4 R5 R6 R7 R8 R9 R10 R11 R12 R13 R14 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            unfold owns; iexists _; isplitr
            swap; · iexact HS
            ipureintro; exact View.read_writes_of_cover _ _ _ _ _ (scoverA c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [show (dat V c).leavesExact 3 t = owns (c : Thread nD τ) (ms3 t) fullShare ((dat V c).after 3 t) from by
        unfold Dat.leavesExact; rw [live_3 t], after_3]
      rw [show (dat V c).leavesExact 4 t = owns (c : Thread nD τ) (ms4 t) fullShare ((dat V c).after 4 t) from by
        unfold Dat.leavesExact; rw [live_4 t], after_4]
      rw [show (dat V c).leavesExact 5 t = owns (c : Thread nD τ) (ms5 t) fullShare ((dat V c).after 5 t) from by
        unfold Dat.leavesExact; rw [live_5 t ((hcond1 t).mpr h1)], after_5]
      rw [outsAt_C V c t h0 h1]
      unfold outC soutC; (try dsimp only)
      by_cases hz : t.val = 0
      · exfalso; omega
      ·
        rw [PhiS_castSucc V c t, PhiS_pos V c _ _ hz]
        unfold others
        iintro ⟨⟨⟨R1, R2, R3, R4, R5, R6, R7, R8, R9, R10, R11, R12, R13, R14, HS⟩, Hg⟩, Ho, ⟨%d0, H0⟩, ⟨%d1, H1⟩, ⟨%d2, H2⟩, ⟨%d3, H3⟩, ⟨%d4, H4⟩, ⟨%d5, H5⟩⟩
        iapply ((runC c (grid1.coords t) _ _ _ _ _ _ _ _ _ _ _ _ _ _ (fun h => h0 ((hcond0 t).mp h)) ((hcond1 t).mpr h1) (iblk V c 0 t) (iblk V c 1 t) (iblk V c 2 t) (iblk V c 3 t) (iblk V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS]; · iexact HS
        iintro ⟨H0, H1, H2, H3, H4, ⟨%e5, H5⟩, ⟨%es, HS⟩⟩
        isplitl [R1 R2 R3 R4 R5 R6 R7 R8 R9 R10 R11 R12 R13 R14 HS Hg]
        · isplitl [R1 R2 R3 R4 R5 R6 R7 R8 R9 R10 R11 R12 R13 R14 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            unfold owns; iexists _; isplitr
            swap; · iexact HS
            ipureintro; exact View.read_writes_of_cover _ _ _ _ _ (scoverC c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverC c _ _ _ _ _ _ _ _ _ _ _ _ _ _ _ _ _ _ _ _ _ _ _)
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [show (dat V c).leavesExact 3 t = owns (c : Thread nD τ) (ms3 t) fullShare ((dat V c).after 3 t) from by
        unfold Dat.leavesExact; rw [live_3 t], after_3]
      rw [show (dat V c).leavesExact 4 t = owns (c : Thread nD τ) (ms4 t) fullShare ((dat V c).after 4 t) from by
        unfold Dat.leavesExact; rw [live_4 t], after_4]
      rw [Dat.leavesExact_idle (dat V c) 5 t (idle_5 t (fun h => h1 ((hcond1 t).mp h))) (noFlush_5 t (fun h => h1 ((hcond1 t).mp h)))]
      rw [outsAt_B V c t h0 h1]
      unfold soutB; (try dsimp only)
      by_cases hz : t.val = 0
      · exfalso; omega
      ·
        rw [PhiS_castSucc V c t, PhiS_pos V c _ _ hz]
        unfold others
        iintro ⟨⟨⟨R1, R2, R3, R4, R5, R6, R7, R8, R9, R10, R11, R12, R13, R14, HS⟩, Hg⟩, Ho, ⟨%d0, H0⟩, ⟨%d1, H1⟩, ⟨%d2, H2⟩, ⟨%d3, H3⟩, ⟨%d4, H4⟩, ⟨%d5, H5⟩⟩
        iapply ((runB c (grid1.coords t) _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [R1 R2 R3 R4 R5 R6 R7 R8 R9 R10 R11 R12 R13 R14 HS Hg]
        · isplitl [R1 R2 R3 R4 R5 R6 R7 R8 R9 R10 R11 R12 R13 R14 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            unfold owns; iexists _; isplitr
            swap; · iexact HS
            ipureintro; exact View.read_writes_of_cover _ _ _ _ _ (scoverB c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives the class invariant back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  unfold others
  iintro ⟨⟨R1, R2, R3, R4, R5, R6, R7, R8, R9, R10, R11, R12, R13, R14, HS⟩, Hg⟩
  isplitl [R1 R2 R3 R4 R5 R6 R7 R8 R9 R10 R11 R12 R13 R14 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexists _; iexact HS
  iexact Hg

theorem hout (c : Dev nD) : (dat V c).Φ (Fin.last cfg1.N) ⊢ Pipeline.ΦA spec1 c :=
  Phi_out V c _ (by rw [Fin.val_last]; have : cfg1.N = 128 := N_1; omega)

end Data

end Cert.KernelIdeal.Attn

end
-- ==== Proof.Ideal.Whole.lean ====
/-
  The whole run of the program: the host operations before the kernels (a reshape of the activations, the four weight
  transposes and conversions, the four bias reshapes), then region 0 (the q / k / v projections), then region 1 (attention
  and the output projection). Between the items every unscoped buffer of a core is held whole at known contents:
  the launch contents; after the host operations; then with region 0's three output arrays at what its write-backs leave;
  then with region 1's output array at what its write-backs leave. Every weakly fair execution terminates, and every
  final state holds each unscoped buffer at the last of these contents.
-/
import proofs.«100607_j81028853006766_2_alg».proof.Proof.Ideal.Qkv
import proofs.«100607_j81028853006766_2_alg».proof.Proof.Ideal.Attn
import proofs.«100607_j81028853006766_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch. -/
abbrev B0 : Dev nD → Valuation τ sig (Elt F) := fun c b => m (c, b)
/-- After the host operations: region 0's entry. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (Qkv.dat (E1 m) c).arrAt w cfg0.N
theorem B2_arr (c : Dev nD) (w : Fin cfg0.W) :
    B2 m c (Proc.devRef .tc (Pipeline.arrRef spec0 w)) = (Qkv.dat (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (Qkv.dat (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- At region 1's exit: its arrays at what the pipeline leaves, every other buffer as entered. -/
def B3 (c : Dev nD) : Valuation τ sig (Elt F) :=
  Pipeline.withArrays spec1 c (B2 m c) fun w => (Attn.dat (E2 m) c).arrAt w cfg1.N
theorem B3_arr (c : Dev nD) (w : Fin cfg1.W) :
    B3 m c (Proc.devRef .tc (Pipeline.arrRef spec1 w)) = (Attn.dat (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (Attn.dat (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ### The arguments end as launched: no host operation writes one and neither region stages one -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := B2_of_ne m c main_arg0 (by decide)
    _ = B0 m c (Proc.devRef .tc main_arg0) := V1_of m c main_arg0 (by decide)
    _ = m ((c : Thread nD τ).loc main_arg0) := rfl
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = B0 m c (Proc.devRef .tc main_arg1) := V1_of m c main_arg1 (by decide)
    _ = m ((c : Thread nD τ).loc main_arg1) := rfl
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = B0 m c (Proc.devRef .tc main_arg2) := V1_of m c main_arg2 (by decide)
    _ = m ((c : Thread nD τ).loc main_arg2) := rfl
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := V1_of m c main_arg3 (by decide)
    _ = m ((c : Thread nD τ).loc main_arg3) := rfl
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := V1_of m c main_arg4 (by decide)
    _ = m ((c : Thread nD τ).loc main_arg4) := rfl
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = B0 m c (Proc.devRef .tc main_arg5) := V1_of m c main_arg5 (by decide)
    _ = m ((c : Thread nD τ).loc main_arg5) := rfl
theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = B1 m c (Proc.devRef .tc main_arg6) := B2_of_ne m c main_arg6 (by decide)
    _ = B0 m c (Proc.devRef .tc main_arg6) := V1_of m c main_arg6 (by decide)
    _ = m ((c : Thread nD τ).loc main_arg6) := rfl
theorem B3_main_arg7 (c : Dev nD) : B3 m c (Proc.devRef .tc main_arg7) = m ((c : Thread nD τ).loc main_arg7) :=
  calc B3 m c (Proc.devRef .tc main_arg7)
    _ = B2 m c (Proc.devRef .tc main_arg7) := B3_of_ne m c main_arg7 (by decide)
    _ = B1 m c (Proc.devRef .tc main_arg7) := B2_of_ne m c main_arg7 (by decide)
    _ = B0 m c (Proc.devRef .tc main_arg7) := V1_of m c main_arg7 (by decide)
    _ = m ((c : Thread nD τ).loc main_arg7) := rfl
theorem B3_main_arg8 (c : Dev nD) : B3 m c (Proc.devRef .tc main_arg8) = m ((c : Thread nD τ).loc main_arg8) :=
  calc B3 m c (Proc.devRef .tc main_arg8)
    _ = B2 m c (Proc.devRef .tc main_arg8) := B3_of_ne m c main_arg8 (by decide)
    _ = B1 m c (Proc.devRef .tc main_arg8) := B2_of_ne m c main_arg8 (by decide)
    _ = B0 m c (Proc.devRef .tc main_arg8) := V1_of m c main_arg8 (by decide)
    _ = m ((c : Thread nD τ).loc main_arg8) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => Qkv.dat (E1 m) c
  | ⟨1, _⟩ => fun c => Attn.dat (E2 m) c
abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Qkv.body_obligation (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Attn.hin (E2 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Attn.hout (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- Every weakly fair execution from memory `m` with zero counters terminates, nothing faulting, and in every final
    state each unscoped buffer of each core holds the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun c => by
      show iprop(StableHlo.held (c : Thread nD τ) (Pipeline.ucRefs τ sig) (B3 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h => h)

/-- The frame: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c),
    (h c _ (mem_uc main_arg8 (by decide))).trans (B3_main_arg8 m c)⟩) (run m ρ)

end Cert.KernelIdeal.Whole

end
-- ==== Proof.Bits.Qkv.lean ====
/-
  Region 0 of the program: the fused q / k / v projection kernel on a grid of 8 row blocks.
  At a grid point the body reads the point's 512 rows of the activations and the three whole
  weight matrices and bias rows, and writes, for each of q, k and v, the block
  (rows · weight + bias), re-laid from [512, 16·64] to [16, 512, 64] (head-major).
  Here: each window's block as a function of the array the region finds; what the body leaves
  in each of the three output buffers as a function of the input blocks; the body's triple.
-/
import proofs.«100607_j81028853006766_2_alg».proof.Proof.Gen.Kernel.Launch
import proofs.«100607_j81028853006766_2_alg».proof.Proof.Gen.Kernel.Skeleton
import proofs.«100607_j81028853006766_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0
abbrev rO : Rect S16x512x64 := Rect.unit (s := S16x512x64) ![0, 0, 0] S16x512x64.size inb_S16x512x64_S16x512x64_0_0_0

/-! ## What the body leaves in each output buffer, from the input blocks -/

/-- The q block: (rows · Wq + bq), head-major. -/
def outQ (x : Vec F S512x1024 .f32) (w : Vec F S1024x1024 .bf16) (b : Vec F S1x1024 .f32) : Vec F S16x512x64 .bf16 :=
  View.canon [⟨rO, k0_pay3 (View.ld x rX) (View.ld w rW) (View.ld b rB)⟩]
/-- The k block: (rows · Wk + bk), head-major. -/
def outK (x : Vec F S512x1024 .f32) (w : Vec F S1024x1024 .bf16) (b : Vec F S1x1024 .f32) : Vec F S16x512x64 .bf16 :=
  View.canon [⟨rO, k0_pay4 (View.ld x rX) (View.ld w rW) (View.ld b rB)⟩]
/-- The v block: (rows · Wv + bv), head-major. -/
def outV (x : Vec F S512x1024 .f32) (w : Vec F S1024x1024 .bf16) (b : Vec F S1x1024 .f32) : Vec F S16x512x64 .bf16 :=
  View.canon [⟨rO, k0_pay1 (k0_pay5 (View.ld x rX) (View.ld w rW) (View.ld b rB))⟩]

/-- One store through the whole-buffer rectangle covers the buffer. -/
theorem coverO (p : Vec F S16x512x64 .bf16) (y : S16x512x64.Idx) :
    ∃ pc ∈ ([⟨rO, p⟩] : List (View.Piece (Elt F) S16x512x64 .bf16)), y ∈ pc.1.set :=
  View.cover_of_tiled [⟨rO, p⟩] S16x512x64.size (by rfl) y

/-! ## The body's triple -/

set_option maxHeartbeats 4000000 in
/-- On whole staging buffers — the seven inputs at read contents, the three outputs at anything — the body runs to
    the continuation with the inputs as they were and the outputs at the q, k and v blocks. -/
theorem sound_kernel (c : Dev nD) (E : Set ℕ) (i : grid0.Coords)
    (arg1 : Memref sig .tc .vmem S512x1024 .f32) (harg1 : arg1.IsWhole)
    (arg2 : Memref sig .tc .vmem S1024x1024 .bf16) (harg2 : arg2.IsWhole)
    (arg3 : Memref sig .tc .vmem S1x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S16x512x64 .bf16) (harg8 : arg8.IsWhole)
    (arg9 : Memref sig .tc .vmem S16x512x64 .bf16) (harg9 : arg9.IsWhole)
    (arg10 : Memref sig .tc .vmem S16x512x64 .bf16) (harg10 : arg10.IsWhole)
    (x0 : Vec F S512x1024 .f32) (x1 : Vec F S1024x1024 .bf16) (x2 : Vec F S1x1024 .f32)
    (x3 : Vec F S1024x1024 .bf16) (x4 : Vec F S1x1024 .f32) (x5 : Vec F S1024x1024 .bf16) (x6 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare x5 ∗ owns (c : Thread nD τ) arg7 fullShare x6
            ∗ owns (c : Thread nD τ) arg8 fullShare (outQ x0 x1 x2) ∗ owns (c : Thread nD τ) arg9 fullShare (outK x0 x3 x4)
            ∗ owns (c : Thread nD τ) arg10 fullShare (outV x0 x5 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverO _)
  isplitl [H8]
  · iexists _; isplitr
    swap; · iexact H8
    ipureintro
    exact View.read_writes_eq_canon _ _ _ (coverO _)
  iexists _; isplitr
  swap; · iexact H9
  ipureintro
  exact View.read_writes_eq_canon _ _ _ (coverO _)

/-! ## The proof data, at the contents `V` the region is entered with -/

section Data
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: the weights and biases
    are fetched once and their block index never moves; the row block is fetched at every point. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of_6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The proof data: the arrays as the region finds them; after the body at point `t` each input buffer at its
    block and the three output buffers at the q, k and v blocks of the point's rows; the invariant is the scoped rest
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outQ (iblk V c 0 t) (iblk V c 1 t) (iblk V c 2 t)
    | ⟨8, _⟩ => outK (iblk V c 0 t) (iblk V c 3 t) (iblk V c 4 t)
    | ⟨9, _⟩ => outV (iblk V c 0 t) (iblk V c 5 t) (iblk V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = outQ (iblk V c 0 t) (iblk V c 1 t) (iblk V c 2 t) := by dsimp only [dat]
theorem after_8 (c : Dev nD) (t : Fin cfg0.N) : (dat V c).after 8 t = outK (iblk V c 0 t) (iblk V c 3 t) (iblk V c 4 t) := by dsimp only [dat]
theorem after_9 (c : Dev nD) (t : Fin cfg0.N) : (dat V c).after 9 t = outV (iblk V c 0 t) (iblk V c 5 t) (iblk V c 6 t) := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d
theorem before_4 (c : Dev nD) (t : Fin cfg0.N) (d) : (dat V c).before 4 t d = iblk V c 4 t :=
  before_of_4 V (dat V c) (A_eq V c 4) (after_4 V c) t d
theorem before_5 (c : Dev nD) (t : Fin cfg0.N) (d) : (dat V c).before 5 t d = iblk V c 5 t :=
  before_of_5 V (dat V c) (A_eq V c 5) (after_5 V c) t d
theorem before_6 (c : Dev nD) (t : Fin cfg0.N) (d) : (dat V c).before 6 t d = iblk V c 6 t :=
  before_of_6 V (dat V c) (A_eq V c 6) (after_6 V c) t d

/-! ## The body obligation at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

set_option maxHeartbeats 4000000 in
/-- The body at any point: the inputs' buffers hold their blocks, so the triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _
    (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dat (F := F) V c) (defs₀ (F := F)) Variants.none () Set.univ := fun t => by
  rw [bigSep_W0, bigSep_W0]
  exact sound_body V c t

end Data

end Cert.Kernel.Qkv

end
-- ==== Proof.Bits.AttnRuns.lean ====
/-
  Region 1 of the program: attention fused with the output projection, on a grid (batch 2, query block 4, head 16)
  whose head axis is innermost. At a point the body reads one head's 512 query rows, that head's 2048 key and value
  rows of the batch, the head's 64 rows of the transposed output weight and the output bias; it adds the head's
  contribution to a 512 × 1024 accumulator kept in scratch — zeroed first when the head is 0 — and, when the head is 15,
  writes accumulator + bias to the output block. So there are three kinds of point: first head, middle head, last head.
  Here: what the three kinds share — the blocks, the two conditions in closed form over the grid, where the output
  window is idle, and the region's invariant with the scratch singled out.
-/
import proofs.«100607_j81028853006766_2_alg».proof.Proof.Gen.Kernel.Launch
import proofs.«100607_j81028853006766_2_alg».proof.Proof.Gen.Kernel.Skeleton
import proofs.«100607_j81028853006766_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the contents `V` the region is entered with -/

section Blocks
variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The two conditions, in closed form over the grid -/

/-- "The head is 0": the accumulator is zeroed first. -/
abbrev cond0 (i : grid1.Coords) : Prop := (Scalar.cmpi .ne (Scalar.extui (Scalar.cmpi .eq (BitVec.ofNat 32 (i 2).val) 0#32)) 0#32) = 1#1
theorem hcond0 : ∀ t : Fin cfg1.N, cond0 (grid1.coords t) ↔ t.val % 16 = 0 :=
  (by decide +kernel : ∀ t : Fin grid1.N, cond0 (grid1.coords t) ↔ t.val % 16 = 0)

/-- "The head is 15": the output block is written. -/
abbrev cond1 (i : grid1.Coords) : Prop := k1_cond2 i = 1#1
theorem hcond1 : ∀ t : Fin cfg1.N, cond1 (grid1.coords t) ↔ t.val % 16 = 15 :=
  (by decide +kernel : ∀ t : Fin grid1.N, cond1 (grid1.coords t) ↔ t.val % 16 = 15)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem live_4 : ∀ t : Fin cfg1.N, cfg1.idle 4 (grid1.coords t) = false := by decide +kernel
/-- Unless the head is 15 the output window is idle and not written back. -/
theorem idle_5 : ∀ t : Fin cfg1.N, ¬cond1 (grid1.coords t) → cfg1.idle 5 (grid1.coords t) = true := by decide +kernel
theorem noFlush_5 : ∀ t : Fin cfg1.N, ¬cond1 (grid1.coords t) → (cfg1.win 5).flush t = false := by decide +kernel
theorem live_5 : ∀ t : Fin cfg1.N, cond1 (grid1.coords t) → cfg1.idle 5 (grid1.coords t) = false := by decide +kernel

/-! ## The staging memrefs at a point, and the scratch -/

abbrev VO : View sig .tc .vmem S1x512x1024 .f32 := (Memref.whole cc1_stg5_0 : Memref sig .tc .vmem S1x512x1024 .f32).view
abbrev ms0 (t : Fin cfg1.N) : Memref sig .tc .vmem S1x512x64 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x2048x64 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2048x64 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S64x1024 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x512x1024 .f32 := win1_5.stage (cfg1.slots t 5)
abbrev hs5 (t : Fin cfg1.N) : (ms5 t).IsWhole := hstage1_5 ((cfg1.slots t 5).cast nbuf1_5)
/-- The accumulator: a whole scoped buffer of the kernel's own. -/
abbrev scM : Memref sig .tc .vmem S512x1024 .f32 := Memref.whole cc1_scratch0
abbrev VS : View sig .tc .vmem S512x1024 .f32 := scM.view

/-- The other scoped buffers that are no staging buffer of this region (region 0's staging buffers), each at anything. -/
def others (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ S)

/-- The class invariant with the accumulator singled out as a memref owned at some contents. -/
theorem PhiA_eq (c : Dev nD) :
    (Pipeline.ΦA spec1 c : sProp 𝕄) = iprop(others c (iprop(∃ d, owns (c : Thread nD τ) scM fullShare d)) ∗ (∃ r, prngReg c r)) := by
  unfold Pipeline.ΦA others; rw [scopedRest1_eq]; simp only [scM, owns_whole]; try rfl

end Cert.Kernel.Attn

end
-- ==== Proof.Bits.AttnRunA.lean ====
/-
  Region 1, the body's run at a point of the kind "A" — the first head: the accumulator is zeroed, then the head's contribution added; the output buffer is handed back untouched.
  The pieces each written buffer ends with are found by the run itself.
-/
import proofs.«100607_j81028853006766_2_alg».proof.Proof.Bits.AttnRuns

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runA (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) :
    Σ' (L5 : List (View.Piece (Elt F) S1x512x1024 .f32)), { LS : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc1__attn_out_kernel i arg3 harg3 arg4 harg4 arg5 harg5 arg6 harg6 arg7 harg7 arg8 harg8 arg9 harg9) K } := by
  refine ⟨[], ?_, fun xi5 E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Attn

end
-- ==== Proof.Bits.AttnRunB.lean ====
/-
  Region 1, the body's run at a point of the kind "B" — a middle head: the head's contribution is added to what the point before left in the accumulator; the output buffer is handed back untouched.
  The pieces each written buffer ends with are found by the run itself.
-/
import proofs.«100607_j81028853006766_2_alg».proof.Proof.Bits.AttnRunA

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runB (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) :
    Σ' (L5 : List (View.Piece (Elt F) S1x512x1024 .f32)), { LS : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc1__attn_out_kernel i arg3 harg3 arg4 harg4 arg5 harg5 arg6 harg6 arg7 harg7 arg8 harg8 arg9 harg9) K } := by
  refine ⟨[], ?_, fun xi5 E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Attn

end
-- ==== Proof.Bits.AttnRunC.lean ====
/-
  Region 1, the body's run at a point of the kind "C" — the last head: the head's contribution is added to the accumulator, and accumulator + bias is stored to the output buffer.
  The pieces each written buffer ends with are found by the run itself.
-/
import proofs.«100607_j81028853006766_2_alg».proof.Proof.Bits.AttnRunB

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runC (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) :
    Σ' (L5 : List (View.Piece (Elt F) S1x512x1024 .f32)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc1__attn_out_kernel i arg3 harg3 arg4 harg4 arg5 harg5 arg6 harg6 arg7 harg7 arg8 harg8 arg9 harg9) K } := by
  refine ⟨?_, ?_, fun E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.Kernel.Attn

end
-- ==== Proof.Bits.Attn.lean ====
/-
  Region 1: from the three kinds of run to the pipeline's proof data and body obligation.
  The accumulator after point n is a function of the point's blocks and, unless the head is 0, of the accumulator after
  point n − 1; the output buffer holds accumulator + bias at the points whose head is 15, where it is written back.
  The region's invariant tracks the accumulator: before the first point the scoped rest at anything, afterwards the
  accumulator at what the point before left and the other scoped buffers at anything.
-/
import proofs.«100607_j81028853006766_2_alg».proof.Proof.Bits.AttnRunC

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Kind A: the pieces the accumulator ends with tile it. -/
theorem scoverA (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) (y : S512x1024.Idx) :
    ∃ pc ∈ (runA c i arg3 harg3 arg4 harg4 arg5 harg5 arg6 harg6 arg7 harg7 arg8 harg8 arg9 harg9 hc0 hc1 x0 x1 x2 x3 x4).2.1, y ∈ pc.1.set :=
  View.cover_of_tiledL (runA c i arg3 harg3 arg4 harg4 arg5 harg5 arg6 harg6 arg7 harg7 arg8 harg8 arg9 harg9 hc0 hc1 x0 x1 x2 x3 x4).2.1 S512x1024.size (by sl_kernel_rfl) y
/-- Kind A: what the accumulator holds after the body. -/
def soutA (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) : Vec F S512x1024 .f32 :=
  VS.read (Elt F) (VS.writes (Elt F) VS.junk (runA c i arg3 harg3 arg4 harg4 arg5 harg5 arg6 harg6 arg7 harg7 arg8 harg8 arg9 harg9 hc0 hc1 x0 x1 x2 x3 x4).2.1)
/-- Kind A: nothing is stored to the output buffer; a placeholder nothing consults (the window is idle and not written back). -/
def outA (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) : Vec F S1x512x1024 .f32 :=
  VO.read (Elt F) (VO.writes (Elt F) VO.junk (runA c i arg3 harg3 arg4 harg4 arg5 harg5 arg6 harg6 arg7 harg7 arg8 harg8 arg9 harg9 hc0 hc1 x0 x1 x2 x3 x4).1)

/-- Kind B: the pieces the accumulator ends with tile it. -/
theorem scoverB (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) (y : S512x1024.Idx) :
    ∃ pc ∈ (runB c i arg3 harg3 arg4 harg4 arg5 harg5 arg6 harg6 arg7 harg7 arg8 harg8 arg9 harg9 hc0 hc1 x0 x1 x2 x3 x4 xs).2.1, y ∈ pc.1.set :=
  View.cover_of_tiledL (runB c i arg3 harg3 arg4 harg4 arg5 harg5 arg6 harg6 arg7 harg7 arg8 harg8 arg9 harg9 hc0 hc1 x0 x1 x2 x3 x4 xs).2.1 S512x1024.size (by sl_kernel_rfl) y
/-- Kind B: what the accumulator holds after the body. -/
def soutB (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) : Vec F S512x1024 .f32 :=
  VS.read (Elt F) (VS.writes (Elt F) VS.junk (runB c i arg3 harg3 arg4 harg4 arg5 harg5 arg6 harg6 arg7 harg7 arg8 harg8 arg9 harg9 hc0 hc1 x0 x1 x2 x3 x4 xs).2.1)
/-- Kind B: nothing is stored to the output buffer; a placeholder nothing consults (the window is idle and not written back). -/
def outB (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) : Vec F S1x512x1024 .f32 :=
  VO.read (Elt F) (VO.writes (Elt F) VO.junk (runB c i arg3 harg3 arg4 harg4 arg5 harg5 arg6 harg6 arg7 harg7 arg8 harg8 arg9 harg9 hc0 hc1 x0 x1 x2 x3 x4 xs).1)

/-- Kind C: the pieces the accumulator ends with tile it. -/
theorem scoverC (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) (y : S512x1024.Idx) :
    ∃ pc ∈ (runC c i arg3 harg3 arg4 harg4 arg5 harg5 arg6 harg6 arg7 harg7 arg8 harg8 arg9 harg9 hc0 hc1 x0 x1 x2 x3 x4 xs).2.1, y ∈ pc.1.set :=
  View.cover_of_tiledL (runC c i arg3 harg3 arg4 harg4 arg5 harg5 arg6 harg6 arg7 harg7 arg8 harg8 arg9 harg9 hc0 hc1 x0 x1 x2 x3 x4 xs).2.1 S512x1024.size (by sl_kernel_rfl) y
/-- Kind C: what the accumulator holds after the body. -/
def soutC (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) : Vec F S512x1024 .f32 :=
  VS.read (Elt F) (VS.writes (Elt F) VS.junk (runC c i arg3 harg3 arg4 harg4 arg5 harg5 arg6 harg6 arg7 harg7 arg8 harg8 arg9 harg9 hc0 hc1 x0 x1 x2 x3 x4 xs).2.1)
/-- Kind C: the pieces the output buffer ends with tile it. -/
theorem coverC (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) (y : S1x512x1024.Idx) :
    ∃ pc ∈ (runC c i arg3 harg3 arg4 harg4 arg5 harg5 arg6 harg6 arg7 harg7 arg8 harg8 arg9 harg9 hc0 hc1 x0 x1 x2 x3 x4 xs).1, y ∈ pc.1.set :=
  View.cover_of_tiledL (runC c i arg3 harg3 arg4 harg4 arg5 harg5 arg6 harg6 arg7 harg7 arg8 harg8 arg9 harg9 hc0 hc1 x0 x1 x2 x3 x4 xs).1 S1x512x1024.size (by sl_kernel_rfl) y
/-- Kind C: what the output buffer holds after the body. -/
def outC (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) : Vec F S1x512x1024 .f32 :=
  VO.read (Elt F) (VO.writes (Elt F) VO.junk (runC c i arg3 harg3 arg4 harg4 arg5 harg5 arg6 harg6 arg7 harg7 arg8 harg8 arg9 harg9 hc0 hc1 x0 x1 x2 x3 x4 xs).1)

section Data
variable (V : (c : Dev nD) → (b : Ref sig .tc) → Buf (Elt F) ((c : Thread nD τ).loc b))

/-- What the output buffer and the accumulator hold after the body at position `n`. -/
def outsAt (c : Dev nD) : (n : ℕ) → n < cfg1.N → Vec F S1x512x1024 .f32 × Vec F S512x1024 .f32
  | 0, hn => (outA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩) (iblk V c 4 ⟨0, hn⟩), soutA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 16 = 0 then
      if h1 : (n + 1) % 16 = 15 then
        False.elim (by omega)
      else
        (outA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), soutA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : (n + 1) % 16 = 15 then
        (outC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, soutC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)
      else
        (outB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, soutB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)

theorem outsAt_A (c : Dev nD) (t : Fin cfg1.N) (h0 : t.val % 16 = 0) (h1 : ¬t.val % 16 = 15) :
    outsAt V c t.val t.isLt = (outA c (grid1.coords t) (ms0 t) (hs0 t) (ms1 t) (hs1 t) (ms2 t) (hs2 t) (ms3 t) (hs3 t) (ms4 t) (hs4 t) (ms5 t) (hs5 t) scM (Memref.isWhole_whole _) ((hcond0 t).mpr h0) (fun h => h1 ((hcond1 t).mp h)) (iblk V c 0 t) (iblk V c 1 t) (iblk V c 2 t) (iblk V c 3 t) (iblk V c 4 t), soutA c (grid1.coords t) (ms0 t) (hs0 t) (ms1 t) (hs1 t) (ms2 t) (hs2 t) (ms3 t) (hs3 t) (ms4 t) (hs4 t) (ms5 t) (hs5 t) scM (Memref.isWhole_whole _) ((hcond0 t).mpr h0) (fun h => h1 ((hcond1 t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans rfl)

theorem outsAt_B (c : Dev nD) (t : Fin cfg1.N) (h0 : ¬t.val % 16 = 0) (h1 : ¬t.val % 16 = 15) :
    outsAt V c t.val t.isLt = (outB c (grid1.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) (fun h => h1 ((hcond1 t).mp h)) (iblk V c 0 t) (iblk V c 1 t) (iblk V c 2 t) (iblk V c 3 t) (iblk V c 4 t) (outsAt V c (t.val - 1) (Nat.lt_of_le_of_lt (Nat.sub_le _ _) t.isLt)).2, soutB c (grid1.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) (fun h => h1 ((hcond1 t).mp h)) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 16 = 0) (h1 : t.val % 16 = 15) :
    outsAt V c t.val t.isLt = (outC c (grid1.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond1 t).mpr h1) (iblk V c 0 t) (iblk V c 1 t) (iblk V c 2 t) (iblk V c 3 t) (iblk V c 4 t) (outsAt V c (t.val - 1) (Nat.lt_of_le_of_lt (Nat.sub_le _ _) t.isLt)).2, soutC c (grid1.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond1 t).mpr h1) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`. -/
def PhiS (c : Dev nD) : (n : ℕ) → n ≤ cfg1.N → sProp 𝕄
  | 0, _ => Pipeline.ΦA spec1 c
  | n + 1, hn => iprop(others c (owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(others c (owns (c : Thread nD τ) scM fullShare ((outsAt V c n hn).2)) ∗ (∃ r, prngReg c r)) := rfl
theorem PhiS_pos (c : Dev nD) (n : ℕ) (h : n ≤ cfg1.N) (hz : n ≠ 0) :
    PhiS V c n h = iprop(others c (owns (c : Thread nD τ) scM fullShare ((outsAt V c (n - 1) (by omega)).2)) ∗ (∃ r, prngReg c r)) := by
  cases n with
  | zero => exact absurd rfl hz
  | succ n => rfl

/-- The proof data of the region on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]
theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 8000000 in
/-- The body at any point: the inputs' buffers hold their blocks; the closed forms say which kind the point is; the
    invariant hands over the accumulator at what the point before left (at anything before the first point) and takes
    it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg1.N = 128 from N_1)
  by_cases h0 : t.val % 16 = 0
  · by_cases h1 : t.val % 16 = 15
    · exfalso; omega
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [show (dat V c).leavesExact 3 t = owns (c : Thread nD τ) (ms3 t) fullShare ((dat V c).after 3 t) from by
        unfold Dat.leavesExact; rw [live_3 t], after_3]
      rw [show (dat V c).leavesExact 4 t = owns (c : Thread nD τ) (ms4 t) fullShare ((dat V c).after 4 t) from by
        unfold Dat.leavesExact; rw [live_4 t], after_4]
      rw [Dat.leavesExact_idle (dat V c) 5 t (idle_5 t (fun h => h1 ((hcond1 t).mp h))) (noFlush_5 t (fun h => h1 ((hcond1 t).mp h)))]
      rw [outsAt_A V c t h0 h1]
      unfold soutA; (try dsimp only)
      by_cases hz : t.val = 0
      ·
        rw [PhiS_castSucc V c t, PhiS_zero V c _ _ hz, PhiA_eq]
        unfold others
        iintro ⟨⟨⟨R1, R2, R3, R4, R5, R6, R7, R8, R9, R10, R11, R12, R13, R14, HS⟩, Hg⟩, Ho, ⟨%d0, H0⟩, ⟨%d1, H1⟩, ⟨%d2, H2⟩, ⟨%d3, H3⟩, ⟨%d4, H4⟩, ⟨%d5, H5⟩⟩
        iapply ((runA c (grid1.coords t) _ _ _ _ _ _ _ _ _ _ _ _ _ _ ((hcond0 t).mpr h0) (fun h => h1 ((hcond1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [R1 R2 R3 R4 R5 R6 R7 R8 R9 R10 R11 R12 R13 R14 HS Hg]
        · isplitl [R1 R2 R3 R4 R5 R6 R7 R8 R9 R10 R11 R12 R13 R14 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            unfold owns; iexists _; isplitr
            swap; · iexact HS
            ipureintro; exact View.read_writes_of_cover _ _ _ _ _ (scoverA c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS_castSucc V c t, PhiS_pos V c _ _ hz]
        unfold others
        iintro ⟨⟨⟨R1, R2, R3, R4, R5, R6, R7, R8, R9, R10, R11, R12, R13, R14, HS⟩, Hg⟩, Ho, ⟨%d0, H0⟩, ⟨%d1, H1⟩, ⟨%d2, H2⟩, ⟨%d3, H3⟩, ⟨%d4, H4⟩, ⟨%d5, H5⟩⟩
        iapply ((runA c (grid1.coords t) _ _ _ _ _ _ _ _ _ _ _ _ _ _ ((hcond0 t).mpr h0) (fun h => h1 ((hcond1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [R1 R2 R3 R4 R5 R6 R7 R8 R9 R10 R11 R12 R13 R14 HS Hg]
        · isplitl [R1 R2 R3 R4 R5 R6 R7 R8 R9 R10 R11 R12 R13 R14 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            unfold owns; iexists _; isplitr
            swap; · iexact HS
            ipureintro; exact View.read_writes_of_cover _ _ _ _ _ (scoverA c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [show (dat V c).leavesExact 3 t = owns (c : Thread nD τ) (ms3 t) fullShare ((dat V c).after 3 t) from by
        unfold Dat.leavesExact; rw [live_3 t], after_3]
      rw [show (dat V c).leavesExact 4 t = owns (c : Thread nD τ) (ms4 t) fullShare ((dat V c).after 4 t) from by
        unfold Dat.leavesExact; rw [live_4 t], after_4]
      rw [show (dat V c).leavesExact 5 t = owns (c : Thread nD τ) (ms5 t) fullShare ((dat V c).after 5 t) from by
        unfold Dat.leavesExact; rw [live_5 t ((hcond1 t).mpr h1)], after_5]
      rw [outsAt_C V c t h0 h1]
      unfold outC soutC; (try dsimp only)
      by_cases hz : t.val = 0
      · exfalso; omega
      ·
        rw [PhiS_castSucc V c t, PhiS_pos V c _ _ hz]
        unfold others
        iintro ⟨⟨⟨R1, R2, R3, R4, R5, R6, R7, R8, R9, R10, R11, R12, R13, R14, HS⟩, Hg⟩, Ho, ⟨%d0, H0⟩, ⟨%d1, H1⟩, ⟨%d2, H2⟩, ⟨%d3, H3⟩, ⟨%d4, H4⟩, ⟨%d5, H5⟩⟩
        iapply ((runC c (grid1.coords t) _ _ _ _ _ _ _ _ _ _ _ _ _ _ (fun h => h0 ((hcond0 t).mp h)) ((hcond1 t).mpr h1) (iblk V c 0 t) (iblk V c 1 t) (iblk V c 2 t) (iblk V c 3 t) (iblk V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS]; · iexact HS
        iintro ⟨H0, H1, H2, H3, H4, ⟨%e5, H5⟩, ⟨%es, HS⟩⟩
        isplitl [R1 R2 R3 R4 R5 R6 R7 R8 R9 R10 R11 R12 R13 R14 HS Hg]
        · isplitl [R1 R2 R3 R4 R5 R6 R7 R8 R9 R10 R11 R12 R13 R14 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            unfold owns; iexists _; isplitr
            swap; · iexact HS
            ipureintro; exact View.read_writes_of_cover _ _ _ _ _ (scoverC c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverC c _ _ _ _ _ _ _ _ _ _ _ _ _ _ _ _ _ _ _ _ _ _ _)
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [show (dat V c).leavesExact 3 t = owns (c : Thread nD τ) (ms3 t) fullShare ((dat V c).after 3 t) from by
        unfold Dat.leavesExact; rw [live_3 t], after_3]
      rw [show (dat V c).leavesExact 4 t = owns (c : Thread nD τ) (ms4 t) fullShare ((dat V c).after 4 t) from by
        unfold Dat.leavesExact; rw [live_4 t], after_4]
      rw [Dat.leavesExact_idle (dat V c) 5 t (idle_5 t (fun h => h1 ((hcond1 t).mp h))) (noFlush_5 t (fun h => h1 ((hcond1 t).mp h)))]
      rw [outsAt_B V c t h0 h1]
      unfold soutB; (try dsimp only)
      by_cases hz : t.val = 0
      · exfalso; omega
      ·
        rw [PhiS_castSucc V c t, PhiS_pos V c _ _ hz]
        unfold others
        iintro ⟨⟨⟨R1, R2, R3, R4, R5, R6, R7, R8, R9, R10, R11, R12, R13, R14, HS⟩, Hg⟩, Ho, ⟨%d0, H0⟩, ⟨%d1, H1⟩, ⟨%d2, H2⟩, ⟨%d3, H3⟩, ⟨%d4, H4⟩, ⟨%d5, H5⟩⟩
        iapply ((runB c (grid1.coords t) _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [R1 R2 R3 R4 R5 R6 R7 R8 R9 R10 R11 R12 R13 R14 HS Hg]
        · isplitl [R1 R2 R3 R4 R5 R6 R7 R8 R9 R10 R11 R12 R13 R14 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            unfold owns; iexists _; isplitr
            swap; · iexact HS
            ipureintro; exact View.read_writes_of_cover _ _ _ _ _ (scoverB c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives the class invariant back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  unfold others
  iintro ⟨⟨R1, R2, R3, R4, R5, R6, R7, R8, R9, R10, R11, R12, R13, R14, HS⟩, Hg⟩
  isplitl [R1 R2 R3 R4 R5 R6 R7 R8 R9 R10 R11 R12 R13 R14 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexists _; iexact HS
  iexact Hg

theorem hout (c : Dev nD) : (dat V c).Φ (Fin.last cfg1.N) ⊢ Pipeline.ΦA spec1 c :=
  Phi_out V c _ (by rw [Fin.val_last]; have : cfg1.N = 128 := N_1; omega)

end Data

end Cert.Kernel.Attn

end
-- ==== Proof.Bits.Whole.lean ====
/-
  The whole run of the program: the host operations before the kernels (a reshape of the activations, the four weight
  transposes and conversions, the four bias reshapes), then region 0 (the q / k / v projections), then region 1 (attention
  and the output projection). Between the items every unscoped buffer of a core is held whole at known contents:
  the launch contents; after the host operations; then with region 0's three output arrays at what its write-backs leave;
  then with region 1's output array at what its write-backs leave. Every weakly fair execution terminates, and every
  final state holds each unscoped buffer at the last of these contents.
-/
import proofs.«100607_j81028853006766_2_alg».proof.Proof.Bits.Qkv
import proofs.«100607_j81028853006766_2_alg».proof.Proof.Bits.Attn
import proofs.«100607_j81028853006766_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch. -/
abbrev B0 : Dev nD → Valuation τ sig (Elt F) := fun c b => m (c, b)
/-- After the host operations: region 0's entry. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (Qkv.dat (E1 m) c).arrAt w cfg0.N
theorem B2_arr (c : Dev nD) (w : Fin cfg0.W) :
    B2 m c (Proc.devRef .tc (Pipeline.arrRef spec0 w)) = (Qkv.dat (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (Qkv.dat (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- At region 1's exit: its arrays at what the pipeline leaves, every other buffer as entered. -/
def B3 (c : Dev nD) : Valuation τ sig (Elt F) :=
  Pipeline.withArrays spec1 c (B2 m c) fun w => (Attn.dat (E2 m) c).arrAt w cfg1.N
theorem B3_arr (c : Dev nD) (w : Fin cfg1.W) :
    B3 m c (Proc.devRef .tc (Pipeline.arrRef spec1 w)) = (Attn.dat (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (Attn.dat (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ### The arguments end as launched: no host operation writes one and neither region stages one -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := B2_of_ne m c main_arg0 (by decide)
    _ = B0 m c (Proc.devRef .tc main_arg0) := V1_of m c main_arg0 (by decide)
    _ = m ((c : Thread nD τ).loc main_arg0) := rfl
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = B0 m c (Proc.devRef .tc main_arg1) := V1_of m c main_arg1 (by decide)
    _ = m ((c : Thread nD τ).loc main_arg1) := rfl
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = B0 m c (Proc.devRef .tc main_arg2) := V1_of m c main_arg2 (by decide)
    _ = m ((c : Thread nD τ).loc main_arg2) := rfl
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := V1_of m c main_arg3 (by decide)
    _ = m ((c : Thread nD τ).loc main_arg3) := rfl
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := V1_of m c main_arg4 (by decide)
    _ = m ((c : Thread nD τ).loc main_arg4) := rfl
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = B0 m c (Proc.devRef .tc main_arg5) := V1_of m c main_arg5 (by decide)
    _ = m ((c : Thread nD τ).loc main_arg5) := rfl
theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = B1 m c (Proc.devRef .tc main_arg6) := B2_of_ne m c main_arg6 (by decide)
    _ = B0 m c (Proc.devRef .tc main_arg6) := V1_of m c main_arg6 (by decide)
    _ = m ((c : Thread nD τ).loc main_arg6) := rfl
theorem B3_main_arg7 (c : Dev nD) : B3 m c (Proc.devRef .tc main_arg7) = m ((c : Thread nD τ).loc main_arg7) :=
  calc B3 m c (Proc.devRef .tc main_arg7)
    _ = B2 m c (Proc.devRef .tc main_arg7) := B3_of_ne m c main_arg7 (by decide)
    _ = B1 m c (Proc.devRef .tc main_arg7) := B2_of_ne m c main_arg7 (by decide)
    _ = B0 m c (Proc.devRef .tc main_arg7) := V1_of m c main_arg7 (by decide)
    _ = m ((c : Thread nD τ).loc main_arg7) := rfl
theorem B3_main_arg8 (c : Dev nD) : B3 m c (Proc.devRef .tc main_arg8) = m ((c : Thread nD τ).loc main_arg8) :=
  calc B3 m c (Proc.devRef .tc main_arg8)
    _ = B2 m c (Proc.devRef .tc main_arg8) := B3_of_ne m c main_arg8 (by decide)
    _ = B1 m c (Proc.devRef .tc main_arg8) := B2_of_ne m c main_arg8 (by decide)
    _ = B0 m c (Proc.devRef .tc main_arg8) := V1_of m c main_arg8 (by decide)
    _ = m ((c : Thread nD τ).loc main_arg8) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => Qkv.dat (E1 m) c
  | ⟨1, _⟩ => fun c => Attn.dat (E2 m) c
abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Qkv.body_obligation (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Attn.hin (E2 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Attn.hout (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- Every weakly fair execution from memory `m` with zero counters terminates, nothing faulting, and in every final
    state each unscoped buffer of each core holds the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun c => by
      show iprop(StableHlo.held (c : Thread nD τ) (Pipeline.ucRefs τ sig) (B3 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h => h)

/-- The frame: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c),
    (h c _ (mem_uc main_arg8 (by decide))).trans (B3_main_arg8 m c)⟩) (run m ρ)

end Cert.Kernel.Whole

end
-- ==== Proof.RefSide.lean ====
/-
  The reference program read as one function of its arguments.
-/
import proofs.«100607_j81028853006766_2_alg».proof.Proof.Gen.ReferenceIdeal.Run
import proofs.«100607_j81028853006766_2_alg».proof.Proof.Gen.ReferenceIdeal.Read
-- ==== Proof.Frames.lean ====
/-
  The three frame claims and the idealization claim.
  Each kernel program's frame is its whole run (the host operations, the projection kernel, the attention kernel) read
  at the argument arrays; the reference has no kernel, and its frame is its run with the result dropped. The ideal pass
  rewrote nothing, so the idealization claim has no conjunct.
-/
import proofs.«100607_j81028853006766_2_alg».proof.Proof.Ideal.Whole
import proofs.«100607_j81028853006766_2_alg».proof.Proof.Bits.Whole
import proofs.«100607_j81028853006766_2_alg».proof.Proof.RefSide
import proofs.«100607_j81028853006766_2_alg».proof.Defs
import proofs.«100607_j81028853006766_2_alg».proof.Proof.Gen.Kernel
import proofs.«100607_j81028853006766_2_alg».proof.Proof.Gen.KernelIdeal
import proofs.«100607_j81028853006766_2_alg».proof.Proof.Gen.ReferenceIdeal
import proofs.«100607_j81028853006766_2_alg».proof.Proof.Gen.Pre_finite_inputs

noncomputable section

namespace Cert.Proof.Frames

open Idealize.ShloMosaic Idealize.ShloMosaic.TcCoe Idealize.SL.Sem

theorem frame_k : Cert.frame_Kernel := fun m ρ _ => Cert.Kernel.Whole.frame m ρ
theorem frame_ki : Cert.frame_KernelIdeal := fun m ρ _ => Cert.KernelIdeal.Whole.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

end Cert.Proof.Frames

end
-- ==== Proof.Ideal.AttnPay.lean ====
/-
  Region 1: what each kind of point leaves, read back as values.
  With q, k, v, w the point's blocks and acc the accumulator the body finds: a middle or last head leaves
  acc + head(q, k, v, w) in the accumulator, the first head leaves 0 + head(q, k, v, w), and the last head stores
  (that accumulator) + bias to the output buffer — where head is the attention of one head followed by its 64 rows of
  the output projection.
-/
import proofs.«100607_j81028853006766_2_alg».proof.Proof.Ideal.Attn
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A middle head: the accumulator found, plus the head's contribution. -/
theorem soutB_eq (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) :
    soutB c i arg3 harg3 arg4 harg4 arg5 harg5 arg6 harg6 arg7 harg7 arg8 harg8 arg9 harg9 hc0 hc1 x0 x1 x2 x3 x4 xs = k1_pay3 x0 x1 x2 xs x3 := by
  unfold soutB
  rw [View.read_writes_eq_canon _ _ _ (scoverB c i arg3 harg3 arg4 harg4 arg5 harg5 arg6 harg6 arg7 harg7 arg8 harg8 arg9 harg9 hc0 hc1 x0 x1 x2 x3 x4 xs)]
  unfold runB
  dsimp only
  rw [View.canon_unit_zero hz2]
  simp only [View.readAt_eq_ld, harg3.read_unread, harg4.read_unread, harg5.read_unread, harg6.read_unread, harg7.read_unread, harg9.read_unread,
    View.ld_unit_zero (S := S1x512x64) hz3, View.ld_unit_zero (S := S1x2048x64) hz3, View.ld_unit_zero (S := S512x1024) hz2,
    View.ld_unit_zero (S := S64x1024) hz2, View.ld_unit_zero (S := S1x1024) hz2]

/-- The last head: the same in the accumulator. -/
theorem soutC_eq (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) :
    soutC c i arg3 harg3 arg4 harg4 arg5 harg5 arg6 harg6 arg7 harg7 arg8 harg8 arg9 harg9 hc0 hc1 x0 x1 x2 x3 x4 xs = k1_pay3 x0 x1 x2 xs x3 := by
  unfold soutC
  rw [View.read_writes_eq_canon _ _ _ (scoverC c i arg3 harg3 arg4 harg4 arg5 harg5 arg6 harg6 arg7 harg7 arg8 harg8 arg9 harg9 hc0 hc1 x0 x1 x2 x3 x4 xs)]
  unfold runC
  dsimp only
  sl_unfold_words
  rw [View.canon_unit_zero hz2]
  simp only [View.readAt_eq_ld, harg3.read_unread, harg4.read_unread, harg5.read_unread, harg6.read_unread, harg7.read_unread, harg9.read_unread,
    View.ld_unit_zero (S := S1x512x64) hz3, View.ld_unit_zero (S := S1x2048x64) hz3, View.ld_unit_zero (S := S512x1024) hz2,
    View.ld_unit_zero (S := S64x1024) hz2, View.ld_unit_zero (S := S1x1024) hz2]

/-- The last head: the output buffer holds that accumulator plus the bias row. -/
theorem outC_eq (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0 i) (hc1 : cond1 i)
    (x0 : Vec F S1x512x64 .bf16) (x1 : Vec F S1x2048x64 .bf16) (x2 : Vec F S1x2048x64 .bf16) (x3 : Vec F S64x1024 .bf16) (x4 : Vec F S1x1024 .f32) (xs : Vec F S512x1024 .f32) :
    outC c i arg3 harg3 arg4 harg4 arg5 harg5 arg6 harg6 arg7 harg7 arg8 harg8 arg9 harg9 hc0 hc1 x0 x1 x2 x3 x4 xs = k1_pay1 (k1_pay3 x0 x1 x2 xs x3) x4 := by
  unfold outC
  rw [View.read_writes_eq_canon _ _ _ (coverC c i arg3 harg3 arg4 harg4 arg5 harg5 arg6 harg6 arg7 harg7 arg8 harg8 arg9 harg9 hc0 hc1 x0 x1 x2 x3 x4 xs)]
  unfold runC
  dsimp only
  sl_unfold_words
  rw [View.canon_unit_zero hz3, View.readCov_unit_zero (S := S512x1024) _ hz2]
  simp only [View.readAt_eq_ld, harg3.read_unread, harg4.read_unread, harg5.read_unread, harg6.read_unread, harg7.read_unread, harg9.read_unread,
    View.ld_unit_zero (S := S1x512x64) hz3, View.ld_unit_zero (S := S1x2048x64) hz3, View.ld_unit_zero (S := S512x1024) hz2,
    View.ld_unit_zero (S := S64x1024) hz2, View.ld_unit_zero (S := S1x1024) hz2]

/-- The first head: the zero block, plus the head's contribution. -/
theorem soutA_eq (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole) (hc0 : cond0 i) (hc1 : ¬cond1 i)
    (x0 : Vec F S1x512x64 .bf16) (x1 : Vec F S1x2048x64 .bf16) (x2 : Vec F S1x2048x64 .bf16) (x3 : Vec F S64x1024 .bf16) (x4 : Vec F S1x1024 .f32) :
    soutA c i arg3 harg3 arg4 harg4 arg5 harg5 arg6 harg6 arg7 harg7 arg8 harg8 arg9 harg9 hc0 hc1 x0 x1 x2 x3 x4 = k1_pay3 x0 x1 x2 (k1_pay2 (F := F)) x3 := by
  unfold soutA
  rw [View.read_writes_eq_canon _ _ _ (scoverA c i arg3 harg3 arg4 harg4 arg5 harg5 arg6 harg6 arg7 harg7 arg8 harg8 arg9 harg9 hc0 hc1 x0 x1 x2 x3 x4)]
  unfold runA
  dsimp only
  sl_unfold_words
  rw [View.canon_cons_unit_zero (S := S512x1024) hz2, View.readCov_unit_zero (S := S512x1024) _ hz2]
  simp only [View.readAt_eq_ld, harg3.read_unread, harg4.read_unread, harg5.read_unread, harg6.read_unread, harg7.read_unread, harg9.read_unread,
    View.ld_unit_zero (S := S1x512x64) hz3, View.ld_unit_zero (S := S1x2048x64) hz3, View.ld_unit_zero (S := S512x1024) hz2,
    View.ld_unit_zero (S := S64x1024) hz2, View.ld_unit_zero (S := S1x1024) hz2]

end Cert.KernelIdeal.Attn

end
-- ==== Proof.Ideal.AttnChain.lean ====
/-
  Region 1: the accumulator point by point, in closed form.
  The grid runs the 16 heads of one (batch, query block) consecutively. After position n the accumulator holds:
  at a first head (n ≡ 0 mod 16) the zero block plus that head's contribution; otherwise what position n − 1 left plus
  the head's contribution. At a last head (n ≡ 15 mod 16) the output buffer holds that accumulator plus the bias row.
-/
import proofs.«100607_j81028853006766_2_alg».proof.Proof.Ideal.AttnPay

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Chain
variable (V : (c : Dev nD) → (b : Ref sig .tc) → Buf (Elt F) ((c : Thread nD τ).loc b))

/-- The accumulator after position `n`. -/
def acc (c : Dev nD) : (n : ℕ) → n < cfg1.N → Vec F S512x1024 .f32
  | 0, h => k1_pay3 (iblk V c 0 ⟨0, h⟩) (iblk V c 1 ⟨0, h⟩) (iblk V c 2 ⟨0, h⟩) (k1_pay2 (F := F)) (iblk V c 3 ⟨0, h⟩)
  | n + 1, h =>
    if (n + 1) % 16 = 0 then k1_pay3 (iblk V c 0 ⟨n + 1, h⟩) (iblk V c 1 ⟨n + 1, h⟩) (iblk V c 2 ⟨n + 1, h⟩) (k1_pay2 (F := F)) (iblk V c 3 ⟨n + 1, h⟩)
    else k1_pay3 (iblk V c 0 ⟨n + 1, h⟩) (iblk V c 1 ⟨n + 1, h⟩) (iblk V c 2 ⟨n + 1, h⟩) (acc c n (Nat.lt_of_succ_lt h)) (iblk V c 3 ⟨n + 1, h⟩)

theorem acc_reset (c : Dev nD) (n : ℕ) (h : n + 1 < cfg1.N) (h0 : (n + 1) % 16 = 0) :
    acc V c (n + 1) h = k1_pay3 (iblk V c 0 ⟨n + 1, h⟩) (iblk V c 1 ⟨n + 1, h⟩) (iblk V c 2 ⟨n + 1, h⟩) (k1_pay2 (F := F)) (iblk V c 3 ⟨n + 1, h⟩) := by
  show (if (n + 1) % 16 = 0 then _ else _) = _
  exact if_pos h0
theorem acc_step (c : Dev nD) (n : ℕ) (h : n + 1 < cfg1.N) (h0 : ¬(n + 1) % 16 = 0) :
    acc V c (n + 1) h = k1_pay3 (iblk V c 0 ⟨n + 1, h⟩) (iblk V c 1 ⟨n + 1, h⟩) (iblk V c 2 ⟨n + 1, h⟩) (acc V c n (Nat.lt_of_succ_lt h)) (iblk V c 3 ⟨n + 1, h⟩) := by
  show (if (n + 1) % 16 = 0 then _ else _) = _
  exact if_neg h0

/-- What the runs found in the accumulator is this recursion: by induction on the position. -/
theorem outsAt_snd (c : Dev nD) : ∀ (n : ℕ) (h : n < cfg1.N), (outsAt V c n h).2 = acc V c n h
  | 0, h => by
    rw [outsAt_A V c ⟨0, h⟩ rfl (by show ¬(0 % 16 = 15); decide)]
    dsimp only
    rw [soutA_eq]
    rfl
  | n + 1, h => by
    by_cases h0 : (n + 1) % 16 = 0
    · have h1 : ¬(n + 1) % 16 = 15 := by omega
      rw [outsAt_A V c ⟨n + 1, h⟩ h0 h1, acc_reset V c n h h0]
      dsimp only
      rw [soutA_eq]
    · by_cases h1 : (n + 1) % 16 = 15
      · rw [outsAt_C V c ⟨n + 1, h⟩ h0 h1, acc_step V c n h h0]
        dsimp only
        rw [soutC_eq]
        show k1_pay3 _ _ _ (outsAt V c n _).2 _ = _
        rw [outsAt_snd c n]
      · rw [outsAt_B V c ⟨n + 1, h⟩ h0 h1, acc_step V c n h h0]
        dsimp only
        rw [soutB_eq]
        show k1_pay3 _ _ _ (outsAt V c n _).2 _ = _
        rw [outsAt_snd c n]

/-- At a last head the output buffer holds the accumulator plus the bias row. -/
theorem outsAt_fst (c : Dev nD) (t : Fin cfg1.N) (h1 : t.val % 16 = 15) :
    (outsAt V c t.val t.isLt).1 = k1_pay1 (acc V c t.val t.isLt) (iblk V c 4 t) := by
  have h0 : ¬t.val % 16 = 0 := by omega
  obtain ⟨n, hn⟩ := t
  cases n with
  | zero => exact absurd h1 (by show ¬(0 % 16 = 15); decide)
  | succ n =>
    rw [outsAt_C V c ⟨n + 1, hn⟩ h0 h1, acc_step V c n hn h0]
    dsimp only
    rw [outC_eq]
    show k1_pay1 (k1_pay3 _ _ _ (outsAt V c n _).2 _) _ = _
    rw [outsAt_snd V c n]

end Chain

end Cert.KernelIdeal.Attn

end
-- ==== Proof.Ideal.HeadOps.lean ====
/-
  The operations of one attention head, each read at an index over the extended reals:
  the three matrix products as finite sums, a row's maximum as a fold of max from −∞, a row's sum,
  and a column [512] kept as [512, 1] and broadcast along rows.
-/
import proofs.«100607_j81028853006766_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

theorem dotQK_apply_lhs0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem dotQK_apply_lhs1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem dotQK_apply_rhs0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem dotQK_apply_rhs1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q
/-- Queries times keys transposed: entry (a, b) is the sum over the 64 features of query a times key b. -/
theorem dotQK_apply {φ₁ φ₂ : FTy} (l : FVec Ideal S512x64 φ₁) (rr : FVec Ideal S2048x64 φ₂) (a : Fin 512) (b : Fin 2048) :
    FloatOps.matmul dot_S512x64_S2048x64_S512x2048_1_1_0_0_n_n none l rr (constant S512x2048 .f32 0x00000000#32) (ix2 a b)
      = ∑ k : Fin 64, l (ix2 a k) * rr (ix2 b k) := by
  rw [Ideal.matmul_constant_zero_apply, ← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 a b) ((ValueIdx.contrEquiv1 dot_S512x64_S2048x64_S512x2048_1_1_0_0_n_n 64 rfl rfl).symm k) = ix2 a k := funext fun x => Fin.ext (by
    match x with
    | ⟨0, _⟩ => exact dotQK_apply_lhs0 _ _
    | ⟨1, _⟩ => exact (dotQK_apply_lhs1 _ _).trans hk)
  have er : dot_S512x64_S2048x64_S512x2048_1_1_0_0_n_n.rhsIdx (ix2 a b) ((ValueIdx.contrEquiv1 dot_S512x64_S2048x64_S512x2048_1_1_0_0_n_n 64 rfl rfl).symm k) = ix2 b k := funext fun x => Fin.ext (by
    match x with
    | ⟨0, _⟩ => exact dotQK_apply_rhs0 _ _
    | ⟨1, _⟩ => exact (dotQK_apply_rhs1 _ _).trans hk)
  rw [el, er]
theorem dotPV_apply_lhs0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem dotPV_apply_lhs1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem dotPV_apply_rhs0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem dotPV_apply_rhs1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
/-- Weights times values: entry (a, b) is the sum over the 2048 key positions. -/
theorem dotPV_apply {φ₁ φ₂ : FTy} (l : FVec Ideal S512x2048 φ₁) (rr : FVec Ideal S2048x64 φ₂) (a : Fin 512) (b : Fin 64) :
    FloatOps.matmul dot_S512x2048_S2048x64_S512x64_1_0_0_1_n_n none l rr (constant S512x64 .f32 0x00000000#32) (ix2 a b)
      = ∑ k : Fin 2048, l (ix2 a k) * rr (ix2 k b) := by
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 a b) ((ValueIdx.contrEquiv1 dot_S512x2048_S2048x64_S512x64_1_0_0_1_n_n 2048 rfl rfl).symm k) = ix2 a k := funext fun x => Fin.ext (by
    match x with
    | ⟨0, _⟩ => exact dotPV_apply_lhs0 _ _
    | ⟨1, _⟩ => exact (dotPV_apply_lhs1 _ _).trans hk)
  have er : dot_S512x2048_S2048x64_S512x64_1_0_0_1_n_n.rhsIdx (ix2 a b) ((ValueIdx.contrEquiv1 dot_S512x2048_S2048x64_S512x64_1_0_0_1_n_n 2048 rfl rfl).symm k) = ix2 k b := funext fun x => Fin.ext (by
    match x with
    | ⟨0, _⟩ => exact (dotPV_apply_rhs0 _ _).trans hk
    | ⟨1, _⟩ => exact dotPV_apply_rhs1 _ _)
  rw [el, er]
theorem dotOW_apply_lhs0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem dotOW_apply_lhs1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
theorem dotOW_apply_rhs0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
theorem dotOW_apply_rhs1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl
/-- The head's output times its 64 rows of the projection: entry (a, b) is the sum over the 64 features. -/
theorem dotOW_apply {φ₁ φ₂ : FTy} (l : FVec Ideal S512x64 φ₁) (rr : FVec Ideal S64x1024 φ₂) (a : Fin 512) (b : Fin 1024) :
    FloatOps.matmul dot_S512x64_S64x1024_S512x1024_1_0_0_1_n_n none l rr (constant S512x1024 .f32 0x00000000#32) (ix2 a b)
      = ∑ k : Fin 64, l (ix2 a k) * rr (ix2 k b) := by
  rw [Ideal.matmul_constant_zero_apply, ← Equiv.sum_comp (ValueIdx.contrEquiv1 dot_S512x64_S64x1024_S512x1024_1_0_0_1_n_n 64 rfl rfl).symm]
  refine Finset.sum_congr rfl fun k _ => ?_
  have hk := ValueIdx.contrEquiv1_symm_val dot_S512x64_S64x1024_S512x1024_1_0_0_1_n_n 64 rfl rfl k
  have el : dot_S512x64_S64x1024_S512x1024_1_0_0_1_n_n.lhsIdx (ix2 a b) ((ValueIdx.contrEquiv1 dot_S512x64_S64x1024_S512x1024_1_0_0_1_n_n 64 rfl rfl).symm k) = ix2 a k := funext fun x => Fin.ext (by
    match x with
    | ⟨0, _⟩ => exact dotOW_apply_lhs0 _ _
    | ⟨1, _⟩ => exact (dotOW_apply_lhs1 _ _).trans hk)
  have er : dot_S512x64_S64x1024_S512x1024_1_0_0_1_n_n.rhsIdx (ix2 a b) ((ValueIdx.contrEquiv1 dot_S512x64_S64x1024_S512x1024_1_0_0_1_n_n 64 rfl rfl).symm k) = ix2 k b := funext fun x => Fin.ext (by
    match x with
    | ⟨0, _⟩ => exact (dotOW_apply_rhs0 _ _).trans hk
    | ⟨1, _⟩ => exact dotOW_apply_rhs1 _ _)
  rw [el, er]
/-- A row's maximum: the fold of max from the accumulator's value over the row's 2048 entries. -/
theorem rowmax_apply (x : FVec Ideal S512x2048 .f32) (hφ : FKind.Formats .f32)
    (hacc : (0xFF800000#32 : BitVec 32) = FKind.maximumf.neutral .f32 hφ) (r : Fin 512) :
    multiReduction .maximumf [1] S512 x 0xFF800000#32 reduces_S512x2048_S512 hφ hacc (ix1 r)
      = (Finset.univ : Finset (Fin 2048)).fold max (Ideal.ofBits .f32 0xFF800000#32) (fun s => x (ix2 r s)) := by
  refine (Ideal.multiReduction_maximumf_single x _ reduces_S512x2048_S512 hφ hacc (ix1 r)).trans ?_
  show (Finset.univ : Finset (Fin 2048)).fold max (Ideal.ofBits .f32 0xFF800000#32) (x ∘ reduces_S512x2048_S512.lift (ix1 r)) = _
  have hf : (x ∘ reduces_S512x2048_S512.lift (ix1 r)) = fun s : Fin 2048 => x (ix2 r s) :=
    funext fun s => congrArg x (funext fun a => Fin.ext (by
      match a with
      | ⟨0, _⟩ => rfl
      | ⟨1, _⟩ => rfl))
  exact congrArg (fun f => (Finset.univ : Finset (Fin 2048)).fold max (Ideal.ofBits .f32 0xFF800000#32) f) hf

/-- A row's sum over its 2048 entries. -/
theorem rowsum_apply (x : FVec Ideal S512x2048 .f32) (hφ : FKind.Formats .f32)
    (hacc : (0x00000000#32 : BitVec 32) = FKind.add.neutral .f32 hφ) (r : Fin 512) :
    multiReduction .add [1] S512 x 0x00000000#32 reduces_S512x2048_S512 hφ hacc (ix1 r)
      = ∑ s : Fin 2048, x (ix2 r s) := by
  refine (Ideal.multiReduction_add_single x _ reduces_S512x2048_S512 hφ hacc (ix1 r)).trans ?_
  show ∑ s : Fin 2048, x (reduces_S512x2048_S512.lift (ix1 r) s) = _
  refine Finset.sum_congr rfl fun s _ => congrArg x (funext fun a => Fin.ext (by
    match a with
    | ⟨0, _⟩ => rfl
    | ⟨1, _⟩ => rfl))

/-- A vector [a] kept as a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.Attn

end
-- ==== Proof.Ideal.Head.lean ====
/-
  One attention head, as functions of the point's blocks over the extended reals.
  For query row r and key position s the score is (Σ_d q[r,d]·k[s,d]) · 1/8; a row's maximum is the fold of max from −∞;
  the weight is exp(score − max); the denominator is the row's sum of weights; the head's output at feature d is
  (Σ_s weight[r,s]·v[s,d]) divided by the denominator; and the head's contribution to output column e is
  Σ_d output[r,d]·w[d,e]. The accumulation payload at (r, e) is the accumulator's entry plus that contribution; the
  zero block reads 0; the final payload reads accumulator plus bias.
-/
import proofs.«100607_j81028853006766_2_alg».proof.Proof.Ideal.HeadOps
import proofs.«100607_j81028853006766_2_alg».proof.Proof.Gen.KernelIdeal.Skeleton

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- The score of query row `r` against key position `s`. -/
def score (q : FVec Ideal S1x512x64 .bf16) (k : FVec Ideal S1x2048x64 .bf16) (r : Fin 512) (s : Fin 2048) : EReal :=
  (∑ d : Fin 64, q (ix3 (0 : Fin 1) r d) * k (ix3 (0 : Fin 1) s d)) * Ideal.ofBits .f32 0x3E000000#32
/-- The row's maximum score. -/
def rowMax (q : FVec Ideal S1x512x64 .bf16) (k : FVec Ideal S1x2048x64 .bf16) (r : Fin 512) : EReal :=
  (Finset.univ : Finset (Fin 2048)).fold max (Ideal.ofBits .f32 0xFF800000#32) (fun s => score q k r s)
/-- The unnormalized weight. -/
def weight (q : FVec Ideal S1x512x64 .bf16) (k : FVec Ideal S1x2048x64 .bf16) (r : Fin 512) (s : Fin 2048) : EReal :=
  Ideal.exp (score q k r s - rowMax q k r)
/-- The row's denominator. -/
def denom (q : FVec Ideal S1x512x64 .bf16) (k : FVec Ideal S1x2048x64 .bf16) (r : Fin 512) : EReal :=
  ∑ s : Fin 2048, weight q k r s
/-- The head's output at row `r`, feature `d`: normalized after the product with the values. -/
def attend (q : FVec Ideal S1x512x64 .bf16) (k v : FVec Ideal S1x2048x64 .bf16) (r : Fin 512) (d : Fin 64) : EReal :=
  Ideal.div (∑ s : Fin 2048, weight q k r s * v (ix3 (0 : Fin 1) s d)) (denom q k r)
/-- The head's contribution to output column `e` through its 64 rows of the projection. -/
def contrib (q : FVec Ideal S1x512x64 .bf16) (k v : FVec Ideal S1x2048x64 .bf16) (w : FVec Ideal S64x1024 .bf16) (r : Fin 512) (e : Fin 1024) : EReal :=
  ∑ d : Fin 64, attend q k v r d * w (ix2 d e)

/-- The zero block reads 0 everywhere. -/
theorem pay2_apply (j : S512x1024.Idx) : k1_pay2 (F := Ideal) j = 0 := by
  unfold k1_pay2
  simp only [shapeCast_self]
  show Ideal.ofBits .f32 0x00000000#32 = 0
  exact Ideal.ofBits_zero_f32

/-- The final payload at (0, r, e): the accumulator's entry plus the bias at e. -/
theorem pay1_apply (acc : FVec Ideal S512x1024 .f32) (bias : FVec Ideal S1x1024 .f32) (u : Fin 1) (r : Fin 512) (e : Fin 1024) :
    k1_pay1 (F := Ideal) acc bias (ix3 u r e) = acc (ix2 r e) + bias (ix2 (0 : Fin 1) e) := by
  unfold k1_pay1
  simp only [shapeCast_self]
  refine (shapeCast_ab_1ab_apply _ _ u r e).trans ?_
  show acc (ix2 r e) + _ = _
  exact congrArg (acc (ix2 r e) + ·) (broadcastTo_1b_ab_apply bias _ r e)

/-- The scores block at (r, s). -/
theorem scores_apply (q : FVec Ideal S1x512x64 .bf16) (k : FVec Ideal S1x2048x64 .bf16)
    (h1 : S1x512x64.ShapeCasts S512x64) (h2 : S1x2048x64.ShapeCasts S2048x64) (r : Fin 512) (s : Fin 2048) :
    mulf (FloatOps.matmul dot_S512x64_S2048x64_S512x2048_1_1_0_0_n_n none (shapeCast S512x64 q h1) (shapeCast S2048x64 k h2) (constant S512x2048 .f32 0x00000000#32))
      (broadcast S512x2048 (Scalar.ofBits (F := Ideal) .f32 0x3E000000#32)) (ix2 r s) = score q k r s := by
  show FloatOps.matmul _ none _ _ _ (ix2 r s) * Ideal.ofBits .f32 0x3E000000#32 = _
  refine congrArg (· * Ideal.ofBits .f32 0x3E000000#32) ?_
  refine (dotQK_apply _ _ r s).trans (Finset.sum_congr rfl fun d _ => ?_)
  exact congrArg₂ (· * ·) (shapeCast_1ab_ab_apply q h1 r d) (shapeCast_1ab_ab_apply k h2 s d)

/-- The row-maximum column broadcast along the row, at (r, s), for a scores vector. -/
theorem maxcol_apply (q : FVec Ideal S1x512x64 .bf16) (k : FVec Ideal S1x2048x64 .bf16) (sc : FVec Ideal S512x2048 .f32)
    (hsc : ∀ r s, sc (ix2 r s) = score q k r s) (hφ : FKind.Formats .f32)
    (hacc : (0xFF800000#32 : BitVec 32) = FKind.maximumf.neutral .f32 hφ) (h1 : S512.ShapeCasts S512x1) (h2 : S512x1.Broadcasts S512x2048)
    (r : Fin 512) (s : Fin 2048) :
    broadcastTo S512x2048 (shapeCast S512x1 (multiReduction .maximumf [1] S512 sc 0xFF800000#32 reduces_S512x2048_S512 hφ hacc) h1) h2 (ix2 r s)
      = rowMax q k r := by
  refine (broadcastTo_a1_ab_apply _ h2 r s).trans ((shapeCast_a_a1_apply _ h1 r 0).trans ?_)
  refine (rowmax_apply sc hφ hacc r).trans ?_
  unfold rowMax
  exact congrArg (fun f => (Finset.univ : Finset (Fin 2048)).fold max (Ideal.ofBits .f32 0xFF800000#32) f) (funext fun s' => hsc r s')

/-- The row-sum column broadcast along the features, at (r, d), for a weights vector. -/
theorem sumcol_apply (q : FVec Ideal S1x512x64 .bf16) (k : FVec Ideal S1x2048x64 .bf16) (wv : FVec Ideal S512x2048 .f32)
    (hwv : ∀ r s, wv (ix2 r s) = weight q k r s) (hφ : FKind.Formats .f32)
    (hacc : (0x00000000#32 : BitVec 32) = FKind.add.neutral .f32 hφ) (h1 : S512.ShapeCasts S512x1) (h2 : S512x1.Broadcasts S512x64)
    (r : Fin 512) (d : Fin 64) :
    broadcastTo S512x64 (shapeCast S512x1 (multiReduction .add [1] S512 wv 0x00000000#32 reduces_S512x2048_S512 hφ hacc) h1) h2 (ix2 r d)
      = denom q k r := by
  refine (broadcastTo_a1_ab_apply _ h2 r d).trans ((shapeCast_a_a1_apply _ h1 r 0).trans ?_)
  refine (rowsum_apply wv hφ hacc r).trans ?_
  unfold denom
  exact Finset.sum_congr rfl fun s _ => hwv r s

/-- A weights vector built from a scores vector and its row-maximum column. -/
theorem weight_of (q : FVec Ideal S1x512x64 .bf16) (k : FVec Ideal S1x2048x64 .bf16) (sc mc : FVec Ideal S512x2048 .f32)
    (hsc : ∀ r s, sc (ix2 r s) = score q k r s) (hmc : ∀ r s, mc (ix2 r s) = rowMax q k r) (r : Fin 512) (s : Fin 2048) :
    Ideal.exp (sc (ix2 r s) - mc (ix2 r s)) = weight q k r s := by
  unfold weight; rw [hsc, hmc]

/-- The accumulation payload at (r, e): the accumulator's entry plus the head's contribution. -/
theorem pay3_apply (q : FVec Ideal S1x512x64 .bf16) (k v : FVec Ideal S1x2048x64 .bf16) (acc : FVec Ideal S512x1024 .f32)
    (w : FVec Ideal S64x1024 .bf16) (r : Fin 512) (e : Fin 1024) :
    k1_pay3 (F := Ideal) q k v acc w (ix2 r e) = acc (ix2 r e) + contrib q k v w r e := by
  unfold k1_pay3
  refine (congrFun (shapeCast_self _ _) (ix2 r e)).trans ?_
  show acc (ix2 r e) + FloatOps.matmul _ none _ _ _ (ix2 r e) = _
  refine congrArg (acc (ix2 r e) + ·) ?_
  refine (dotOW_apply _ _ r e).trans (Finset.sum_congr rfl fun d _ => ?_)
  refine congrArg₂ (· * ·) ?_ (congrFun (shapeCast_self w _) (ix2 d e))
  show Ideal.div (FloatOps.matmul (F := Ideal) _ none _ _ _ (ix2 r d)) (broadcastTo S512x64 _ _ (ix2 r d)) = attend q k v r d
  unfold attend
  refine congrArg₂ Ideal.div ?_ ?_
  · refine (dotPV_apply _ _ r d).trans (Finset.sum_congr rfl fun s _ => ?_)
    refine congrArg₂ (· * ·) ?_ (shapeCast_1ab_ab_apply v _ s d)
    show Ideal.exp (_ - _) = _
    exact weight_of q k _ _ (scores_apply q k _ _)
      (fun r' s' => maxcol_apply q k _ (scores_apply q k _ _) _ _ _ _ r' s') r s
  · refine sumcol_apply q k _ (fun r' s' => ?_) _ _ _ _ r d
    show Ideal.exp (_ - _) = _
    exact weight_of q k _ _ (scores_apply q k _ _)
      (fun r'' s'' => maxcol_apply q k _ (scores_apply q k _ _) _ _ _ _ r'' s'') r' s'

end Cert.KernelIdeal.Attn

end
-- ==== Proof.Ideal.AttnValue.lean ====
/-
  Region 1: its output array as one function of the index.
  Output entry (b, p, e), with p = 512·qb + r, is written at the last head of the group (b, qb): it is the sum over the
  group's 16 heads of the head's contribution at (r, e), plus the bias at e. The grid position of head j of that group is
  64·b + 16·qb + j. Every index of the array lies in exactly one written-back block, so this function is the array.
-/
import proofs.«100607_j81028853006766_2_alg».proof.Proof.Ideal.AttnChain
import proofs.«100607_j81028853006766_2_alg».proof.Proof.Ideal.Head

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

section Value
variable (V : (c : Dev nD) → (b : Ref sig .tc) → Buf (Elt Ideal) ((c : Thread nD τ).loc b))

/-- The contribution of the head run at position `n` (0 past the grid's end). -/
def cAt (c : Dev nD) (r : Fin 512) (e : Fin 1024) (n : ℕ) : EReal :=
  if h : n < cfg1.N then contrib (iblk V c 0 ⟨n, h⟩) (iblk V c 1 ⟨n, h⟩) (iblk V c 2 ⟨n, h⟩) (iblk V c 3 ⟨n, h⟩) r e else 0

theorem cAt_of_lt (c : Dev nD) (r : Fin 512) (e : Fin 1024) (n : ℕ) (h : n < cfg1.N) :
    cAt V c r e n = contrib (iblk V c 0 ⟨n, h⟩) (iblk V c 1 ⟨n, h⟩) (iblk V c 2 ⟨n, h⟩) (iblk V c 3 ⟨n, h⟩) r e := dif_pos h

/-- The accumulator after position `n`, at (r, e): the sum of the contributions of the heads run so far in the group. -/
theorem acc_apply (c : Dev nD) (r : Fin 512) (e : Fin 1024) : ∀ (n : ℕ) (h : n < cfg1.N),
    acc V c n h (ix2 r e) = ∑ j ∈ Finset.range (n % 16 + 1), cAt V c r e (n - n % 16 + j)
  | 0, h => by
    show k1_pay3 (F := Ideal) _ _ _ _ _ (ix2 r e) = _
    rw [pay3_apply, pay2_apply, zero_add]
    show _ = ∑ j ∈ Finset.range 1, cAt V c r e (0 + j)
    rw [Finset.sum_range_one]
    exact (cAt_of_lt V c r e 0 h).symm
  | n + 1, h => by
    by_cases h0 : (n + 1) % 16 = 0
    · rw [acc_reset V c n h h0, pay3_apply, pay2_apply, zero_add, h0]
      show _ = ∑ j ∈ Finset.range 1, cAt V c r e (n + 1 - 0 + j)
      rw [Finset.sum_range_one]
      exact (cAt_of_lt V c r e (n + 1) h).symm
    · rw [acc_step V c n h h0, pay3_apply, acc_apply c r e n (Nat.lt_of_succ_lt h)]
      have e1 : (n + 1) % 16 = n % 16 + 1 := by omega
      have e2 : n + 1 - (n % 16 + 1) = n - n % 16 := by omega
      have e3 : n - n % 16 + (n % 16 + 1) = n + 1 := by omega
      rw [e1, e2, Finset.sum_range_succ (fun j => cAt V c r e (n - n % 16 + j)) (n % 16 + 1), e3, cAt_of_lt V c r e (n + 1) h]

/-- At a last head the accumulator holds the sum over the group's 16 heads. -/
theorem acc_at_last (c : Dev nD) (r : Fin 512) (e : Fin 1024) (t : Fin cfg1.N) (h15 : t.val % 16 = 15) :
    acc V c t.val t.isLt (ix2 r e) = ∑ j ∈ Finset.range 16, cAt V c r e (t.val - 15 + j) := by
  rw [acc_apply, h15]

/-- The bias block is the bias row at every point. -/
theorem idx4 : ∀ t : Fin cfg1.N, win1_4.index t (0 : Fin 2) = 0 ∧ win1_4.index t (1 : Fin 2) = 0 :=
  (by decide +kernel : ∀ t : Fin grid1.N, _)
theorem bias_apply (c : Dev nD) (t : Fin cfg1.N) (e : Fin 1024) :
    iblk V c 4 t (ix2 (0 : Fin 1) e) = (V c (Pipeline.arrRef spec1 4) : S1x1024.Idx → EReal) (ix2 (0 : Fin 1) e) := by
  obtain ⟨i0, i1⟩ := idx4 t
  unfold iblk
  rw [View.read_apply]
  show (V c (Pipeline.arrRef spec1 4) : S1x1024.Idx → EReal) (((cfg1.win 4).blk t).view.emb (ix2 (0 : Fin 1) e)) = _
  refine congrArg _ (funext fun a => Fin.ext ?_)
  match a with
  | ⟨0, _⟩ => show win1_4.index t (0 : Fin 2) * 1 + 1 * 0 = 0; omega
  | ⟨1, _⟩ => show win1_4.index t (1 : Fin 2) * 1024 + 1 * e.val = e.val; omega

/-- The output entry at batch `b`, position `p`, column `e`. -/
def outAt (c : Dev nD) (b : Fin 2) (p : Fin 2048) (e : Fin 1024) : EReal :=
  (∑ j ∈ Finset.range 16, cAt V c ⟨p.val % 512, Nat.mod_lt _ (by decide)⟩ e (64 * b.val + 16 * (p.val / 512) + j))
    + (V c (Pipeline.arrRef spec1 4) : S1x1024.Idx → EReal) (ix2 (0 : Fin 1) e)
/-- The output array as one function of the index. -/
def outFn (c : Dev nD) : S2x2048x1024.Idx → EReal := fun i =>
  outAt V c ⟨(i 0).val, (i 0).isLt⟩ ⟨(i 1).val, (i 1).isLt⟩ ⟨(i 2).val, (i 2).isLt⟩

/-- The output window's block index at a point: (batch, query block, 0). -/
theorem idx5 : ∀ t : Fin cfg1.N, win1_5.index t (0 : Fin 3) = t.val / 64 ∧ win1_5.index t (1 : Fin 3) = (t.val / 16) % 4
    ∧ win1_5.index t (2 : Fin 3) = 0 :=
  (by decide +kernel : ∀ t : Fin grid1.N, _)

/-- What a last-head point writes back is its block of the output function. -/
theorem flushed_eq (c : Dev nD) (t : Fin cfg1.N) (hf : (cfg1.win 5).flush t = true) :
    (dat V c).flushed 5 t = ((cfg1.win 5).blk t).view.read (Elt Ideal) (outFn V c) := by
  have h15 : t.val % 16 = 15 := (flush1_5 t).mp hf
  have hN : t.val < 128 := lt_of_lt_of_eq t.isLt (show cfg1.N = 128 from N_1)
  obtain ⟨i0, i1, i2⟩ := idx5 t
  show (cfg1.win 5).cut (grid1.coords t) ((dat V c).after 5 t) = _
  rw [after_5, outsAt_fst V c t h15]
  funext y
  obtain ⟨u, r, e, rfl⟩ : ∃ (u : Fin 1) (r : Fin 512) (e : Fin 1024), y = ix3 u r e := ⟨y 0, y 1, y 2, eq_ix3 y⟩
  have hu : u.val = 0 := by omega
  show k1_pay1 (F := Ideal) (acc V c t.val t.isLt) (iblk V c 4 t) (ix3 u r e) = _
  rw [pay1_apply, acc_at_last V c r e t h15, bias_apply, View.read_apply]
  have e0 : ((((cfg1.win 5).blk t).view.emb (ix3 u r e)) 0).val = t.val / 64 := by
    show win1_5.index t (0 : Fin 3) * 1 + 1 * u.val = _; omega
  have e1 : ((((cfg1.win 5).blk t).view.emb (ix3 u r e)) 1).val = (t.val / 16) % 4 * 512 + r.val := by
    show win1_5.index t (1 : Fin 3) * 512 + 1 * r.val = _; omega
  have e2 : ((((cfg1.win 5).blk t).view.emb (ix3 u r e)) 2).val = e.val := by
    show win1_5.index t (2 : Fin 3) * 1024 + 1 * e.val = _; omega
  generalize ((cfg1.win 5).blk t).view.emb (ix3 u r e) = I at e0 e1 e2
  unfold outFn outAt
  have hr : (⟨(I 1).val % 512, Nat.mod_lt _ (by decide)⟩ : Fin 512) = r := Fin.ext (by show (I 1).val % 512 = r.val; have := r.isLt; omega)
  have he : (⟨(I 2).val, (I 2).isLt⟩ : Fin 1024) = e := Fin.ext e2
  dsimp only
  rw [hr, he]
  refine congrArg (· + _) (Finset.sum_congr rfl fun j hj => congrArg _ ?_)
  have hj' : j < 16 := Finset.mem_range.mp hj
  have := r.isLt
  omega

/-- Every index of the output array lies in the block written back at the last head of its group. -/
theorem cover (c : Dev nD) (i : S2x2048x1024.Idx) :
    ∃ t : Fin cfg1.N, (cfg1.win 5).flush t = true ∧ i ∈ ((cfg1.win 5).blk t).view.set := by
  have h0 : (i 0).val < 2 := (i 0).isLt
  have h1 : (i 1).val < 2048 := (i 1).isLt
  have h2 : (i 2).val < 1024 := (i 2).isLt
  have hN : cfg1.N = 128 := N_1
  let t : Fin cfg1.N := ⟨64 * (i 0).val + 16 * ((i 1).val / 512) + 15, by omega⟩
  obtain ⟨i0, i1, i2⟩ := idx5 t
  have tv : t.val = 64 * (i 0).val + 16 * ((i 1).val / 512) + 15 := rfl
  refine ⟨t, (flush1_5 t).mpr (by omega), ?_⟩
  show i ∈ ((View.whole main_v14).slice (win1_5.rect t)).set
  rw [View.set_slice_whole, Rect.mem_set_unit]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 512 ≤ (i 1).val ∧ (i 1).val < win1_5.index t (1 : Fin 3) * 512 + 512
    omega
  | ⟨2, _⟩ =>
    show win1_5.index t (2 : Fin 3) * 1024 ≤ (i 2).val ∧ (i 2).val < win1_5.index t (2 : Fin 3) * 1024 + 1024
    omega

/-- So after the region the output array is the output function. -/
theorem final (c : Dev nD) : (dat V c).arrAt 5 cfg1.N = outFn V c :=
  (dat V c).arrAt_eq_of_cover 5 (outFn V c) (flushed_eq V c) (cover c)

end Value

end Cert.KernelIdeal.Attn

end
-- ==== Proof.Ideal.AttnBlocks.lean ====
/-
  Region 1's input blocks as entries of the arrays behind them.
  At grid position t = 64·b + 16·qb + h (batch b, query block qb, head h): the query block is rows
  512·(t / 16) … of head t mod 16; the key and value blocks are rows 2048·(t / 64) … of that head; the projection
  block is rows 64·(t mod 16) … of the transposed output weight.
-/
import proofs.«100607_j81028853006766_2_alg».proof.Proof.Ideal.AttnRuns
import Idealize.ShloMosaic.Lib.Pipeline.Value
import Idealize.ShloMosaic.Lib.ValueIdx

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

section Blocks
variable (V : (c : Dev nD) → (b : Ref sig .tc) → Buf (Elt Ideal) ((c : Thread nD τ).loc b))

theorem idx0 : ∀ t : Fin cfg1.N, win1_0.index t (0 : Fin 3) = t.val % 16 ∧ win1_0.index t (1 : Fin 3) = t.val / 16 ∧ win1_0.index t (2 : Fin 3) = 0 :=
  (by decide +kernel : ∀ t : Fin grid1.N, _)
theorem idx1 : ∀ t : Fin cfg1.N, win1_1.index t (0 : Fin 3) = t.val % 16 ∧ win1_1.index t (1 : Fin 3) = t.val / 64 ∧ win1_1.index t (2 : Fin 3) = 0 :=
  (by decide +kernel : ∀ t : Fin grid1.N, _)
theorem idx2 : ∀ t : Fin cfg1.N, win1_2.index t (0 : Fin 3) = t.val % 16 ∧ win1_2.index t (1 : Fin 3) = t.val / 64 ∧ win1_2.index t (2 : Fin 3) = 0 :=
  (by decide +kernel : ∀ t : Fin grid1.N, _)
theorem idx3 : ∀ t : Fin cfg1.N, win1_3.index t (0 : Fin 2) = t.val % 16 ∧ win1_3.index t (1 : Fin 2) = 0 :=
  (by decide +kernel : ∀ t : Fin grid1.N, _)

theorem qblk_apply (c : Dev nD) (t : Fin cfg1.N) (r : Fin 512) (d : Fin 64) :
    iblk V c 0 t (ix3 (0 : Fin 1) r d) = (V c (Pipeline.arrRef spec1 0) : S16x4096x64.Idx → EReal) (ix3 (⟨t.val % 16, Nat.mod_lt _ (by decide)⟩ : Fin 16) (⟨t.val / 16 * 512 + r.val, by have h := (lt_of_lt_of_eq t.isLt N_1); have := r.isLt; omega⟩ : Fin 4096) d) := by
  obtain ⟨i0, i1, i2⟩ := idx0 t
  unfold iblk
  rw [View.read_apply]
  show (V c (Pipeline.arrRef spec1 0) : S16x4096x64.Idx → EReal) (((cfg1.win 0).blk t).view.emb (ix3 (0 : Fin 1) r d)) = _
  refine congrArg _ (funext fun a => Fin.ext ?_)
  match a with
  | ⟨0, _⟩ => show win1_0.index t (0 : Fin 3) * 1 + 1 * 0 = t.val % 16; omega
  | ⟨1, _⟩ => show win1_0.index t (1 : Fin 3) * 512 + 1 * r.val = t.val / 16 * 512 + r.val; omega
  | ⟨2, _⟩ => show win1_0.index t (2 : Fin 3) * 64 + 1 * d.val = d.val; omega

theorem kblk_apply (c : Dev nD) (t : Fin cfg1.N) (s : Fin 2048) (d : Fin 64) :
    iblk V c 1 t (ix3 (0 : Fin 1) s d) = (V c (Pipeline.arrRef spec1 1) : S16x4096x64.Idx → EReal) (ix3 (⟨t.val % 16, Nat.mod_lt _ (by decide)⟩ : Fin 16) (⟨t.val / 64 * 2048 + s.val, by have h := (lt_of_lt_of_eq t.isLt N_1); have := s.isLt; omega⟩ : Fin 4096) d) := by
  obtain ⟨i0, i1, i2⟩ := idx1 t
  unfold iblk
  rw [View.read_apply]
  show (V c (Pipeline.arrRef spec1 1) : S16x4096x64.Idx → EReal) (((cfg1.win 1).blk t).view.emb (ix3 (0 : Fin 1) s d)) = _
  refine congrArg _ (funext fun a => Fin.ext ?_)
  match a with
  | ⟨0, _⟩ => show win1_1.index t (0 : Fin 3) * 1 + 1 * 0 = t.val % 16; omega
  | ⟨1, _⟩ => show win1_1.index t (1 : Fin 3) * 2048 + 1 * s.val = t.val / 64 * 2048 + s.val; omega
  | ⟨2, _⟩ => show win1_1.index t (2 : Fin 3) * 64 + 1 * d.val = d.val; omega

theorem vblk_apply (c : Dev nD) (t : Fin cfg1.N) (s : Fin 2048) (d : Fin 64) :
    iblk V c 2 t (ix3 (0 : Fin 1) s d) = (V c (Pipeline.arrRef spec1 2) : S16x4096x64.Idx → EReal) (ix3 (⟨t.val % 16, Nat.mod_lt _ (by decide)⟩ : Fin 16) (⟨t.val / 64 * 2048 + s.val, by have h := (lt_of_lt_of_eq t.isLt N_1); have := s.isLt; omega⟩ : Fin 4096) d) := by
  obtain ⟨i0, i1, i2⟩ := idx2 t
  unfold iblk
  rw [View.read_apply]
  show (V c (Pipeline.arrRef spec1 2) : S16x4096x64.Idx → EReal) (((cfg1.win 2).blk t).view.emb (ix3 (0 : Fin 1) s d)) = _
  refine congrArg _ (funext fun a => Fin.ext ?_)
  match a with
  | ⟨0, _⟩ => show win1_2.index t (0 : Fin 3) * 1 + 1 * 0 = t.val % 16; omega
  | ⟨1, _⟩ => show win1_2.index t (1 : Fin 3) * 2048 + 1 * s.val = t.val / 64 * 2048 + s.val; omega
  | ⟨2, _⟩ => show win1_2.index t (2 : Fin 3) * 64 + 1 * d.val = d.val; omega

theorem wblk_apply (c : Dev nD) (t : Fin cfg1.N) (d : Fin 64) (e : Fin 1024) :
    iblk V c 3 t (ix2 d e) = (V c (Pipeline.arrRef spec1 3) : S1024x1024.Idx → EReal) (ix2 (⟨t.val % 16 * 64 + d.val, by have := d.isLt; have := Nat.mod_lt t.val (show 0 < 16 by decide); omega⟩ : Fin 1024) e) := by
  obtain ⟨i0, i1⟩ := idx3 t
  unfold iblk
  rw [View.read_apply]
  show (V c (Pipeline.arrRef spec1 3) : S1024x1024.Idx → EReal) (((cfg1.win 3).blk t).view.emb (ix2 d e)) = _
  refine congrArg _ (funext fun a => Fin.ext ?_)
  match a with
  | ⟨0, _⟩ => show win1_3.index t (0 : Fin 2) * 64 + 1 * d.val = t.val % 16 * 64 + d.val; omega
  | ⟨1, _⟩ => show win1_3.index t (1 : Fin 2) * 1024 + 1 * e.val = e.val; omega

end Blocks

end Cert.KernelIdeal.Attn

end
-- ==== Proof.Softmax.lean ====
/-
  The softmax stages of the reference program at the ideal instance, read at an index:
  the row maximum of the scores as a fold of max over the key positions, the softmax denominator
  as a positive real, and the attention output as the quotient of the unnormalised weighted sum by
  that denominator.
-/
import proofs.«100607_j81028853006766_2_alg».proof.Proof.Gen.ReferenceIdeal.Read

noncomputable section

namespace Cert.Softmax

open Cert.ReferenceIdeal Cert.ReferenceIdeal.Gen Cert.ReferenceIdeal.Read Idealize.ShloMosaic Idealize.ShloMosaic.ValueIdx

open scoped BigOperators

/-! ## Extended reals that are real numbers -/

/-- An extended real that is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem isReal_max {x y : EReal} (hx : IsReal x) (hy : IsReal y) : IsReal (max x y) := by
  rcases max_choice x y with h | h
  · rw [h]; exact hx
  · rw [h]; exact hy

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact IsReal.add (h a (Finset.mem_insert_self a s)) (ih fun i hi => h i (Finset.mem_insert_of_mem hi))

/-- From the bottom element, the fold of max over a nonempty finite family of reals is a real (it is one of them). -/
theorem isReal_fold_max {ι : Type*} (s : Finset ι) (f : ι → EReal) (hs : s.Nonempty) (h : ∀ i ∈ s, IsReal (f i)) :
    IsReal (s.fold max ⊥ f) := by
  classical
  induction s using Finset.induction_on with
  | empty => exact absurd hs Finset.not_nonempty_empty
  | insert a s ha ih =>
    rw [Finset.fold_insert ha]
    rcases s.eq_empty_or_nonempty with rfl | hne
    · rw [Finset.fold_empty, max_eq_left bot_le]
      exact h a (Finset.mem_insert_self a _)
    · exact isReal_max (h a (Finset.mem_insert_self a _)) (ih hne fun i hi => h i (Finset.mem_insert_of_mem hi))

/-- A sum of positive reals over a nonempty finite family is a positive real. -/
theorem sum_pos_real {ι : Type*} (s : Finset ι) (hs : s.Nonempty) (f : ι → EReal)
    (h : ∀ i ∈ s, ∃ r : ℝ, 0 < r ∧ f i = (r : EReal)) :
    ∃ l : ℝ, 0 < l ∧ ∑ i ∈ s, f i = (l : EReal) := by
  choose! g hg using h
  refine ⟨∑ i ∈ s, g i, Finset.sum_pos (fun i hi => (hg i hi).1) hs, ?_⟩
  rw [coe_sum]
  exact Finset.sum_congr rfl fun i hi => (hg i hi).2

/-- A nonnegative real constant comes out of a finite sum of extended reals, whatever the summands are. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-! ## The constants of the program -/

/-- The bit pattern 0xFF800000 is −∞. -/
theorem negInf_eq : FloatOps.ofBits (F := Ideal) .f32 0xFF800000#32 = (⊥ : EReal) := by
  show Ideal.ofBits .f32 0xFF800000#32 = ⊥
  simp [Ideal.ofBits, Ideal.ieee]

/-! ## The argument types -/

abbrev Act := (⟨S2x2048x1024, .f32⟩ : BufTy).Contents (Elt Ideal)
abbrev Wt := (⟨S1024x1024, .f32⟩ : BufTy).Contents (Elt Ideal)
abbrev Bias := (⟨S1024, .f32⟩ : BufTy).Contents (Elt Ideal)

/-! ## The row maximum -/

/-- Dropping the last axis of the score array: the facts the fold lemma asks for. -/
theorem reduces_scores : S2x16x2048x2048.Reduces [3] S2x16x2048 := by decide

/-- The row index (b, h, t) with key position k put back on the last axis is (b, h, t, k). -/
theorem lift_scores (b : Fin 2) (h : Fin 16) (t : Fin 2048) (k : Fin (S2x16x2048x2048.size 3)) :
    reduces_scores.lift (ix3 b h t) k = ix4 b h t (⟨k.val, k.isLt⟩ : Fin 2048) := by
  funext c; apply Fin.ext
  fin_cases c <;> rfl

/-- The row maximum of the scores at (b, h, t) is the fold of max, from −∞, of the row's 2048 scores. -/
theorem v24_fold (x0 : Act) (x1 : Wt) (x2 : Bias) (x3 : Wt) (x4 : Bias) (b : Fin 2) (h : Fin 16) (t : Fin 2048) :
    val_main_v24 (F := Ideal) x0 x1 x2 x3 x4 (ix3 b h t)
      = (Finset.univ : Finset (Fin 2048)).fold max (FloatOps.ofBits (F := Ideal) .f32 0xFF800000#32)
          (fun s => val_main_v21 (F := Ideal) x0 x1 x2 x3 x4 (ix4 b h t s)) := by
  rw [val_main_v24_apply, val_main_v23_apply, val_main_cst_1_apply]
  show max (FloatOps.ofBits (F := Ideal) .f32 0xFF800000#32) (val_main_v22 (F := Ideal) x0 x1 x2 x3 x4 (ix3 b h t)) = _
  rw [negInf_eq, max_eq_right bot_le]
  unfold val_main_v22
  refine (Host.reduce_eq_fold_single (FloatOps.maximumf (F := Ideal) (φ := .f32))
    (val_main_v21 (F := Ideal) x0 x1 x2 x3 x4) (val_main_cst_0 (F := Ideal))
    reducesTo_S2x16x2048x2048_S2x16x2048_d3 reduces_scores h_S_ (ix3 b h t)).trans ?_
  rw [val_main_cst_0_apply, negInf_eq]
  have hf : (val_main_v21 (F := Ideal) x0 x1 x2 x3 x4 ∘ reduces_scores.lift (ix3 b h t))
      = fun s : Fin 2048 => val_main_v21 (F := Ideal) x0 x1 x2 x3 x4 (ix4 b h t s) :=
    funext fun k => congrArg (val_main_v21 (F := Ideal) x0 x1 x2 x3 x4) (lift_scores b h t k)
  exact congrArg (fun f => Finset.fold max (⊥ : EReal) f (Finset.univ : Finset (Fin 2048))) hf

/-! ## The projections and the scores are real -/

/-- The q projection before the head split: a sum of products of reals plus a real. -/
theorem v3_real (x0 : Act) (x1 : Wt) (x2 : Bias) (hx0 : ∀ i, IsReal (x0 i)) (hx1 : ∀ i, IsReal (x1 i))
    (hx2 : ∀ i, IsReal (x2 i)) (i : S2x2048x1024.Idx) : IsReal (val_main_v3 (F := Ideal) x0 x1 x2 i) := by
  rw [val_main_v3_apply, val_main_v0_apply, val_main_v2_apply, val_main_v1_apply]
  show IsReal ((∑ k : Fin 1024, _) + _)
  exact IsReal.add (IsReal.sum _ _ fun k _ => IsReal.mul (hx0 _) (hx1 _)) (hx2 _)

/-- Every entry of q is real. -/
theorem v5_real (x0 : Act) (x1 : Wt) (x2 : Bias) (hx0 : ∀ i, IsReal (x0 i)) (hx1 : ∀ i, IsReal (x1 i))
    (hx2 : ∀ i, IsReal (x2 i)) (i : S2x16x2048x64.Idx) : IsReal (val_main_v5 (F := Ideal) x0 x1 x2 i) := by
  rw [val_main_v5_apply, val_main_v4_apply]
  exact v3_real x0 x1 x2 hx0 hx1 hx2 _

/-- The k projection before the head split. -/
theorem v9_real (x0 : Act) (x3 : Wt) (x4 : Bias) (hx0 : ∀ i, IsReal (x0 i)) (hx3 : ∀ i, IsReal (x3 i))
    (hx4 : ∀ i, IsReal (x4 i)) (i : S2x2048x1024.Idx) : IsReal (val_main_v9 (F := Ideal) x0 x3 x4 i) := by
  rw [val_main_v9_apply, val_main_v6_apply, val_main_v8_apply, val_main_v7_apply]
  show IsReal ((∑ k : Fin 1024, _) + _)
  exact IsReal.add (IsReal.sum _ _ fun k _ => IsReal.mul (hx0 _) (hx3 _)) (hx4 _)

/-- Every entry of k is real. -/
theorem v11_real (x0 : Act) (x3 : Wt) (x4 : Bias) (hx0 : ∀ i, IsReal (x0 i)) (hx3 : ∀ i, IsReal (x3 i))
    (hx4 : ∀ i, IsReal (x4 i)) (i : S2x16x2048x64.Idx) : IsReal (val_main_v11 (F := Ideal) x0 x3 x4 i) := by
  rw [val_main_v11_apply, val_main_v10_apply]
  exact v9_real x0 x3 x4 hx0 hx3 hx4 _

/-- The v projection before the head split. -/
theorem v15_real (x0 : Act) (x5 : Wt) (x6 : Bias) (hx0 : ∀ i, IsReal (x0 i)) (hx5 : ∀ i, IsReal (x5 i))
    (hx6 : ∀ i, IsReal (x6 i)) (i : S2x2048x1024.Idx) : IsReal (val_main_v15 (F := Ideal) x0 x5 x6 i) := by
  rw [val_main_v15_apply, val_main_v12_apply, val_main_v14_apply, val_main_v13_apply]
  show IsReal ((∑ k : Fin 1024, _) + _)
  exact IsReal.add (IsReal.sum _ _ fun k _ => IsReal.mul (hx0 _) (hx5 _)) (hx6 _)

/-- Every entry of v is real. -/
theorem v17_real (x0 : Act) (x5 : Wt) (x6 : Bias) (hx0 : ∀ i, IsReal (x0 i)) (hx5 : ∀ i, IsReal (x5 i))
    (hx6 : ∀ i, IsReal (x6 i)) (i : S2x16x2048x64.Idx) : IsReal (val_main_v17 (F := Ideal) x0 x5 x6 i) := by
  rw [val_main_v17_apply, val_main_v16_apply]
  exact v15_real x0 x5 x6 hx0 hx5 hx6 _

/-- Every unscaled score q·kᵀ is real. -/
theorem v18_real (x0 : Act) (x1 : Wt) (x2 : Bias) (x3 : Wt) (x4 : Bias) (hx0 : ∀ i, IsReal (x0 i))
    (hx1 : ∀ i, IsReal (x1 i)) (hx2 : ∀ i, IsReal (x2 i)) (hx3 : ∀ i, IsReal (x3 i)) (hx4 : ∀ i, IsReal (x4 i))
    (i : S2x16x2048x2048.Idx) : IsReal (val_main_v18 (F := Ideal) x0 x1 x2 x3 x4 i) := by
  rw [val_main_v18_apply]
  exact IsReal.sum _ _ fun k _ => IsReal.mul (v5_real x0 x1 x2 hx0 hx1 hx2 _) (v11_real x0 x3 x4 hx0 hx3 hx4 _)

/-- The bit pattern 0x42800000 is 64. -/
theorem sixtyFour_eq : Ideal.ofBits .f32 0x42800000#32 = ((64 : ℝ) : EReal) := by
  simp [Ideal.ofBits, Ideal.ieee, -EReal.coe_mul]; norm_num

/-- The scale the scores are divided by, sqrt 64, is 8. -/
theorem v20_eq (i : S2x16x2048x2048.Idx) : val_main_v20 (F := Ideal) i = ((8 : ℝ) : EReal) := by
  rw [val_main_v20_apply, val_main_v19_apply, val_main_cst_apply]
  show Ideal.sqrt (Ideal.ofBits .f32 0x42800000#32) = _
  rw [sixtyFour_eq, Ideal.sqrt_coe, if_neg (by norm_num)]
  congr 1
  rw [show (64 : ℝ) = 8 ^ 2 by norm_num, Real.sqrt_sq (by norm_num)]

/-- A score is the unscaled score times 1/8. -/
theorem v21_eq (x0 : Act) (x1 : Wt) (x2 : Bias) (x3 : Wt) (x4 : Bias) (i : S2x16x2048x2048.Idx) :
    val_main_v21 (F := Ideal) x0 x1 x2 x3 x4 i
      = val_main_v18 (F := Ideal) x0 x1 x2 x3 x4 i * (((1 : ℝ) / 8 : ℝ) : EReal) := by
  rw [val_main_v21_apply, v20_eq]
  show Ideal.div _ ((8 : ℝ) : EReal) = _
  rw [Ideal.div_coe (by norm_num)]

/-- Every score is real. -/
theorem v21_real (x0 : Act) (x1 : Wt) (x2 : Bias) (x3 : Wt) (x4 : Bias) (hx0 : ∀ i, IsReal (x0 i))
    (hx1 : ∀ i, IsReal (x1 i)) (hx2 : ∀ i, IsReal (x2 i)) (hx3 : ∀ i, IsReal (x3 i)) (hx4 : ∀ i, IsReal (x4 i))
    (i : S2x16x2048x2048.Idx) : IsReal (val_main_v21 (F := Ideal) x0 x1 x2 x3 x4 i) := by
  rw [v21_eq]
  exact IsReal.mul (v18_real x0 x1 x2 x3 x4 hx0 hx1 hx2 hx3 hx4 i) (IsReal.coe _)

/-! ## The row maximum is real, the exponentials are positive reals, and so is the denominator -/

/-- The row maximum of 2048 real scores, from −∞, is real. -/
theorem v24_real (x0 : Act) (x1 : Wt) (x2 : Bias) (x3 : Wt) (x4 : Bias) (hx0 : ∀ i, IsReal (x0 i))
    (hx1 : ∀ i, IsReal (x1 i)) (hx2 : ∀ i, IsReal (x2 i)) (hx3 : ∀ i, IsReal (x3 i)) (hx4 : ∀ i, IsReal (x4 i))
    (b : Fin 2) (h : Fin 16) (t : Fin 2048) : IsReal (val_main_v24 (F := Ideal) x0 x1 x2 x3 x4 (ix3 b h t)) := by
  rw [v24_fold, negInf_eq]
  exact isReal_fold_max _ _ ⟨⟨0, by norm_num⟩, Finset.mem_univ _⟩
    fun s _ => v21_real x0 x1 x2 x3 x4 hx0 hx1 hx2 hx3 hx4 _

/-- The row maximum broadcast back along the key axis. -/
theorem v26_eq (x0 : Act) (x1 : Wt) (x2 : Bias) (x3 : Wt) (x4 : Bias) (b : Fin 2) (h : Fin 16) (t s : Fin 2048) :
    val_main_v26 (F := Ideal) x0 x1 x2 x3 x4 (ix4 b h t s) = val_main_v24 (F := Ideal) x0 x1 x2 x3 x4 (ix3 b h t) := by
  rw [val_main_v26_apply, val_main_v25_apply]
  exact congrArg (val_main_v24 (F := Ideal) x0 x1 x2 x3 x4) (funext fun a => Fin.ext (by
    match a with
    | ⟨0, _⟩ => rfl
    | ⟨1, _⟩ => rfl
    | ⟨2, _⟩ => rfl))

/-- The exponential of (score − row maximum). -/
theorem v28_eq (x0 : Act) (x1 : Wt) (x2 : Bias) (x3 : Wt) (x4 : Bias) (b : Fin 2) (h : Fin 16) (t s : Fin 2048) :
    val_main_v28 (F := Ideal) x0 x1 x2 x3 x4 (ix4 b h t s)
      = Ideal.exp (val_main_v21 (F := Ideal) x0 x1 x2 x3 x4 (ix4 b h t s)
          - val_main_v24 (F := Ideal) x0 x1 x2 x3 x4 (ix3 b h t)) := by
  rw [val_main_v28_apply, val_main_v27_apply, v26_eq]
  rfl

/-- Each exponential is a positive real. -/
theorem v28_pos (x0 : Act) (x1 : Wt) (x2 : Bias) (x3 : Wt) (x4 : Bias) (hx0 : ∀ i, IsReal (x0 i))
    (hx1 : ∀ i, IsReal (x1 i)) (hx2 : ∀ i, IsReal (x2 i)) (hx3 : ∀ i, IsReal (x3 i)) (hx4 : ∀ i, IsReal (x4 i))
    (b : Fin 2) (h : Fin 16) (t s : Fin 2048) :
    ∃ r : ℝ, 0 < r ∧ val_main_v28 (F := Ideal) x0 x1 x2 x3 x4 (ix4 b h t s) = (r : EReal) := by
  obtain ⟨p, hp⟩ := v21_real x0 x1 x2 x3 x4 hx0 hx1 hx2 hx3 hx4 (ix4 b h t s)
  obtain ⟨m, hm⟩ := v24_real x0 x1 x2 x3 x4 hx0 hx1 hx2 hx3 hx4 b h t
  refine ⟨Real.exp (p - m), Real.exp_pos _, ?_⟩
  rw [v28_eq, hp, hm, ← EReal.coe_sub, Ideal.exp_coe]

/-- The index the row sum reads at key position k is (b, h, t, k). -/
theorem idx_v29 (b : Fin 2) (h : Fin 16) (t k : Fin 2048) : idx_main_v29 (ix3 b h t) k = ix4 b h t k :=
  funext fun a => Fin.ext (by
    match a with
    | ⟨0, _⟩ => rfl
    | ⟨1, _⟩ => rfl
    | ⟨2, _⟩ => rfl
    | ⟨3, _⟩ => rfl)

/-- The softmax denominator is the sum of the row's exponentials. -/
theorem v29_eq_sum (x0 : Act) (x1 : Wt) (x2 : Bias) (x3 : Wt) (x4 : Bias) (b : Fin 2) (h : Fin 16) (t : Fin 2048) :
    val_main_v29 (F := Ideal) x0 x1 x2 x3 x4 (ix3 b h t)
      = ∑ s : Fin 2048, val_main_v28 (F := Ideal) x0 x1 x2 x3 x4 (ix4 b h t s) := by
  rw [val_main_v29_apply, val_main_cst_2_apply]
  show Ideal.ofBits .f32 0x00000000#32 + _ = _
  rw [Ideal.ofBits_zero_f32, zero_add]
  exact Finset.sum_congr rfl fun k _ => congrArg (val_main_v28 (F := Ideal) x0 x1 x2 x3 x4) (idx_v29 b h t k)

/-- The softmax denominator is a positive real. -/
theorem v29_pos (x0 : Act) (x1 : Wt) (x2 : Bias) (x3 : Wt) (x4 : Bias)
    (hx0 : ∀ i, ∃ r : ℝ, x0 i = (r : EReal)) (hx1 : ∀ i, ∃ r : ℝ, x1 i = (r : EReal))
    (hx2 : ∀ i, ∃ r : ℝ, x2 i = (r : EReal)) (hx3 : ∀ i, ∃ r : ℝ, x3 i = (r : EReal))
    (hx4 : ∀ i, ∃ r : ℝ, x4 i = (r : EReal)) (b : Fin 2) (h : Fin 16) (t : Fin 2048) :
    ∃ l : ℝ, 0 < l ∧ val_main_v29 (F := Ideal) x0 x1 x2 x3 x4 (ix3 b h t) = (l : EReal) := by
  rw [v29_eq_sum]
  exact sum_pos_real Finset.univ ⟨⟨0, by norm_num⟩, Finset.mem_univ _⟩ _
    fun s _ => v28_pos x0 x1 x2 x3 x4 hx0 hx1 hx2 hx3 hx4 b h t s

/-! ## The attention output is the unnormalised sum over the denominator -/

/-- The denominator broadcast back along the key axis. -/
theorem v31_eq (x0 : Act) (x1 : Wt) (x2 : Bias) (x3 : Wt) (x4 : Bias) (b : Fin 2) (h : Fin 16) (t s : Fin 2048) :
    val_main_v31 (F := Ideal) x0 x1 x2 x3 x4 (ix4 b h t s) = val_main_v29 (F := Ideal) x0 x1 x2 x3 x4 (ix3 b h t) := by
  rw [val_main_v31_apply, val_main_v30_apply]
  exact congrArg (val_main_v29 (F := Ideal) x0 x1 x2 x3 x4) (funext fun a => Fin.ext (by
    match a with
    | ⟨0, _⟩ => rfl
    | ⟨1, _⟩ => rfl
    | ⟨2, _⟩ => rfl))

/-- The left operand of the output contraction at key position k is read at (b, h, t, k). -/
theorem lidx_v33 (b : Fin 2) (h : Fin 16) (t : Fin 2048) (d : Fin 64) (k : Fin 2048) :
    lidx_main_v33 (ix4 b h t d) k = ix4 b h t k :=
  funext fun a => Fin.ext (by
    match a with
    | ⟨0, _⟩ => rfl
    | ⟨1, _⟩ => rfl
    | ⟨2, _⟩ => rfl
    | ⟨3, _⟩ => rfl)

/-- The right operand of the output contraction at key position k is read at (b, h, k, d). -/
theorem ridx_v33 (b : Fin 2) (h : Fin 16) (t : Fin 2048) (d : Fin 64) (k : Fin 2048) :
    ridx_main_v33 (ix4 b h t d) k = ix4 b h k d :=
  funext fun a => Fin.ext (by
    match a with
    | ⟨0, _⟩ => rfl
    | ⟨1, _⟩ => rfl
    | ⟨2, _⟩ => rfl
    | ⟨3, _⟩ => rfl)

/-- The attention output at (b, h, t, d): the sum over the key positions of exponential times value, divided by
    the softmax denominator. Dividing by a positive real l is multiplying by 1/l ≥ 0, and a nonnegative real
    constant comes out of a sum of extended reals. -/
theorem v33_eq_div (x0 : Act) (x1 : Wt) (x2 : Bias) (x3 : Wt) (x4 : Bias) (x5 : Wt) (x6 : Bias)
    (hx0 : ∀ i, ∃ r : ℝ, x0 i = (r : EReal)) (hx1 : ∀ i, ∃ r : ℝ, x1 i = (r : EReal))
    (hx2 : ∀ i, ∃ r : ℝ, x2 i = (r : EReal)) (hx3 : ∀ i, ∃ r : ℝ, x3 i = (r : EReal))
    (hx4 : ∀ i, ∃ r : ℝ, x4 i = (r : EReal)) (hx5 : ∀ i, ∃ r : ℝ, x5 i = (r : EReal))
    (hx6 : ∀ i, ∃ r : ℝ, x6 i = (r : EReal)) (b : Fin 2) (h : Fin 16) (t : Fin 2048) (d : Fin 64) :
    val_main_v33 (F := Ideal) x0 x1 x2 x3 x4 x5 x6 (ix4 b h t d)
      = Ideal.div (∑ s : Fin 2048, val_main_v28 (F := Ideal) x0 x1 x2 x3 x4 (ix4 b h t s)
            * val_main_v17 (F := Ideal) x0 x5 x6 (ix4 b h s d))
          (val_main_v29 (F := Ideal) x0 x1 x2 x3 x4 (ix3 b h t)) := by
  obtain ⟨l, hl, hv⟩ := v29_pos x0 x1 x2 x3 x4 hx0 hx1 hx2 hx3 hx4 b h t
  rw [val_main_v33_apply, hv, Ideal.div_coe hl.ne', sum_mul_coe _ _ (one_div_pos.mpr hl).le]
  refine Finset.sum_congr rfl fun k _ => ?_
  rw [lidx_v33, ridx_v33, val_main_v32_apply, v31_eq, hv]
  show Ideal.div _ (l : EReal) * _ = _
  rw [Ideal.div_coe hl.ne', mul_right_comm]

end Cert.Softmax

end
-- ==== Proof.Ideal.Bridge.lean ====
/-
  The kernel program's result against the reference's, index by index.
  Given that the three projection arrays are the reference's per-head projections and that the inputs are real:
  a head's score is the reference's score (the product with 1/8 is the quotient by √64 = 8), its row maximum, weight and
  denominator are the reference's, and its output — normalized after the product with the values — is the reference's
  attention output, the softmax weights normalized first: the two agree because the denominator is a positive real.
  The sum over the 16 heads of the sums over the 64 features is the reference's sum over the 1024 merged features.
-/
import proofs.«100607_j81028853006766_2_alg».proof.Proof.Ideal.AttnValue
import proofs.«100607_j81028853006766_2_alg».proof.Proof.Ideal.AttnBlocks
import proofs.«100607_j81028853006766_2_alg».proof.Proof.Ideal.Whole
import proofs.«100607_j81028853006766_2_alg».proof.Proof.Softmax
import Idealize.ShloMosaic.Lib.StableHlo.Run
import Idealize.ShloMosaic.Lib.ValueLayout

set_option maxRecDepth 16384

noncomputable section

namespace Cert.KernelIdeal.Bridge

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- The kernel's scale literal is the real 1/8. -/
theorem eighth : Ideal.ofBits .f32 0x3E000000#32 = (((1 : ℝ) / 8 : ℝ) : EReal) := by
  simp [Ideal.ofBits, Ideal.ieee, -EReal.coe_mul]; norm_num

/-- A sum over the 1024 merged features is the sum over the 16 heads of the sums over their 64 features. -/
theorem sum_heads (G : Fin 1024 → EReal) :
    ∑ k : Fin 1024, G k = ∑ h : Fin 16, ∑ d : Fin 64, G ⟨h.val * 64 + d.val, by have := h.isLt; have := d.isLt; omega⟩ := by
  rw [← Equiv.sum_comp (finProdFinEquiv : Fin 16 × Fin 64 ≃ Fin (16 * 64)) (G : Fin (16 * 64) → EReal), Fintype.sum_prod_type]
  refine Finset.sum_congr rfl fun h _ => Finset.sum_congr rfl fun d _ => congrArg G (Fin.ext ?_)
  show d.val + 64 * h.val = h.val * 64 + d.val
  omega

section
variable (m : (ℓ : Loc nD τ sig) → Buf (Elt Ideal) ℓ) (c : Dev nD)

/-- The transposed output weight the host wrote: entry (j, e) is w_o[e, j]. -/
theorem wo_apply (j e : Fin 1024) :
    (Whole.E2 (F := Ideal) m c main_v8 : S1024x1024.Idx → EReal) (ix2 j e) = (m ((c.tc : Thread nD τ).loc main_arg7)) (ix2 e j) := by
  have e1 : (Whole.E2 (F := Ideal) m c main_v8 : S1024x1024.Idx → EReal)
      = (truncf (F := Ideal) .bf16 (transpose S1024x1024 [1, 0] (m ((c.tc : Thread nD τ).loc main_arg7)) transposes_S1024x1024_S1024x1024_1_0) bitsLt_bf16_f32 : S1024x1024.Idx → EReal) := by
    show Whole.B2 m c (Proc.devRef .tc main_v8) = _
    rw [Whole.B2_of_ne m c main_v8 (by decide)]
    show StableHlo.after hostOps0 (fun b => m (c, b)) (Proc.devRef .tc main_v8) = _
    after_results
  rw [e1]
  exact transpose_ix2_apply _ _ j e

/-- The bias row the host wrote: entry (0, e) is b_o[e]. -/
theorem bo_apply (e : Fin 1024) :
    (Whole.E2 (F := Ideal) m c (Pipeline.arrRef spec1 4) : S1x1024.Idx → EReal) (ix2 (0 : Fin 1) e) = (m ((c.tc : Thread nD τ).loc main_arg8)) (ix1 e) := by
  have e1 : (Whole.E2 (F := Ideal) m c main_v12 : S1x1024.Idx → EReal)
      = (shapeCast S1x1024 (m ((c.tc : Thread nD τ).loc main_arg8)) shapeCasts_S1024_S1x1024 : S1x1024.Idx → EReal) := by
    show Whole.B2 m c (Proc.devRef .tc main_v12) = _
    rw [Whole.B2_of_ne m c main_v12 (by decide)]
    show StableHlo.after hostOps0 (fun b => m (c, b)) (Proc.devRef .tc main_v12) = _
    after_results
    rfl
  show (Whole.E2 (F := Ideal) m c main_v12 : S1x1024.Idx → EReal) (ix2 (0 : Fin 1) e) = _
  rw [e1]
  exact shapeCast_a_1a_apply _ _ 0 e

end

section Heads
variable (m : (ℓ : Loc nD τ sig) → Buf (Elt Ideal) ℓ) (c : Dev nD)
    (hq : ∀ (b : Fin 2) (h : Fin 16) (t : Fin 2048) (d : Fin 64),
      (Whole.E2 (F := Ideal) m c main_v13_0 : S16x4096x64.Idx → EReal) (ix3 h ⟨b.val * 2048 + t.val, by have := b.isLt; have := t.isLt; omega⟩ d)
        = Cert.ReferenceIdeal.Read.val_main_v5 (F := Ideal) (m ((c.tc : Thread nD τ).loc main_arg0)) (m ((c.tc : Thread nD τ).loc main_arg1)) (m ((c.tc : Thread nD τ).loc main_arg2)) (ix4 b h t d))
    (hk : ∀ (b : Fin 2) (h : Fin 16) (t : Fin 2048) (d : Fin 64),
      (Whole.E2 (F := Ideal) m c main_v13_1 : S16x4096x64.Idx → EReal) (ix3 h ⟨b.val * 2048 + t.val, by have := b.isLt; have := t.isLt; omega⟩ d)
        = Cert.ReferenceIdeal.Read.val_main_v11 (F := Ideal) (m ((c.tc : Thread nD τ).loc main_arg0)) (m ((c.tc : Thread nD τ).loc main_arg3)) (m ((c.tc : Thread nD τ).loc main_arg4)) (ix4 b h t d))
    (hv : ∀ (b : Fin 2) (h : Fin 16) (t : Fin 2048) (d : Fin 64),
      (Whole.E2 (F := Ideal) m c main_v13_2 : S16x4096x64.Idx → EReal) (ix3 h ⟨b.val * 2048 + t.val, by have := b.isLt; have := t.isLt; omega⟩ d)
        = Cert.ReferenceIdeal.Read.val_main_v17 (F := Ideal) (m ((c.tc : Thread nD τ).loc main_arg0)) (m ((c.tc : Thread nD τ).loc main_arg5)) (m ((c.tc : Thread nD τ).loc main_arg6)) (ix4 b h t d))
    (hx0 : ∀ i, ∃ r : ℝ, (m ((c.tc : Thread nD τ).loc main_arg0)) i = (r : EReal)) (hx1 : ∀ i, ∃ r : ℝ, (m ((c.tc : Thread nD τ).loc main_arg1)) i = (r : EReal)) (hx2 : ∀ i, ∃ r : ℝ, (m ((c.tc : Thread nD τ).loc main_arg2)) i = (r : EReal)) (hx3 : ∀ i, ∃ r : ℝ, (m ((c.tc : Thread nD τ).loc main_arg3)) i = (r : EReal)) (hx4 : ∀ i, ∃ r : ℝ, (m ((c.tc : Thread nD τ).loc main_arg4)) i = (r : EReal)) (hx5 : ∀ i, ∃ r : ℝ, (m ((c.tc : Thread nD τ).loc main_arg5)) i = (r : EReal)) (hx6 : ∀ i, ∃ r : ℝ, (m ((c.tc : Thread nD τ).loc main_arg6)) i = (r : EReal))
include hq hk hv hx0 hx1 hx2 hx3 hx4 hx5 hx6

/-- A head's score is the reference's. -/
theorem score_eq (t : Fin cfg1.N) (r : Fin 512) (s : Fin 2048) :
    score (iblk (Whole.E2 m) c 0 t) (iblk (Whole.E2 m) c 1 t) r s
      = Cert.ReferenceIdeal.Read.val_main_v21 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix4 (⟨t.val / 64, by have h := lt_of_lt_of_eq t.isLt N_1; omega⟩ : Fin 2) (⟨t.val % 16, Nat.mod_lt _ (by decide)⟩ : Fin 16) (⟨t.val / 16 % 4 * 512 + r.val, by have := r.isLt; have := Nat.mod_lt (t.val / 16) (show 0 < 4 by decide); omega⟩ : Fin 2048) s) := by
  have hN := lt_of_lt_of_eq t.isLt N_1
  unfold score
  rw [Cert.Softmax.v21_eq, Cert.ReferenceIdeal.Read.val_main_v18_apply, eighth]
  refine congrArg (· * _) (Finset.sum_congr rfl fun d _ => ?_)
  refine congrArg₂ (· * ·) ?_ ?_
  · rw [qblk_apply]
    refine (congrArg (fun row => (Whole.E2 (F := Ideal) m c main_v13_0 : S16x4096x64.Idx → EReal) (ix3 (⟨t.val % 16, Nat.mod_lt _ (by decide)⟩ : Fin 16) row d)) (Fin.ext ?_)).trans
      ((hq (⟨t.val / 64, by have h := lt_of_lt_of_eq t.isLt N_1; omega⟩ : Fin 2) (⟨t.val % 16, Nat.mod_lt _ (by decide)⟩ : Fin 16) (⟨t.val / 16 % 4 * 512 + r.val, by have := r.isLt; have := Nat.mod_lt (t.val / 16) (show 0 < 4 by decide); omega⟩ : Fin 2048) d).trans (congrArg _ (funext fun a => Fin.ext (by
        match a with
        | ⟨0, _⟩ => rfl
        | ⟨1, _⟩ => rfl
        | ⟨2, _⟩ => rfl
        | ⟨3, _⟩ => rfl))))
    show t.val / 16 * 512 + r.val = t.val / 64 * 2048 + (t.val / 16 % 4 * 512 + r.val)
    omega
  · rw [kblk_apply]
    exact (hk (⟨t.val / 64, by have h := lt_of_lt_of_eq t.isLt N_1; omega⟩ : Fin 2) (⟨t.val % 16, Nat.mod_lt _ (by decide)⟩ : Fin 16) s d).trans (congrArg _ (funext fun a => Fin.ext (by
        match a with
        | ⟨0, _⟩ => rfl
        | ⟨1, _⟩ => rfl
        | ⟨2, _⟩ => rfl
        | ⟨3, _⟩ => rfl)))

/-- A head's output is the reference's attention output. -/
theorem attend_eq (t : Fin cfg1.N) (r : Fin 512) (d : Fin 64) :
    attend (iblk (Whole.E2 m) c 0 t) (iblk (Whole.E2 m) c 1 t) (iblk (Whole.E2 m) c 2 t) r d
      = Cert.ReferenceIdeal.Read.val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix4 (⟨t.val / 64, by have h := lt_of_lt_of_eq t.isLt N_1; omega⟩ : Fin 2) (⟨t.val % 16, Nat.mod_lt _ (by decide)⟩ : Fin 16) (⟨t.val / 16 % 4 * 512 + r.val, by have := r.isLt; have := Nat.mod_lt (t.val / 16) (show 0 < 4 by decide); omega⟩ : Fin 2048) d) := by
  have hsc := score_eq m c hq hk hv hx0 hx1 hx2 hx3 hx4 hx5 hx6 t r
  have hmx : rowMax (iblk (Whole.E2 m) c 0 t) (iblk (Whole.E2 m) c 1 t) r
      = Cert.ReferenceIdeal.Read.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix3 (⟨t.val / 64, by have h := lt_of_lt_of_eq t.isLt N_1; omega⟩ : Fin 2) (⟨t.val % 16, Nat.mod_lt _ (by decide)⟩ : Fin 16) (⟨t.val / 16 % 4 * 512 + r.val, by have := r.isLt; have := Nat.mod_lt (t.val / 16) (show 0 < 4 by decide); omega⟩ : Fin 2048)) := by
    unfold rowMax
    rw [Cert.Softmax.v24_fold]
    exact congrArg (fun f => (Finset.univ : Finset (Fin 2048)).fold max (Ideal.ofBits .f32 0xFF800000#32) f) (funext hsc)
  have hw : ∀ s, weight (iblk (Whole.E2 m) c 0 t) (iblk (Whole.E2 m) c 1 t) r s
      = Cert.ReferenceIdeal.Read.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix4 (⟨t.val / 64, by have h := lt_of_lt_of_eq t.isLt N_1; omega⟩ : Fin 2) (⟨t.val % 16, Nat.mod_lt _ (by decide)⟩ : Fin 16) (⟨t.val / 16 % 4 * 512 + r.val, by have := r.isLt; have := Nat.mod_lt (t.val / 16) (show 0 < 4 by decide); omega⟩ : Fin 2048) s) := fun s => by
    unfold weight
    rw [Cert.Softmax.v28_eq, hsc, hmx]
  have hd : denom (iblk (Whole.E2 m) c 0 t) (iblk (Whole.E2 m) c 1 t) r
      = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix3 (⟨t.val / 64, by have h := lt_of_lt_of_eq t.isLt N_1; omega⟩ : Fin 2) (⟨t.val % 16, Nat.mod_lt _ (by decide)⟩ : Fin 16) (⟨t.val / 16 % 4 * 512 + r.val, by have := r.isLt; have := Nat.mod_lt (t.val / 16) (show 0 < 4 by decide); omega⟩ : Fin 2048)) := by
    unfold denom
    rw [Cert.Softmax.v29_eq_sum]
    exact Finset.sum_congr rfl fun s _ => hw s
  unfold attend
  rw [Cert.Softmax.v33_eq_div _ _ _ _ _ _ _ hx0 hx1 hx2 hx3 hx4 hx5 hx6, hd]
  refine congrArg (Ideal.div · _) (Finset.sum_congr rfl fun s _ => ?_)
  refine congrArg₂ (· * ·) (hw s) ?_
  rw [vblk_apply]
  exact hv (⟨t.val / 64, by have h := lt_of_lt_of_eq t.isLt N_1; omega⟩ : Fin 2) (⟨t.val % 16, Nat.mod_lt _ (by decide)⟩ : Fin 16) s d

/-- A head's contribution, in the reference's terms. -/
theorem contrib_eq (t : Fin cfg1.N) (r : Fin 512) (e : Fin 1024) :
    contrib (iblk (Whole.E2 m) c 0 t) (iblk (Whole.E2 m) c 1 t) (iblk (Whole.E2 m) c 2 t) (iblk (Whole.E2 m) c 3 t) r e
      = ∑ d : Fin 64, Cert.ReferenceIdeal.Read.val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix4 (⟨t.val / 64, by have h := lt_of_lt_of_eq t.isLt N_1; omega⟩ : Fin 2) (⟨t.val % 16, Nat.mod_lt _ (by decide)⟩ : Fin 16) (⟨t.val / 16 % 4 * 512 + r.val, by have := r.isLt; have := Nat.mod_lt (t.val / 16) (show 0 < 4 by decide); omega⟩ : Fin 2048) d)
          * (m ((c.tc : Thread nD τ).loc main_arg7)) (ix2 e (⟨t.val % 16 * 64 + d.val, by have := d.isLt; have := Nat.mod_lt t.val (show 0 < 16 by decide); omega⟩ : Fin 1024)) := by
  unfold contrib
  refine Finset.sum_congr rfl fun d _ => ?_
  rw [attend_eq m c hq hk hv hx0 hx1 hx2 hx3 hx4 hx5 hx6 t r d, wblk_apply]
  exact congrArg (_ * ·) (wo_apply m c _ e)

end Heads

end Cert.KernelIdeal.Bridge

end
-- ==== Proof.Ideal.Result.lean ====
/-
  The kernel program's result array is the reference's result, as functions of the arguments.
-/
import proofs.«100607_j81028853006766_2_alg».proof.Proof.Ideal.Bridge

set_option maxRecDepth 16384

noncomputable section

namespace Cert.KernelIdeal.Bridge

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

section
variable (m : (ℓ : Loc nD τ sig) → Buf (Elt Ideal) ℓ) (c : Dev nD)

/-- The reference's result entry (b, p, e): the sum over the 1024 merged features — feature k is head k / 64, feature
    k mod 64 of the attention output — of that output times w_o[e, k], plus b_o[e]. -/
theorem ref_eq (b : Fin 2) (p : Fin 2048) (e : Fin 1024) :
    Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix3 b p e)
      = (∑ k : Fin 1024, Cert.ReferenceIdeal.Read.val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
            (ix4 b (⟨k.val / 64, by have := k.isLt; omega⟩ : Fin 16) p (⟨k.val % 64, Nat.mod_lt _ (by decide)⟩ : Fin 64)) * (m ((c.tc : Thread nD τ).loc main_arg7)) (ix2 e k))
        + (m ((c.tc : Thread nD τ).loc main_arg8)) (ix1 e) := by
  have hb := b.isLt; have hp := p.isLt
  rw [Cert.ReferenceIdeal.Read.val_main_v39_apply, Cert.ReferenceIdeal.Read.val_main_v38_apply, Cert.ReferenceIdeal.Read.val_main_v37_apply, Cert.ReferenceIdeal.Read.val_main_v36_apply]
  show (∑ k : Fin 1024, _) + _ = _
  refine congrArg₂ (· + ·) (Finset.sum_congr rfl fun k _ => ?_) (congrArg _ (funext fun a => Fin.ext (by
    match a with
    | ⟨0, _⟩ => rfl)))
  have hk := k.isLt
  rw [Cert.ReferenceIdeal.Read.val_main_v35_apply, Cert.ReferenceIdeal.Read.val_main_v34_apply]
  refine congrArg₂ (· * ·) (congrArg _ (funext fun a => Fin.ext ?_)) (congrArg _ (funext fun a => Fin.ext (by
    match a with
    | ⟨0, _⟩ => rfl
    | ⟨1, _⟩ => rfl)))
  match a with
  | ⟨0, _⟩ => show ((b.val * 2048 + p.val) * 1024 + k.val) / 2097152 = b.val; omega
  | ⟨1, _⟩ => show ((b.val * 2048 + p.val) * 1024 + k.val) / 64 % 16 = k.val / 64; omega
  | ⟨2, _⟩ => show ((b.val * 2048 + p.val) * 1024 + k.val) / 1024 % 2048 = p.val; omega
  | ⟨3, _⟩ => show ((b.val * 2048 + p.val) * 1024 + k.val) % 64 = k.val % 64; omega

end

section
variable (m : (ℓ : Loc nD τ sig) → Buf (Elt Ideal) ℓ) (c : Dev nD)
    (hq : ∀ (b : Fin 2) (h : Fin 16) (t : Fin 2048) (d : Fin 64),
      (Whole.E2 (F := Ideal) m c main_v13_0 : S16x4096x64.Idx → EReal) (ix3 h ⟨b.val * 2048 + t.val, by have := b.isLt; have := t.isLt; omega⟩ d)
        = Cert.ReferenceIdeal.Read.val_main_v5 (F := Ideal) (m ((c.tc : Thread nD τ).loc main_arg0)) (m ((c.tc : Thread nD τ).loc main_arg1)) (m ((c.tc : Thread nD τ).loc main_arg2)) (ix4 b h t d))
    (hk : ∀ (b : Fin 2) (h : Fin 16) (t : Fin 2048) (d : Fin 64),
      (Whole.E2 (F := Ideal) m c main_v13_1 : S16x4096x64.Idx → EReal) (ix3 h ⟨b.val * 2048 + t.val, by have := b.isLt; have := t.isLt; omega⟩ d)
        = Cert.ReferenceIdeal.Read.val_main_v11 (F := Ideal) (m ((c.tc : Thread nD τ).loc main_arg0)) (m ((c.tc : Thread nD τ).loc main_arg3)) (m ((c.tc : Thread nD τ).loc main_arg4)) (ix4 b h t d))
    (hv : ∀ (b : Fin 2) (h : Fin 16) (t : Fin 2048) (d : Fin 64),
      (Whole.E2 (F := Ideal) m c main_v13_2 : S16x4096x64.Idx → EReal) (ix3 h ⟨b.val * 2048 + t.val, by have := b.isLt; have := t.isLt; omega⟩ d)
        = Cert.ReferenceIdeal.Read.val_main_v17 (F := Ideal) (m ((c.tc : Thread nD τ).loc main_arg0)) (m ((c.tc : Thread nD τ).loc main_arg5)) (m ((c.tc : Thread nD τ).loc main_arg6)) (ix4 b h t d))
    (hx0 : ∀ i, ∃ r : ℝ, (m ((c.tc : Thread nD τ).loc main_arg0)) i = (r : EReal)) (hx1 : ∀ i, ∃ r : ℝ, (m ((c.tc : Thread nD τ).loc main_arg1)) i = (r : EReal)) (hx2 : ∀ i, ∃ r : ℝ, (m ((c.tc : Thread nD τ).loc main_arg2)) i = (r : EReal)) (hx3 : ∀ i, ∃ r : ℝ, (m ((c.tc : Thread nD τ).loc main_arg3)) i = (r : EReal)) (hx4 : ∀ i, ∃ r : ℝ, (m ((c.tc : Thread nD τ).loc main_arg4)) i = (r : EReal)) (hx5 : ∀ i, ∃ r : ℝ, (m ((c.tc : Thread nD τ).loc main_arg5)) i = (r : EReal)) (hx6 : ∀ i, ∃ r : ℝ, (m ((c.tc : Thread nD τ).loc main_arg6)) i = (r : EReal))
include hq hk hv hx0 hx1 hx2 hx3 hx4 hx5 hx6

/-- The kernel's output entry (b, p, e): the sum over the 16 heads and their 64 features of the reference's attention
    output times w_o[e, 64·h + d], plus b_o[e]. -/
theorem out_eq (b : Fin 2) (p : Fin 2048) (e : Fin 1024) :
    outAt (Whole.E2 m) c b p e
      = (∑ h : Fin 16, ∑ d : Fin 64, Cert.ReferenceIdeal.Read.val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix4 b h p d)
            * (m ((c.tc : Thread nD τ).loc main_arg7)) (ix2 e (⟨h.val * 64 + d.val, by have := h.isLt; have := d.isLt; omega⟩ : Fin 1024)))
        + (m ((c.tc : Thread nD τ).loc main_arg8)) (ix1 e) := by
  have hb := b.isLt; have hp := p.isLt
  unfold outAt
  rw [bo_apply]
  refine congrArg (· + _) ?_
  rw [Finset.sum_range (fun j => cAt (Whole.E2 m) c (⟨p.val % 512, Nat.mod_lt _ (by decide)⟩ : Fin 512) e (64 * b.val + 16 * (p.val / 512) + j))]
  refine Finset.sum_congr rfl fun h _ => ?_
  have hh := h.isLt
  have hn : 64 * b.val + 16 * (p.val / 512) + h.val < cfg1.N := by have hN : cfg1.N = 128 := N_1; omega
  rw [cAt_of_lt (Whole.E2 m) c _ e _ hn,
    contrib_eq m c hq hk hv hx0 hx1 hx2 hx3 hx4 hx5 hx6 ⟨64 * b.val + 16 * (p.val / 512) + h.val, hn⟩ (⟨p.val % 512, Nat.mod_lt _ (by decide)⟩ : Fin 512) e]
  refine Finset.sum_congr rfl fun d _ => ?_
  refine congrArg₂ (· * ·) (congrArg _ (funext fun a => Fin.ext ?_)) (congrArg _ (funext fun a => Fin.ext ?_))
  · match a with
    | ⟨0, _⟩ => show (64 * b.val + 16 * (p.val / 512) + h.val) / 64 = b.val; omega
    | ⟨1, _⟩ => show (64 * b.val + 16 * (p.val / 512) + h.val) % 16 = h.val; omega
    | ⟨2, _⟩ => show (64 * b.val + 16 * (p.val / 512) + h.val) / 16 % 4 * 512 + p.val % 512 = p.val; omega
    | ⟨3, _⟩ => rfl
  · match a with
    | ⟨0, _⟩ => rfl
    | ⟨1, _⟩ => show (64 * b.val + 16 * (p.val / 512) + h.val) % 16 * 64 + d.val = h.val * 64 + d.val; omega

/-- The kernel program's result array is the reference's result. -/
theorem result_eq :
    Whole.B3 (F := Ideal) m c (Proc.devRef .tc main_v14) = Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [show Whole.B3 (F := Ideal) m c (Proc.devRef .tc main_v14) = (Attn.dat (Whole.E2 m) c).arrAt 5 cfg1.N from Whole.B3_arr m c 5,
    Attn.final]
  funext i
  obtain ⟨b, p, e, rfl⟩ : ∃ (b : Fin 2) (p : Fin 2048) (e : Fin 1024), i = ix3 b p e := ⟨i 0, i 1, i 2, eq_ix3 i⟩
  show outAt (Whole.E2 m) c b p e = _
  rw [out_eq m c hq hk hv hx0 hx1 hx2 hx3 hx4 hx5 hx6 b p e, ref_eq m c b p e, sum_heads]
  refine congrArg (· + _) (Finset.sum_congr rfl fun h _ => Finset.sum_congr rfl fun d _ => ?_)
  have hh := h.isLt; have hd := d.isLt
  refine congrArg (· * _) (congrArg _ (funext fun a => Fin.ext ?_))
  match a with
  | ⟨0, _⟩ => rfl
  | ⟨1, _⟩ => show h.val = (h.val * 64 + d.val) / 64; omega
  | ⟨2, _⟩ => rfl
  | ⟨3, _⟩ => show d.val = (h.val * 64 + d.val) % 64; omega

end

end Cert.KernelIdeal.Bridge

end
-- ==== Proof.Ideal.QkvValue1.lean ====
/-
  One projection of region 0's body, read at an index. The body converts its 512 rows of activations, multiplies them
  by a whole weight matrix into a zero accumulator, adds the bias row to every row, and re-lays the [512, 16·64]
  product as [16, 512, 64] (head-major). Read at head p, row r, feature q this is
      (Σ_j x[r, j] · w[j, 64·p + q]) + bias[0, 64·p + q]
  over the extended reals: the format changes are the identity there, the matrix unit's product into a zero
  accumulator is the plain sum over the contraction axis, and the shape cast and the transpose only move indices.
  The three projections (q, k, v) are the same term over their own weights and bias.
-/
import proofs.«100607_j81028853006766_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.QkvValue

open Cert.KernelIdeal Cert.KernelIdeal.Gen Idealize.ShloMosaic Idealize.ShloMosaic.TcCoe Idealize.ShloMosaic.ValueIdx Idealize.SL.Sem

/-- The column of the [·, 1024] product that holds feature `q` of head `p`. -/
abbrev col (p : Fin 16) (q : Fin 64) : Fin 1024 := ⟨p.val * 64 + q.val, by have := p.isLt; have := q.isLt; omega⟩

/-! ## The layout operations of the body, at an index -/

/-- The head-major transpose: (p, r, q) of the result is (r, p, q) of the operand. -/
theorem transpose_heads {α : Type} (v : S512x16x64.Idx → α) (p : Fin 16) (r : Fin 512) (q : Fin 64) :
    transpose S16x512x64 [1, 0, 2] v transposes_S512x16x64_p1_0_2_S16x512x64 (ix3 p r q) = v (ix3 r p q) :=
  transpose_apply _ v _ _ _ fun c => match c with | ⟨0, _⟩ => rfl | ⟨1, _⟩ => rfl | ⟨2, _⟩ => rfl

/-- Splitting the 1024 columns into 16 heads of 64: (r, p, q) of the result is (r, 64·p + q) of the operand. -/
theorem cast_heads {α : Type} (v : S512x1024.Idx → α) (r : Fin 512) (p : Fin 16) (q : Fin 64) :
    shapeCast S512x16x64 v shapeCasts_S512x1024_S512x16x64 (ix3 r p q) = v (ix2 r (col p q)) :=
  shapeCast_apply v _ _ _ (by
    rw [Shape.rowMajor_val_two, Shape.rowMajor_val_three]
    show r.val * 1024 + (p.val * 64 + q.val) = (r.val * 16 + p.val) * 64 + q.val
    omega)

/-- The product's operand indices at output index `i` and contraction index `k`: the left operand's row is the output's row, -/
theorem lhs_row (i : S512x1024.Idx) (k : dot_S512x1024_S1024x1024_S512x1024_1_0_0_1_n_n.contr.Idx) :
    (dot_S512x1024_S1024x1024_S512x1024_1_0_0_1_n_n.lhsIdx i k 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
/-- its column the contraction coordinate; -/
theorem lhs_col (i : S512x1024.Idx) (k : dot_S512x1024_S1024x1024_S512x1024_1_0_0_1_n_n.contr.Idx) :
    (dot_S512x1024_S1024x1024_S512x1024_1_0_0_1_n_n.lhsIdx i k 1).val = (k ⟨0, by decide⟩).val :=
  dot_S512x1024_S1024x1024_S512x1024_1_0_0_1_n_n.lhsIdx_val_of_single rfl i k
/-- the right operand's row is the contraction coordinate, -/
theorem rhs_row (i : S512x1024.Idx) (k : dot_S512x1024_S1024x1024_S512x1024_1_0_0_1_n_n.contr.Idx) :
    (dot_S512x1024_S1024x1024_S512x1024_1_0_0_1_n_n.rhsIdx i k 0).val = (k ⟨0, by decide⟩).val :=
  dot_S512x1024_S1024x1024_S512x1024_1_0_0_1_n_n.rhsIdx_val_of_single rfl i k
/-- its column the output's column. -/
theorem rhs_col (i : S512x1024.Idx) (k : dot_S512x1024_S1024x1024_S512x1024_1_0_0_1_n_n.contr.Idx) :
    (dot_S512x1024_S1024x1024_S512x1024_1_0_0_1_n_n.rhsIdx i k 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The matrix unit's product of a [512, 1024] block and a [1024, 1024] matrix into a zero accumulator, at (r, e):
    the sum over the contraction axis of row r against column e. -/
theorem matmul_rows {φ₁ φ₂ : FTy} (a : FVec Ideal S512x1024 φ₁) (w : FVec Ideal S1024x1024 φ₂) (r : Fin 512) (e : Fin 1024) :
    FloatOps.matmul dot_S512x1024_S1024x1024_S512x1024_1_0_0_1_n_n none a w (constant S512x1024 .f32 0x00000000#32) (ix2 r e)
      = ∑ j : Fin 1024, a (ix2 r j) * w (ix2 j e) := by
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e)
      ((contrEquiv1 dot_S512x1024_S1024x1024_S512x1024_1_0_0_1_n_n 1024 rfl rfl).symm k) = ix2 r k := funext fun ax => Fin.ext (by
    match ax with
    | ⟨0, _⟩ => exact lhs_row _ _
    | ⟨1, _⟩ => exact (lhs_col _ _).trans hk)
  have er : dot_S512x1024_S1024x1024_S512x1024_1_0_0_1_n_n.rhsIdx (ix2 r e)
      ((contrEquiv1 dot_S512x1024_S1024x1024_S512x1024_1_0_0_1_n_n 1024 rfl rfl).symm k) = ix2 k e := funext fun ax => Fin.ext (by
    match ax with
    | ⟨0, _⟩ => exact (rhs_row _ _).trans hk
    | ⟨1, _⟩ => exact rhs_col _ _)
  rw [el, er]

/-! ## One projection at an index -/

/-- The q projection's block at head p, row r, feature q. -/
theorem pay_q_apply (x : Vec Ideal S512x1024 .f32) (w : Vec Ideal S1024x1024 .bf16) (b : Vec Ideal S1x1024 .f32)
    (p : Fin 16) (r : Fin 512) (q : Fin 64) :
    (k0_pay3 x w b : S16x512x64.Idx → EReal) (ix3 p r q)
      = (∑ j : Fin 1024, (x (ix2 r j) : EReal) * (w (ix2 j (col p q)) : EReal)) + (b (ix2 (0 : Fin 1) (col p q)) : EReal) := by
  unfold k0_pay3 k0_pay2
  simp only [shapeCast_self]
  refine (transpose_heads _ p r q).trans ?_
  refine (cast_heads _ r p q).trans ?_
  refine (truncf_apply (ψ := FTy.bf16) _ bitsLt_bf16_f32 _).trans ?_
  refine (addf_apply _ _ _).trans ?_
  refine congrArg₂ (· + ·) ?_ ?_
  · exact matmul_rows _ _ r (col p q)
  · exact broadcastTo_1b_ab_apply _ _ r (col p q)

/-- The k projection is the same term over its own weights and bias. -/
theorem pay_k_eq (x : Vec Ideal S512x1024 .f32) (w : Vec Ideal S1024x1024 .bf16) (b : Vec Ideal S1x1024 .f32) :
    k0_pay4 x w b = k0_pay3 x w b := rfl

/-- So is the v projection, which the printed body cuts before its transpose. -/
theorem pay_v_eq (x : Vec Ideal S512x1024 .f32) (w : Vec Ideal S1024x1024 .bf16) (b : Vec Ideal S1x1024 .f32) :
    k0_pay1 (k0_pay5 x w b) = k0_pay3 x w b := rfl

end Cert.KernelIdeal.QkvValue

end
-- ==== Proof.Ideal.QkvValue2.lean ====
/-
  What each of region 0's eight points writes back, as a block of one function of the arrays the region finds.
  Point t reads rows 512·t … 512·t + 511 of the activations and the whole weight matrix and bias row, and writes back
  block (0, t, 0) of the [16, 4096, 64] output. Each written block is the block of one whole-array function: the
  projection of row ρ at head h and feature d, (Σ_j X[ρ, j] · W[j, 64·h + d]) + B[0, 64·h + d].
-/
import proofs.«100607_j81028853006766_2_alg».proof.Proof.Ideal.Qkv
import proofs.«100607_j81028853006766_2_alg».proof.Proof.Ideal.QkvValue1
import Idealize.ShloMosaic.Lib.Pipeline.Value
import Idealize.ShloMosaic.Lib.ValueIdx
import Idealize.ShloMosaic.Lib.ValueLayout

set_option maxRecDepth 16384

noncomputable section

namespace Cert.KernelIdeal.QkvValue

open Cert.KernelIdeal Cert.KernelIdeal.Gen Idealize.ShloMosaic Idealize.ShloMosaic.TcCoe Idealize.ShloMosaic.ValueIdx Idealize.SL.Sem
open Idealize.ShloMosaic.Pipeline (Dat)

/-- One projection of whole arrays: activations `X` [4096, 1024], weights `W` [1024, 1024] with the contraction axis
    first, bias row `B` [1, 1024]; at (head, row, feature). -/
def projArr (X : S4096x1024.Idx → EReal) (W : S1024x1024.Idx → EReal) (B : S1x1024.Idx → EReal) : S16x4096x64.Idx → EReal :=
  fun i => (∑ j : Fin 1024, X (ix2 (⟨(i 1).val, (i 1).isLt⟩ : Fin 4096) j)
        * W (ix2 j (col ⟨(i 0).val, (i 0).isLt⟩ ⟨(i 2).val, (i 2).isLt⟩)))
      + B (ix2 (0 : Fin 1) (col ⟨(i 0).val, (i 0).isLt⟩ ⟨(i 2).val, (i 2).isLt⟩))

theorem projArr_apply (X : S4096x1024.Idx → EReal) (W : S1024x1024.Idx → EReal) (B : S1x1024.Idx → EReal)
    (h : Fin 16) (ρ : Fin 4096) (d : Fin 64) :
    projArr X W B (ix3 h ρ d) = (∑ j : Fin 1024, X (ix2 ρ j) * W (ix2 j (col h d))) + B (ix2 (0 : Fin 1) (col h d)) := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the row-block windows (the activations, the three outputs) move with the
    point along their row axis; the weights' and biases' windows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = 0 ∧ win0_7.index t (1 : Fin 3) = t.val ∧ win0_7.index t (2 : Fin 3) = 0
    ∧ win0_8.index t (0 : Fin 3) = 0 ∧ win0_8.index t (1 : Fin 3) = t.val ∧ win0_8.index t (2 : Fin 3) = 0
    ∧ win0_9.index t (0 : Fin 3) = 0 ∧ win0_9.index t (1 : Fin 3) = t.val ∧ win0_9.index t (2 : Fin 3) = 0 :=
  (by decide +kernel : ∀ t : Fin grid0.N, _)

section Blocks
variable (V : (c : Dev nD) → (b : Ref sig .tc) → Buf (Elt Ideal) ((c : Thread nD τ).loc b)) (c : Dev nD) (t : Fin cfg0.N)

/-! ## The input blocks, read off the arrays -/

/-- Row r of the point's block of activations is row 512·t + r of the array. -/
theorem iblk_x (r : Fin 512) (j : Fin 1024) (ρ : Fin 4096) (hρ : ρ.val = t.val * 512 + r.val) :
    (Qkv.iblk V c 0 t : S512x1024.Idx → EReal) (ix2 r j) = (V c main_v0 : S4096x1024.Idx → EReal) (ix2 ρ j) := by
  unfold Qkv.iblk
  rw [View.read_apply]
  show V c main_v0 _ = V c main_v0 _
  congr 1
  funext a; apply Fin.ext
  match a with
  | ⟨0, _⟩ => show win0_0.index t (0 : Fin 2) * 512 + 1 * r.val = ρ.val; rw [(idx_facts t).1]; omega
  | ⟨1, _⟩ => show win0_0.index t (1 : Fin 2) * 1024 + 1 * j.val = j.val; rw [(idx_facts t).2.1]; omega

/-- The q weights' block is the whole matrix, -/
theorem iblk_w1 : (Qkv.iblk V c 1 t : S1024x1024.Idx → EReal) = V c main_v2 := by
  funext y
  unfold Qkv.iblk
  rw [View.read_apply]
  show V c main_v2 _ = V c main_v2 y
  congr 1
  funext a; apply Fin.ext
  match a with
  | ⟨0, _⟩ => show win0_1.index t (0 : Fin 2) * 1024 + 1 * (y 0).val = (y 0).val; rw [(idx_facts t).2.2.1]; omega
  | ⟨1, _⟩ => show win0_1.index t (1 : Fin 2) * 1024 + 1 * (y 1).val = (y 1).val; rw [(idx_facts t).2.2.2.1]; omega

/-- and the q bias's block the whole row. -/
theorem iblk_b2 : (Qkv.iblk V c 2 t : S1x1024.Idx → EReal) = V c main_v9 := by
  funext y
  unfold Qkv.iblk
  rw [View.read_apply]
  show V c main_v9 _ = V c main_v9 y
  congr 1
  funext a; apply Fin.ext
  match a with
  | ⟨0, _⟩ => show win0_2.index t (0 : Fin 2) * 1 + 1 * (y 0).val = (y 0).val; rw [(idx_facts t).2.2.2.2.1]; omega
  | ⟨1, _⟩ => show win0_2.index t (1 : Fin 2) * 1024 + 1 * (y 1).val = (y 1).val; rw [(idx_facts t).2.2.2.2.2.1]; omega

/-- The k weights' block is the whole matrix, -/
theorem iblk_w3 : (Qkv.iblk V c 3 t : S1024x1024.Idx → EReal) = V c main_v4 := by
  funext y
  unfold Qkv.iblk
  rw [View.read_apply]
  show V c main_v4 _ = V c main_v4 y
  congr 1
  funext a; apply Fin.ext
  match a with
  | ⟨0, _⟩ => show win0_3.index t (0 : Fin 2) * 1024 + 1 * (y 0).val = (y 0).val; rw [(idx_facts t).2.2.2.2.2.2.1]; omega
  | ⟨1, _⟩ => show win0_3.index t (1 : Fin 2) * 1024 + 1 * (y 1).val = (y 1).val; rw [(idx_facts t).2.2.2.2.2.2.2.1]; omega

/-- and the k bias's block the whole row. -/
theorem iblk_b4 : (Qkv.iblk V c 4 t : S1x1024.Idx → EReal) = V c main_v10 := by
  funext y
  unfold Qkv.iblk
  rw [View.read_apply]
  show V c main_v10 _ = V c main_v10 y
  congr 1
  funext a; apply Fin.ext
  match a with
  | ⟨0, _⟩ => show win0_4.index t (0 : Fin 2) * 1 + 1 * (y 0).val = (y 0).val; rw [(idx_facts t).2.2.2.2.2.2.2.2.1]; omega
  | ⟨1, _⟩ => show win0_4.index t (1 : Fin 2) * 1024 + 1 * (y 1).val = (y 1).val; rw [(idx_facts t).2.2.2.2.2.2.2.2.2.1]; omega

/-- The v weights' block is the whole matrix, -/
theorem iblk_w5 : (Qkv.iblk V c 5 t : S1024x1024.Idx → EReal) = V c main_v6 := by
  funext y
  unfold Qkv.iblk
  rw [View.read_apply]
  show V c main_v6 _ = V c main_v6 y
  congr 1
  funext a; apply Fin.ext
  match a with
  | ⟨0, _⟩ => show win0_5.index t (0 : Fin 2) * 1024 + 1 * (y 0).val = (y 0).val; rw [(idx_facts t).2.2.2.2.2.2.2.2.2.2.1]; omega
  | ⟨1, _⟩ => show win0_5.index t (1 : Fin 2) * 1024 + 1 * (y 1).val = (y 1).val; rw [(idx_facts t).2.2.2.2.2.2.2.2.2.2.2.1]; omega

/-- and the v bias's block the whole row. -/
theorem iblk_b6 : (Qkv.iblk V c 6 t : S1x1024.Idx → EReal) = V c main_v11 := by
  funext y
  unfold Qkv.iblk
  rw [View.read_apply]
  show V c main_v11 _ = V c main_v11 y
  congr 1
  funext a; apply Fin.ext
  match a with
  | ⟨0, _⟩ => show win0_6.index t (0 : Fin 2) * 1 + 1 * (y 0).val = (y 0).val; rw [(idx_facts t).2.2.2.2.2.2.2.2.2.2.2.2.1]; omega
  | ⟨1, _⟩ => show win0_6.index t (1 : Fin 2) * 1024 + 1 * (y 1).val = (y 1).val; rw [(idx_facts t).2.2.2.2.2.2.2.2.2.2.2.2.2.1]; omega

/-! ## What a point writes back -/

/-- What point t writes back to the q array is block t of the projection of the arrays the region finds. -/
theorem flushed_q :
    (Qkv.dat V c).flushed 7 t
      = ((cfg0.win 7).blk t).view.read (Elt Ideal) (projArr (V c main_v0) (V c main_v2) (V c main_v9)) := by
  show (cfg0.win 7).cut (grid0.coords t) ((Qkv.dat V c).after 7 t) = _
  rw [Qkv.after_7]
  unfold Qkv.outQ
  rw [View.canon_unit_zero hz3]
  simp only [View.ld_unit_zero (S := S512x1024) hz2, View.ld_unit_zero (S := S1024x1024) hz2, View.ld_unit_zero (S := S1x1024) hz2]
  funext y
  obtain ⟨p, r, q, rfl⟩ : ∃ (p : Fin 16) (r : Fin 512) (q : Fin 64), y = ix3 p r q := ⟨y 0, y 1, y 2, eq_ix3 y⟩
  have hr := r.isLt
  have ht : t.val < 8 := lt_of_lt_of_eq t.isLt N_0
  have hemb : ((cfg0.win 7).blk t).view.emb (ix3 p r q) = ix3 p (⟨t.val * 512 + r.val, by omega⟩ : Fin 4096) q := by
    funext a; apply Fin.ext
    match a with
    | ⟨0, _⟩ => show win0_7.index t (0 : Fin 3) * 16 + 1 * p.val = p.val; rw [(idx_facts t).2.2.2.2.2.2.2.2.2.2.2.2.2.2.1]; omega
    | ⟨1, _⟩ => show win0_7.index t (1 : Fin 3) * 512 + 1 * r.val = t.val * 512 + r.val; rw [(idx_facts t).2.2.2.2.2.2.2.2.2.2.2.2.2.2.2.1]; omega
    | ⟨2, _⟩ => show win0_7.index t (2 : Fin 3) * 64 + 1 * q.val = q.val; rw [(idx_facts t).2.2.2.2.2.2.2.2.2.2.2.2.2.2.2.2.1]; omega
  rw [View.read_apply, hemb, projArr_apply]
  refine (pay_q_apply _ _ _ p r q).trans ?_
  refine congrArg₂ (· + ·) (Finset.sum_congr rfl fun j _ => congrArg₂ (· * ·) (iblk_x V c t r j _ rfl) (congrFun (iblk_w1 V c t) _))
    (congrFun (iblk_b2 V c t) _)

/-- What point t writes back to the k array, likewise over the k weights and bias. -/
theorem flushed_k :
    (Qkv.dat V c).flushed 8 t
      = ((cfg0.win 8).blk t).view.read (Elt Ideal) (projArr (V c main_v0) (V c main_v4) (V c main_v10)) := by
  show (cfg0.win 8).cut (grid0.coords t) ((Qkv.dat V c).after 8 t) = _
  rw [Qkv.after_8]
  unfold Qkv.outK
  rw [View.canon_unit_zero hz3]
  simp only [View.ld_unit_zero (S := S512x1024) hz2, View.ld_unit_zero (S := S1024x1024) hz2, View.ld_unit_zero (S := S1x1024) hz2]
  funext y
  obtain ⟨p, r, q, rfl⟩ : ∃ (p : Fin 16) (r : Fin 512) (q : Fin 64), y = ix3 p r q := ⟨y 0, y 1, y 2, eq_ix3 y⟩
  have hr := r.isLt
  have ht : t.val < 8 := lt_of_lt_of_eq t.isLt N_0
  have hemb : ((cfg0.win 8).blk t).view.emb (ix3 p r q) = ix3 p (⟨t.val * 512 + r.val, by omega⟩ : Fin 4096) q := by
    funext a; apply Fin.ext
    match a with
    | ⟨0, _⟩ => show win0_8.index t (0 : Fin 3) * 16 + 1 * p.val = p.val; rw [(idx_facts t).2.2.2.2.2.2.2.2.2.2.2.2.2.2.2.2.2.1]; omega
    | ⟨1, _⟩ => show win0_8.index t (1 : Fin 3) * 512 + 1 * r.val = t.val * 512 + r.val; rw [(idx_facts t).2.2.2.2.2.2.2.2.2.2.2.2.2.2.2.2.2.2.1]; omega
    | ⟨2, _⟩ => show win0_8.index t (2 : Fin 3) * 64 + 1 * q.val = q.val; rw [(idx_facts t).2.2.2.2.2.2.2.2.2.2.2.2.2.2.2.2.2.2.2.1]; omega
  rw [View.read_apply, hemb, projArr_apply, pay_k_eq]
  refine (pay_q_apply _ _ _ p r q).trans ?_
  refine congrArg₂ (· + ·) (Finset.sum_congr rfl fun j _ => congrArg₂ (· * ·) (iblk_x V c t r j _ rfl) (congrFun (iblk_w3 V c t) _))
    (congrFun (iblk_b4 V c t) _)

/-- What point t writes back to the v array, likewise over the v weights and bias. -/
theorem flushed_v :
    (Qkv.dat V c).flushed 9 t
      = ((cfg0.win 9).blk t).view.read (Elt Ideal) (projArr (V c main_v0) (V c main_v6) (V c main_v11)) := by
  show (cfg0.win 9).cut (grid0.coords t) ((Qkv.dat V c).after 9 t) = _
  rw [Qkv.after_9]
  unfold Qkv.outV
  rw [View.canon_unit_zero hz3]
  simp only [View.ld_unit_zero (S := S512x1024) hz2, View.ld_unit_zero (S := S1024x1024) hz2, View.ld_unit_zero (S := S1x1024) hz2]
  funext y
  obtain ⟨p, r, q, rfl⟩ : ∃ (p : Fin 16) (r : Fin 512) (q : Fin 64), y = ix3 p r q := ⟨y 0, y 1, y 2, eq_ix3 y⟩
  have hr := r.isLt
  have ht : t.val < 8 := lt_of_lt_of_eq t.isLt N_0
  have hemb : ((cfg0.win 9).blk t).view.emb (ix3 p r q) = ix3 p (⟨t.val * 512 + r.val, by omega⟩ : Fin 4096) q := by
    funext a; apply Fin.ext
    match a with
    | ⟨0, _⟩ => show win0_9.index t (0 : Fin 3) * 16 + 1 * p.val = p.val; rw [(idx_facts t).2.2.2.2.2.2.2.2.2.2.2.2.2.2.2.2.2.2.2.2.1]; omega
    | ⟨1, _⟩ => show win0_9.index t (1 : Fin 3) * 512 + 1 * r.val = t.val * 512 + r.val; rw [(idx_facts t).2.2.2.2.2.2.2.2.2.2.2.2.2.2.2.2.2.2.2.2.2.1]; omega
    | ⟨2, _⟩ => show win0_9.index t (2 : Fin 3) * 64 + 1 * q.val = q.val; rw [(idx_facts t).2.2.2.2.2.2.2.2.2.2.2.2.2.2.2.2.2.2.2.2.2.2]; omega
  rw [View.read_apply, hemb, projArr_apply, pay_v_eq]
  refine (pay_q_apply _ _ _ p r q).trans ?_
  refine congrArg₂ (· + ·) (Finset.sum_congr rfl fun j _ => congrArg₂ (· * ·) (iblk_x V c t r j _ rfl) (congrFun (iblk_w5 V c t) _))
    (congrFun (iblk_b6 V c t) _)

end Blocks

end Cert.KernelIdeal.QkvValue

end
-- ==== Proof.Ideal.QkvValue4.lean ====
/-
  Region 0's three output arrays after its eight row blocks. Every point writes back block (0, t, 0) of the
  [16, 4096, 64] array, the block of one whole-array function (the projection of the arrays the region finds), and
  the eight blocks cover the array: row ρ lies in block ρ / 512. So each array ends at that function.
-/
import proofs.«100607_j81028853006766_2_alg».proof.Proof.Ideal.Qkv
import proofs.«100607_j81028853006766_2_alg».proof.Proof.Ideal.QkvValue2
import Idealize.ShloMosaic.Lib.Pipeline.Value
import Idealize.ShloMosaic.Lib.ValueIdx

set_option maxRecDepth 16384

noncomputable section

namespace Cert.KernelIdeal.QkvValue

open Cert.KernelIdeal Cert.KernelIdeal.Gen Idealize.ShloMosaic Idealize.ShloMosaic.TcCoe Idealize.ShloMosaic.ValueIdx Idealize.SL.Sem
open Idealize.ShloMosaic.Pipeline (Dat)

/-! ## The eight blocks cover each output array -/

/-- An index of the q array is in point t's block iff each coordinate is in the block's range on its axis. -/
theorem mem_blk7 (t : Fin cfg0.N) (i : S16x4096x64.Idx) :
    i ∈ ((cfg0.win 7).blk t).view.set ↔ ∀ a : Fin 3, win0_7.index t a * S16x512x64.size a ≤ (i a).val ∧ (i a).val < win0_7.index t a * S16x512x64.size a + S16x512x64.size a := by
  show i ∈ ((View.whole main_v13_0).slice (win0_7.rect t)).set ↔ _
  rw [View.set_slice_whole, Rect.mem_set_unit]
  exact Iff.rfl
theorem mem_blk8 (t : Fin cfg0.N) (i : S16x4096x64.Idx) :
    i ∈ ((cfg0.win 8).blk t).view.set ↔ ∀ a : Fin 3, win0_8.index t a * S16x512x64.size a ≤ (i a).val ∧ (i a).val < win0_8.index t a * S16x512x64.size a + S16x512x64.size a := by
  show i ∈ ((View.whole main_v13_1).slice (win0_8.rect t)).set ↔ _
  rw [View.set_slice_whole, Rect.mem_set_unit]
  exact Iff.rfl
theorem mem_blk9 (t : Fin cfg0.N) (i : S16x4096x64.Idx) :
    i ∈ ((cfg0.win 9).blk t).view.set ↔ ∀ a : Fin 3, win0_9.index t a * S16x512x64.size a ≤ (i a).val ∧ (i a).val < win0_9.index t a * S16x512x64.size a + S16x512x64.size a := by
  show i ∈ ((View.whole main_v13_2).slice (win0_9.rect t)).set ↔ _
  rw [View.set_slice_whole, Rect.mem_set_unit]
  exact Iff.rfl

/-- The point whose block holds row ρ: ρ / 512. -/
def pointOf (i : S16x4096x64.Idx) : Fin cfg0.N :=
  ⟨(i 1).val / 512, by have h1 : (i 1).val < 4096 := (i 1).isLt; rw [show cfg0.N = 8 from N_0]; omega⟩

theorem cover7 (i : S16x4096x64.Idx) : ∃ t : Fin cfg0.N, (cfg0.win 7).flush t = true ∧ i ∈ ((cfg0.win 7).blk t).view.set := by
  have h0 : (i 0).val < 16 := (i 0).isLt
  have h1 : (i 1).val < 4096 := (i 1).isLt
  have h2 : (i 2).val < 64 := (i 2).isLt
  refine ⟨pointOf i, flush0_7 _, ?_⟩
  rw [mem_blk7]
  have hp : (pointOf i).val = (i 1).val / 512 := rfl
  have e0 := (idx_facts (pointOf i)).2.2.2.2.2.2.2.2.2.2.2.2.2.2.1
  have e1 := (idx_facts (pointOf i)).2.2.2.2.2.2.2.2.2.2.2.2.2.2.2.1
  have e2 := (idx_facts (pointOf i)).2.2.2.2.2.2.2.2.2.2.2.2.2.2.2.2.1
  intro a
  match a with
  | ⟨0, _⟩ => show win0_7.index (pointOf i) (0 : Fin 3) * 16 ≤ (i 0).val ∧ (i 0).val < win0_7.index (pointOf i) (0 : Fin 3) * 16 + 16; rw [e0]; omega
  | ⟨1, _⟩ => show win0_7.index (pointOf i) (1 : Fin 3) * 512 ≤ (i 1).val ∧ (i 1).val < win0_7.index (pointOf i) (1 : Fin 3) * 512 + 512; rw [e1, hp]; omega
  | ⟨2, _⟩ => show win0_7.index (pointOf i) (2 : Fin 3) * 64 ≤ (i 2).val ∧ (i 2).val < win0_7.index (pointOf i) (2 : Fin 3) * 64 + 64; rw [e2]; omega

theorem cover8 (i : S16x4096x64.Idx) : ∃ t : Fin cfg0.N, (cfg0.win 8).flush t = true ∧ i ∈ ((cfg0.win 8).blk t).view.set := by
  have h0 : (i 0).val < 16 := (i 0).isLt
  have h1 : (i 1).val < 4096 := (i 1).isLt
  have h2 : (i 2).val < 64 := (i 2).isLt
  refine ⟨pointOf i, flush0_8 _, ?_⟩
  rw [mem_blk8]
  have hp : (pointOf i).val = (i 1).val / 512 := rfl
  have e0 := (idx_facts (pointOf i)).2.2.2.2.2.2.2.2.2.2.2.2.2.2.2.2.2.1
  have e1 := (idx_facts (pointOf i)).2.2.2.2.2.2.2.2.2.2.2.2.2.2.2.2.2.2.1
  have e2 := (idx_facts (pointOf i)).2.2.2.2.2.2.2.2.2.2.2.2.2.2.2.2.2.2.2.1
  intro a
  match a with
  | ⟨0, _⟩ => show win0_8.index (pointOf i) (0 : Fin 3) * 16 ≤ (i 0).val ∧ (i 0).val < win0_8.index (pointOf i) (0 : Fin 3) * 16 + 16; rw [e0]; omega
  | ⟨1, _⟩ => show win0_8.index (pointOf i) (1 : Fin 3) * 512 ≤ (i 1).val ∧ (i 1).val < win0_8.index (pointOf i) (1 : Fin 3) * 512 + 512; rw [e1, hp]; omega
  | ⟨2, _⟩ => show win0_8.index (pointOf i) (2 : Fin 3) * 64 ≤ (i 2).val ∧ (i 2).val < win0_8.index (pointOf i) (2 : Fin 3) * 64 + 64; rw [e2]; omega

theorem cover9 (i : S16x4096x64.Idx) : ∃ t : Fin cfg0.N, (cfg0.win 9).flush t = true ∧ i ∈ ((cfg0.win 9).blk t).view.set := by
  have h0 : (i 0).val < 16 := (i 0).isLt
  have h1 : (i 1).val < 4096 := (i 1).isLt
  have h2 : (i 2).val < 64 := (i 2).isLt
  refine ⟨pointOf i, flush0_9 _, ?_⟩
  rw [mem_blk9]
  have hp : (pointOf i).val = (i 1).val / 512 := rfl
  have e0 := (idx_facts (pointOf i)).2.2.2.2.2.2.2.2.2.2.2.2.2.2.2.2.2.2.2.2.1
  have e1 := (idx_facts (pointOf i)).2.2.2.2.2.2.2.2.2.2.2.2.2.2.2.2.2.2.2.2.2.1
  have e2 := (idx_facts (pointOf i)).2.2.2.2.2.2.2.2.2.2.2.2.2.2.2.2.2.2.2.2.2.2
  intro a
  match a with
  | ⟨0, _⟩ => show win0_9.index (pointOf i) (0 : Fin 3) * 16 ≤ (i 0).val ∧ (i 0).val < win0_9.index (pointOf i) (0 : Fin 3) * 16 + 16; rw [e0]; omega
  | ⟨1, _⟩ => show win0_9.index (pointOf i) (1 : Fin 3) * 512 ≤ (i 1).val ∧ (i 1).val < win0_9.index (pointOf i) (1 : Fin 3) * 512 + 512; rw [e1, hp]; omega
  | ⟨2, _⟩ => show win0_9.index (pointOf i) (2 : Fin 3) * 64 ≤ (i 2).val ∧ (i 2).val < win0_9.index (pointOf i) (2 : Fin 3) * 64 + 64; rw [e2]; omega

/-! ## The arrays after the region -/

section Final
variable (V : (c : Dev nD) → (b : Ref sig .tc) → Buf (Elt Ideal) ((c : Thread nD τ).loc b)) (c : Dev nD)

/-- The q array after the eight points: the projection of the arrays the region finds. -/
theorem final_q : (Qkv.dat V c).arrAt 7 cfg0.N = projArr (V c main_v0) (V c main_v2) (V c main_v9) :=
  (Qkv.dat V c).arrAt_eq_of_cover 7 (projArr (V c main_v0) (V c main_v2) (V c main_v9)) (fun t _ => flushed_q V c t) cover7
/-- The k array. -/
theorem final_k : (Qkv.dat V c).arrAt 8 cfg0.N = projArr (V c main_v0) (V c main_v4) (V c main_v10) :=
  (Qkv.dat V c).arrAt_eq_of_cover 8 (projArr (V c main_v0) (V c main_v4) (V c main_v10)) (fun t _ => flushed_k V c t) cover8
/-- The v array. -/
theorem final_v : (Qkv.dat V c).arrAt 9 cfg0.N = projArr (V c main_v0) (V c main_v6) (V c main_v11) :=
  (Qkv.dat V c).arrAt_eq_of_cover 9 (projArr (V c main_v0) (V c main_v6) (V c main_v11)) (fun t _ => flushed_v V c t) cover9

end Final

end Cert.KernelIdeal.QkvValue

end
-- ==== Proof.Ideal.QkvValue3.lean ====
/-
  The arrays region 0 reads, as the host operations before it leave them, read at an index. The activations
  [2, 2048, 1024] are reshaped to [4096, 1024]: row 2048·b + t is row t of batch b. Each weight matrix is transposed
  (and converted, the identity on the extended reals): entry (j, e) is entry (e, j) of the argument. Each bias
  [1024] is reshaped to one row [1, 1024].
-/
import proofs.«100607_j81028853006766_2_alg».proof.Proof.Ideal.Whole
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.QkvValue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)

/-! ## The arrays as terms of the arguments -/

theorem entry_x : (Whole.E1 m c main_v0 : S4096x1024.Idx → EReal)
    = shapeCast S4096x1024 (m ((c.tc : Thread nD τ).loc main_arg0) : S2x2048x1024.Idx → EReal) shapeCasts_S2x2048x1024_S4096x1024 := by
  show StableHlo.after hostOps0 (fun b => m (c, b)) (Proc.devRef .tc main_v0) = _
  after_results
  rfl

theorem entry_wq : (Whole.E1 m c main_v2 : S1024x1024.Idx → EReal)
    = truncf (F := Ideal) .bf16 (transpose S1024x1024 [1, 0] (m ((c.tc : Thread nD τ).loc main_arg1) : S1024x1024.Idx → EReal) transposes_S1024x1024_S1024x1024_1_0) bitsLt_bf16_f32 := by
  show StableHlo.after hostOps0 (fun b => m (c, b)) (Proc.devRef .tc main_v2) = _
  after_results

theorem entry_wk : (Whole.E1 m c main_v4 : S1024x1024.Idx → EReal)
    = truncf (F := Ideal) .bf16 (transpose S1024x1024 [1, 0] (m ((c.tc : Thread nD τ).loc main_arg3) : S1024x1024.Idx → EReal) transposes_S1024x1024_S1024x1024_1_0) bitsLt_bf16_f32 := by
  show StableHlo.after hostOps0 (fun b => m (c, b)) (Proc.devRef .tc main_v4) = _
  after_results

theorem entry_wv : (Whole.E1 m c main_v6 : S1024x1024.Idx → EReal)
    = truncf (F := Ideal) .bf16 (transpose S1024x1024 [1, 0] (m ((c.tc : Thread nD τ).loc main_arg5) : S1024x1024.Idx → EReal) transposes_S1024x1024_S1024x1024_1_0) bitsLt_bf16_f32 := by
  show StableHlo.after hostOps0 (fun b => m (c, b)) (Proc.devRef .tc main_v6) = _
  after_results

theorem entry_bq : (Whole.E1 m c main_v9 : S1x1024.Idx → EReal)
    = shapeCast S1x1024 (m ((c.tc : Thread nD τ).loc main_arg2) : S1024.Idx → EReal) shapeCasts_S1024_S1x1024 := by
  show StableHlo.after hostOps0 (fun b => m (c, b)) (Proc.devRef .tc main_v9) = _
  after_results
  rfl

theorem entry_bk : (Whole.E1 m c main_v10 : S1x1024.Idx → EReal)
    = shapeCast S1x1024 (m ((c.tc : Thread nD τ).loc main_arg4) : S1024.Idx → EReal) shapeCasts_S1024_S1x1024 := by
  show StableHlo.after hostOps0 (fun b => m (c, b)) (Proc.devRef .tc main_v10) = _
  after_results
  rfl

theorem entry_bv : (Whole.E1 m c main_v11 : S1x1024.Idx → EReal)
    = shapeCast S1x1024 (m ((c.tc : Thread nD τ).loc main_arg6) : S1024.Idx → EReal) shapeCasts_S1024_S1x1024 := by
  show StableHlo.after hostOps0 (fun b => m (c, b)) (Proc.devRef .tc main_v11) = _
  after_results
  rfl

/-! ## Read at an index -/

/-- Row 2048·b + t of the reshaped activations is row t of batch b. -/
theorem entry_x_apply (b : Fin 2) (t : Fin 2048) (j : Fin 1024) (ρ : Fin 4096) (hρ : ρ.val = b.val * 2048 + t.val) :
    (Whole.E1 m c main_v0 : S4096x1024.Idx → EReal) (ix2 ρ j)
      = (m ((c.tc : Thread nD τ).loc main_arg0) : S2x2048x1024.Idx → EReal) (ix3 b t j) := by
  rw [entry_x]
  exact shapeCast_apply _ _ _ _ (by
    show (S2x2048x1024.rowMajor (ix3 b t j)).val = (S4096x1024.rowMajor (ix2 ρ j)).val
    rw [Shape.rowMajor_val_three, Shape.rowMajor_val_two]
    show (b.val * 2048 + t.val) * 1024 + j.val = ρ.val * 1024 + j.val
    rw [hρ])

/-- Entry (j, e) of a transposed weight matrix is entry (e, j) of the argument. -/
theorem entry_wq_apply (j e : Fin 1024) :
    (Whole.E1 m c main_v2 : S1024x1024.Idx → EReal) (ix2 j e) = (m ((c.tc : Thread nD τ).loc main_arg1) : S1024x1024.Idx → EReal) (ix2 e j) := by
  rw [entry_wq]
  exact transpose_ix2_apply _ _ j e
theorem entry_wk_apply (j e : Fin 1024) :
    (Whole.E1 m c main_v4 : S1024x1024.Idx → EReal) (ix2 j e) = (m ((c.tc : Thread nD τ).loc main_arg3) : S1024x1024.Idx → EReal) (ix2 e j) := by
  rw [entry_wk]
  exact transpose_ix2_apply _ _ j e
theorem entry_wv_apply (j e : Fin 1024) :
    (Whole.E1 m c main_v6 : S1024x1024.Idx → EReal) (ix2 j e) = (m ((c.tc : Thread nD τ).loc main_arg5) : S1024x1024.Idx → EReal) (ix2 e j) := by
  rw [entry_wv]
  exact transpose_ix2_apply _ _ j e

/-- Entry e of a bias's one row is entry e of the argument. -/
theorem entry_bq_apply (e : Fin 1024) :
    (Whole.E1 m c main_v9 : S1x1024.Idx → EReal) (ix2 (0 : Fin 1) e) = (m ((c.tc : Thread nD τ).loc main_arg2) : S1024.Idx → EReal) (ix1 e) := by
  rw [entry_bq]
  exact shapeCast_a_1a_apply _ _ 0 e
theorem entry_bk_apply (e : Fin 1024) :
    (Whole.E1 m c main_v10 : S1x1024.Idx → EReal) (ix2 (0 : Fin 1) e) = (m ((c.tc : Thread nD τ).loc main_arg4) : S1024.Idx → EReal) (ix1 e) := by
  rw [entry_bk]
  exact shapeCast_a_1a_apply _ _ 0 e
theorem entry_bv_apply (e : Fin 1024) :
    (Whole.E1 m c main_v11 : S1x1024.Idx → EReal) (ix2 (0 : Fin 1) e) = (m ((c.tc : Thread nD τ).loc main_arg6) : S1024.Idx → EReal) (ix1 e) := by
  rw [entry_bv]
  exact shapeCast_a_1a_apply _ _ 0 e

end Cert.KernelIdeal.QkvValue

end
-- ==== Proof.Ideal.QkvValue.lean ====
/-
  What region 0 leaves in its three output arrays, read at an index, is the reference's per-head projection:
  the kernel's q array at (head h, row 2048·b + t, feature d) and the reference's q at (b, h, t, d) are both
      (Σ_j x[b, t, j] · Wq[64·h + d, j]) + bq[64·h + d],
  and likewise k and v. The kernel side: the array after the region is the projection of the arrays the region finds,
  and those are the reshaped activations, the transposed weights and the bias row. The reference side: its transpose
  and reshape move the index to row t of batch b and column 64·h + d of the [2, 2048, 1024] product plus bias.
-/
import proofs.«100607_j81028853006766_2_alg».proof.Proof.Ideal.Whole
import proofs.«100607_j81028853006766_2_alg».proof.Proof.Gen.ReferenceIdeal.Read
import proofs.«100607_j81028853006766_2_alg».proof.Proof.Ideal.QkvValue4
import proofs.«100607_j81028853006766_2_alg».proof.Proof.Ideal.QkvValue3
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.QkvValue

open Cert.KernelIdeal Cert.KernelIdeal.Gen Idealize.ShloMosaic Idealize.ShloMosaic.TcCoe Idealize.ShloMosaic.ValueIdx Idealize.SL.Sem
open Idealize.ShloMosaic.Pipeline (Dat)

/-! ## The reference's projections at an index -/

/-- The reference's q projection at (batch, head, row, feature): the transpose and the reshape move the index to row
    `t` of batch `b` and column 64·h + d of the [2, 2048, 1024] product plus bias. -/
theorem ref_q (x0 : (⟨Cert.ReferenceIdeal.S2x2048x1024, .f32⟩ : BufTy).Contents (Elt Ideal))
    (x1 : (⟨Cert.ReferenceIdeal.S1024x1024, .f32⟩ : BufTy).Contents (Elt Ideal))
    (x2 : (⟨Cert.ReferenceIdeal.S1024, .f32⟩ : BufTy).Contents (Elt Ideal))
    (b : Fin 2) (h : Fin 16) (t : Fin 2048) (d : Fin 64) :
    Cert.ReferenceIdeal.Read.val_main_v5 (F := Ideal) x0 x1 x2 (ix4 b h t d)
      = (∑ k : Fin 1024, (x0 (ix3 b t k) : EReal) * (x1 (ix2 (col h d) k) : EReal)) + (x2 (ix1 (col h d)) : EReal) := by
  have hb := b.isLt; have hh := h.isLt; have ht := t.isLt; have hd := d.isLt
  rw [Cert.ReferenceIdeal.Read.val_main_v5_apply, Cert.ReferenceIdeal.Read.val_main_v4_apply,
    Cert.ReferenceIdeal.Read.val_main_v3_apply, Cert.ReferenceIdeal.Read.val_main_v0_apply,
    Cert.ReferenceIdeal.Read.val_main_v2_apply, Cert.ReferenceIdeal.Read.val_main_v1_apply]
  refine congrArg₂ (· + ·) (Finset.sum_congr rfl fun k _ => congrArg₂ (· * ·) (congrArg x0 ?_) (congrArg x1 ?_)) (congrArg x2 ?_)
  · funext a; apply Fin.ext
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ => rfl
  · funext a; apply Fin.ext
    match a with
    | ⟨0, _⟩ => show (((b.val * 2048 + t.val) * 16 + h.val) * 64 + d.val) % 1024 = h.val * 64 + d.val; omega
    | ⟨1, _⟩ => rfl
  · funext a; apply Fin.ext
    match a with
    | ⟨0, _⟩ => show (((b.val * 2048 + t.val) * 16 + h.val) * 64 + d.val) % 1024 = h.val * 64 + d.val; omega

/-- The reference's k projection at (batch, head, row, feature): the transpose and the reshape move the index to row
    `t` of batch `b` and column 64·h + d of the [2, 2048, 1024] product plus bias. -/
theorem ref_k (x0 : (⟨Cert.ReferenceIdeal.S2x2048x1024, .f32⟩ : BufTy).Contents (Elt Ideal))
    (x1 : (⟨Cert.ReferenceIdeal.S1024x1024, .f32⟩ : BufTy).Contents (Elt Ideal))
    (x2 : (⟨Cert.ReferenceIdeal.S1024, .f32⟩ : BufTy).Contents (Elt Ideal))
    (b : Fin 2) (h : Fin 16) (t : Fin 2048) (d : Fin 64) :
    Cert.ReferenceIdeal.Read.val_main_v11 (F := Ideal) x0 x1 x2 (ix4 b h t d)
      = (∑ k : Fin 1024, (x0 (ix3 b t k) : EReal) * (x1 (ix2 (col h d) k) : EReal)) + (x2 (ix1 (col h d)) : EReal) := by
  have hb := b.isLt; have hh := h.isLt; have ht := t.isLt; have hd := d.isLt
  rw [Cert.ReferenceIdeal.Read.val_main_v11_apply, Cert.ReferenceIdeal.Read.val_main_v10_apply,
    Cert.ReferenceIdeal.Read.val_main_v9_apply, Cert.ReferenceIdeal.Read.val_main_v6_apply,
    Cert.ReferenceIdeal.Read.val_main_v8_apply, Cert.ReferenceIdeal.Read.val_main_v7_apply]
  refine congrArg₂ (· + ·) (Finset.sum_congr rfl fun k _ => congrArg₂ (· * ·) (congrArg x0 ?_) (congrArg x1 ?_)) (congrArg x2 ?_)
  · funext a; apply Fin.ext
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ => rfl
  · funext a; apply Fin.ext
    match a with
    | ⟨0, _⟩ => show (((b.val * 2048 + t.val) * 16 + h.val) * 64 + d.val) % 1024 = h.val * 64 + d.val; omega
    | ⟨1, _⟩ => rfl
  · funext a; apply Fin.ext
    match a with
    | ⟨0, _⟩ => show (((b.val * 2048 + t.val) * 16 + h.val) * 64 + d.val) % 1024 = h.val * 64 + d.val; omega

/-- The reference's v projection at (batch, head, row, feature): the transpose and the reshape move the index to row
    `t` of batch `b` and column 64·h + d of the [2, 2048, 1024] product plus bias. -/
theorem ref_v (x0 : (⟨Cert.ReferenceIdeal.S2x2048x1024, .f32⟩ : BufTy).Contents (Elt Ideal))
    (x1 : (⟨Cert.ReferenceIdeal.S1024x1024, .f32⟩ : BufTy).Contents (Elt Ideal))
    (x2 : (⟨Cert.ReferenceIdeal.S1024, .f32⟩ : BufTy).Contents (Elt Ideal))
    (b : Fin 2) (h : Fin 16) (t : Fin 2048) (d : Fin 64) :
    Cert.ReferenceIdeal.Read.val_main_v17 (F := Ideal) x0 x1 x2 (ix4 b h t d)
      = (∑ k : Fin 1024, (x0 (ix3 b t k) : EReal) * (x1 (ix2 (col h d) k) : EReal)) + (x2 (ix1 (col h d)) : EReal) := by
  have hb := b.isLt; have hh := h.isLt; have ht := t.isLt; have hd := d.isLt
  rw [Cert.ReferenceIdeal.Read.val_main_v17_apply, Cert.ReferenceIdeal.Read.val_main_v16_apply,
    Cert.ReferenceIdeal.Read.val_main_v15_apply, Cert.ReferenceIdeal.Read.val_main_v12_apply,
    Cert.ReferenceIdeal.Read.val_main_v14_apply, Cert.ReferenceIdeal.Read.val_main_v13_apply]
  refine congrArg₂ (· + ·) (Finset.sum_congr rfl fun k _ => congrArg₂ (· * ·) (congrArg x0 ?_) (congrArg x1 ?_)) (congrArg x2 ?_)
  · funext a; apply Fin.ext
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ => rfl
  · funext a; apply Fin.ext
    match a with
    | ⟨0, _⟩ => show (((b.val * 2048 + t.val) * 16 + h.val) * 64 + d.val) % 1024 = h.val * 64 + d.val; omega
    | ⟨1, _⟩ => rfl
  · funext a; apply Fin.ext
    match a with
    | ⟨0, _⟩ => show (((b.val * 2048 + t.val) * 16 + h.val) * 64 + d.val) % 1024 = h.val * 64 + d.val; omega

/-! ## The three arrays against the reference -/

/-- The q array the region leaves, at head h, row 2048·b + t, feature d, is the reference's q projection at
    (b, h, t, d): both are (Σ_j x[b, t, j] · W[64·h + d, j]) + bias[64·h + d]. -/
theorem q_eq (m : (ℓ : Loc nD τ sig) → Buf (Elt Ideal) ℓ) (c : Dev nD) (b : Fin 2) (h : Fin 16) (t : Fin 2048) (d : Fin 64) :
    (Whole.E2 (F := Ideal) m c main_v13_0 : S16x4096x64.Idx → EReal)
        (ix3 h ⟨b.val * 2048 + t.val, by have := b.isLt; have := t.isLt; omega⟩ d)
      = Cert.ReferenceIdeal.Read.val_main_v5 (F := Ideal) (m ((c.tc : Thread nD τ).loc main_arg0))
          (m ((c.tc : Thread nD τ).loc main_arg1)) (m ((c.tc : Thread nD τ).loc main_arg2)) (ix4 b h t d) := by
  have hK : (Whole.E2 (F := Ideal) m c main_v13_0 : S16x4096x64.Idx → EReal)
      = projArr (Whole.E1 m c main_v0) (Whole.E1 m c main_v2) (Whole.E1 m c main_v9) :=
    (Whole.hF0 m c 7).symm.trans (final_q (Whole.E1 m) c)
  rw [hK, projArr_apply, ref_q]
  exact congrArg₂ (· + ·) (Finset.sum_congr rfl fun j _ => congrArg₂ (· * ·) (entry_x_apply m c b t j _ rfl) (entry_wq_apply m c j (col h d)))
    (entry_bq_apply m c (col h d))

/-- The k array the region leaves, at head h, row 2048·b + t, feature d, is the reference's k projection at
    (b, h, t, d): both are (Σ_j x[b, t, j] · W[64·h + d, j]) + bias[64·h + d]. -/
theorem k_eq (m : (ℓ : Loc nD τ sig) → Buf (Elt Ideal) ℓ) (c : Dev nD) (b : Fin 2) (h : Fin 16) (t : Fin 2048) (d : Fin 64) :
    (Whole.E2 (F := Ideal) m c main_v13_1 : S16x4096x64.Idx → EReal)
        (ix3 h ⟨b.val * 2048 + t.val, by have := b.isLt; have := t.isLt; omega⟩ d)
      = Cert.ReferenceIdeal.Read.val_main_v11 (F := Ideal) (m ((c.tc : Thread nD τ).loc main_arg0))
          (m ((c.tc : Thread nD τ).loc main_arg3)) (m ((c.tc : Thread nD τ).loc main_arg4)) (ix4 b h t d) := by
  have hK : (Whole.E2 (F := Ideal) m c main_v13_1 : S16x4096x64.Idx → EReal)
      = projArr (Whole.E1 m c main_v0) (Whole.E1 m c main_v4) (Whole.E1 m c main_v10) :=
    (Whole.hF0 m c 8).symm.trans (final_k (Whole.E1 m) c)
  rw [hK, projArr_apply, ref_k]
  exact congrArg₂ (· + ·) (Finset.sum_congr rfl fun j _ => congrArg₂ (· * ·) (entry_x_apply m c b t j _ rfl) (entry_wk_apply m c j (col h d)))
    (entry_bk_apply m c (col h d))

/-- The v array the region leaves, at head h, row 2048·b + t, feature d, is the reference's v projection at
    (b, h, t, d): both are (Σ_j x[b, t, j] · W[64·h + d, j]) + bias[64·h + d]. -/
theorem v_eq (m : (ℓ : Loc nD τ sig) → Buf (Elt Ideal) ℓ) (c : Dev nD) (b : Fin 2) (h : Fin 16) (t : Fin 2048) (d : Fin 64) :
    (Whole.E2 (F := Ideal) m c main_v13_2 : S16x4096x64.Idx → EReal)
        (ix3 h ⟨b.val * 2048 + t.val, by have := b.isLt; have := t.isLt; omega⟩ d)
      = Cert.ReferenceIdeal.Read.val_main_v17 (F := Ideal) (m ((c.tc : Thread nD τ).loc main_arg0))
          (m ((c.tc : Thread nD τ).loc main_arg5)) (m ((c.tc : Thread nD τ).loc main_arg6)) (ix4 b h t d) := by
  have hK : (Whole.E2 (F := Ideal) m c main_v13_2 : S16x4096x64.Idx → EReal)
      = projArr (Whole.E1 m c main_v0) (Whole.E1 m c main_v6) (Whole.E1 m c main_v11) :=
    (Whole.hF0 m c 9).symm.trans (final_v (Whole.E1 m) c)
  rw [hK, projArr_apply, ref_v]
  exact congrArg₂ (· + ·) (Finset.sum_congr rfl fun j _ => congrArg₂ (· * ·) (entry_x_apply m c b t j _ rfl) (entry_wv_apply m c j (col h d)))
    (entry_bv_apply m c (col h d))

end Cert.KernelIdeal.QkvValue

end
-- ==== Proof.FiniteArgs.lean ====
/-
  From the precondition to real entries. The precondition evaluates, for each of the nine argument arrays x,
  the test |x| < +∞ at every entry, takes the conjunction of the tests over the whole array, and then the conjunction
  of the nine results; it says that the outcome is true. At the ideal values an entry is an extended real, |x| is
  max x (-x), and +∞ is ⊤: the test at an entry holds exactly when the entry is neither ⊤ nor ⊥, that is, when it is
  (the image of) a real number. Hence every entry of every argument array is a real number.
-/
import proofs.«100607_j81028853006766_2_alg».proof.Defs
import proofs.«100607_j81028853006766_2_alg».proof.Proof.Gen.Pre_finite_inputs
import Idealize.ShloMosaic.Lib.ReduceAll
import Idealize.ShloMosaic.Lib.ValueIdx

set_option maxRecDepth 16384

noncomputable section

namespace Cert.FiniteArgs

open Idealize.ShloMosaic Idealize.SL.Sem Idealize.ShloMosaic.ValueIdx
open Cert.Pre_finite_inputs

/-- The shape with no axes has exactly one index. -/
instance : Subsingleton S_.Idx := ⟨fun a b => funext fun d => d.elim0⟩

/-- The pattern 0x7F800000 denotes +∞. -/
theorem ofBits_inf : Ideal.ofBits .f32 0x7F800000#32 = ⊤ := by simp [Ideal.ofBits, Ideal.ieee]

/-- An extended real whose absolute value max x (-x) is strictly below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- If the conjunction over a whole array of the tests |x| < +∞ is true, every entry of the array is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1)
    (i : s.Idx) : ∃ r : ℝ, x i = (r : EReal) := by
  have h := Host.reduce_andi_all _ _ hr hu ix0 e i
  exact real_of_abs_lt_inf (x i) h

variable [Cert.Pre_finite_inputs.Facts]

/-- Under the precondition every entry of each of the nine argument arrays is a real number. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal)) := by
  have h := congrFun (hpre c) ix0
  dsimp only [Cert.Pre_finite_inputs.fn, Cert.Pre_finite_inputs.fn_part1, Cert.Pre_finite_inputs.fn_part2, andi] at h
  simp only [IntOp.andi_eq_one] at h
  obtain ⟨⟨⟨⟨⟨⟨⟨⟨h0, h1⟩, h2⟩, h3⟩, h4⟩, h5⟩, h6⟩, h7⟩, h8⟩ := h
  exact ⟨all_real _ _ _ _ h0, all_real _ _ _ _ h1, all_real _ _ _ _ h2, all_real _ _ _ _ h3, all_real _ _ _ _ h4,
    all_real _ _ _ _ h5, all_real _ _ _ _ h6, all_real _ _ _ _ h7, all_real _ _ _ _ h8⟩

/-- Every entry of argument array 0 is a real number. -/
theorem arg0_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S2x2048x1024.Idx) :
    ∃ r : ℝ, m ((c.tc : Thread Cert.KernelIdeal.nD Cert.KernelIdeal.τ).loc Cert.KernelIdeal.main_arg0) i = (r : EReal) :=
  (args_real m hpre c).1 i

/-- Every entry of argument array 1 is a real number. -/
theorem arg1_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S1024x1024.Idx) :
    ∃ r : ℝ, m ((c.tc : Thread Cert.KernelIdeal.nD Cert.KernelIdeal.τ).loc Cert.KernelIdeal.main_arg1) i = (r : EReal) :=
  (args_real m hpre c).2.1 i

/-- Every entry of argument array 2 is a real number. -/
theorem arg2_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S1024.Idx) :
    ∃ r : ℝ, m ((c.tc : Thread Cert.KernelIdeal.nD Cert.KernelIdeal.τ).loc Cert.KernelIdeal.main_arg2) i = (r : EReal) :=
  (args_real m hpre c).2.2.1 i

/-- Every entry of argument array 3 is a real number. -/
theorem arg3_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S1024x1024.Idx) :
    ∃ r : ℝ, m ((c.tc : Thread Cert.KernelIdeal.nD Cert.KernelIdeal.τ).loc Cert.KernelIdeal.main_arg3) i = (r : EReal) :=
  (args_real m hpre c).2.2.2.1 i

/-- Every entry of argument array 4 is a real number. -/
theorem arg4_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S1024.Idx) :
    ∃ r : ℝ, m ((c.tc : Thread Cert.KernelIdeal.nD Cert.KernelIdeal.τ).loc Cert.KernelIdeal.main_arg4) i = (r : EReal) :=
  (args_real m hpre c).2.2.2.2.1 i

/-- Every entry of argument array 5 is a real number. -/
theorem arg5_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S1024x1024.Idx) :
    ∃ r : ℝ, m ((c.tc : Thread Cert.KernelIdeal.nD Cert.KernelIdeal.τ).loc Cert.KernelIdeal.main_arg5) i = (r : EReal) :=
  (args_real m hpre c).2.2.2.2.2.1 i

/-- Every entry of argument array 6 is a real number. -/
theorem arg6_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S1024.Idx) :
    ∃ r : ℝ, m ((c.tc : Thread Cert.KernelIdeal.nD Cert.KernelIdeal.τ).loc Cert.KernelIdeal.main_arg6) i = (r : EReal) :=
  (args_real m hpre c).2.2.2.2.2.2.1 i

/-- Every entry of argument array 7 is a real number. -/
theorem arg7_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S1024x1024.Idx) :
    ∃ r : ℝ, m ((c.tc : Thread Cert.KernelIdeal.nD Cert.KernelIdeal.τ).loc Cert.KernelIdeal.main_arg7) i = (r : EReal) :=
  (args_real m hpre c).2.2.2.2.2.2.2.1 i

/-- Every entry of argument array 8 is a real number. -/
theorem arg8_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S1024.Idx) :
    ∃ r : ℝ, m ((c.tc : Thread Cert.KernelIdeal.nD Cert.KernelIdeal.τ).loc Cert.KernelIdeal.main_arg8) i = (r : EReal) :=
  (args_real m hpre c).2.2.2.2.2.2.2.2 i

end Cert.FiniteArgs

end
-- ==== Proof.Algebraic.lean ====
/-
  The algebraic claim: from memories that agree on the nine arguments, under finite inputs, the idealized kernel
  program and the idealized reference both run to the end, leave the arguments unchanged, and end with the same
  result array — the reference's result as a function of the arguments.
  The kernel side is its whole run read at the result array, which is that function by the index-by-index comparison
  (the projections agree; a head's output, normalized after the product with the values, is the reference's, normalized
  before, because the softmax denominator is a positive real; sixteen heads of sixty-four features are the 1024 merged
  features). The reference side is its run, with its arguments rewritten by the agreement.
-/
import proofs.«100607_j81028853006766_2_alg».proof.Defs
import proofs.«100607_j81028853006766_2_alg».proof.Proof.Ideal.Result
import proofs.«100607_j81028853006766_2_alg».proof.Proof.Ideal.QkvValue
import proofs.«100607_j81028853006766_2_alg».proof.Proof.FiniteArgs
import proofs.«100607_j81028853006766_2_alg».proof.Proof.RefSide
import proofs.«100607_j81028853006766_2_alg».proof.Proof.Gen.KernelIdeal
import proofs.«100607_j81028853006766_2_alg».proof.Proof.Gen.ReferenceIdeal
import proofs.«100607_j81028853006766_2_alg».proof.Proof.Gen.Pre_finite_inputs

noncomputable section

namespace Cert.Proof.Algebraic

open Idealize.ShloMosaic Idealize.ShloMosaic.TcCoe Idealize.SL.Sem

theorem algebraic : Cert.algebraic_KernelIdeal_ReferenceIdeal := by
  intro m ρ m' ρ' hpre hagree
  refine ⟨fun c => Cert.ReferenceIdeal.Read.val_main_v39 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Whole.run m ρ)
    obtain ⟨h0, h1, h2, h3, h4, h5, h6, h7, h8⟩ := Cert.FiniteArgs.args_real m hpre c
    exact ⟨(h c _ (Cert.KernelIdeal.Whole.mem_uc Cert.KernelIdeal.main_v14 (by decide))).trans
        (Cert.KernelIdeal.Bridge.result_eq m c (Cert.KernelIdeal.QkvValue.q_eq m c) (Cert.KernelIdeal.QkvValue.k_eq m c) (Cert.KernelIdeal.QkvValue.v_eq m c) h0 h1 h2 h3 h4 h5 h6),
      (h c _ (Cert.KernelIdeal.Whole.mem_uc Cert.KernelIdeal.main_arg0 (by decide))).trans (Cert.KernelIdeal.Whole.B3_main_arg0 m c),
      (h c _ (Cert.KernelIdeal.Whole.mem_uc Cert.KernelIdeal.main_arg1 (by decide))).trans (Cert.KernelIdeal.Whole.B3_main_arg1 m c),
      (h c _ (Cert.KernelIdeal.Whole.mem_uc Cert.KernelIdeal.main_arg2 (by decide))).trans (Cert.KernelIdeal.Whole.B3_main_arg2 m c),
      (h c _ (Cert.KernelIdeal.Whole.mem_uc Cert.KernelIdeal.main_arg3 (by decide))).trans (Cert.KernelIdeal.Whole.B3_main_arg3 m c),
      (h c _ (Cert.KernelIdeal.Whole.mem_uc Cert.KernelIdeal.main_arg4 (by decide))).trans (Cert.KernelIdeal.Whole.B3_main_arg4 m c),
      (h c _ (Cert.KernelIdeal.Whole.mem_uc Cert.KernelIdeal.main_arg5 (by decide))).trans (Cert.KernelIdeal.Whole.B3_main_arg5 m c),
      (h c _ (Cert.KernelIdeal.Whole.mem_uc Cert.KernelIdeal.main_arg6 (by decide))).trans (Cert.KernelIdeal.Whole.B3_main_arg6 m c),
      (h c _ (Cert.KernelIdeal.Whole.mem_uc Cert.KernelIdeal.main_arg7 (by decide))).trans (Cert.KernelIdeal.Whole.B3_main_arg7 m c),
      (h c _ (Cert.KernelIdeal.Whole.mem_uc Cert.KernelIdeal.main_arg8 (by decide))).trans (Cert.KernelIdeal.Whole.B3_main_arg8 m c)⟩
  · refine (θ_run Cert.ReferenceIdeal.defs _ _).mono (fun r h c => ⟨?_, (h c).2⟩)
      (Cert.ReferenceIdeal.Value.run (F := Ideal) m' ρ')
    rw [(h c).1, Cert.ReferenceIdeal.Read.val_main_v39_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

end Cert.Proof.Algebraic

end
-- ==== Proof.lean ====
/-
  The certificate: the fused multi-head attention kernel program (a projection kernel writing q, k, v head-major,
  then attention fused with the output projection, accumulating over the heads) against its reference.
  The three frames and the idealization claim are in Proof/Frames.lean; the equality of the two idealized programs'
  results as extended reals is in Proof/Algebraic.lean.
-/
import proofs.«100607_j81028853006766_2_alg».proof.Defs
import proofs.«100607_j81028853006766_2_alg».proof.Proof.Frames
import proofs.«100607_j81028853006766_2_alg».proof.Proof.Algebraic
import proofs.«100607_j81028853006766_2_alg».proof.Proof.Gen.Kernel
import proofs.«100607_j81028853006766_2_alg».proof.Proof.Gen.KernelIdeal
import proofs.«100607_j81028853006766_2_alg».proof.Proof.Gen.ReferenceIdeal
import proofs.«100607_j81028853006766_2_alg».proof.Proof.Gen.Pre_finite_inputs

noncomputable section

namespace Cert.Proof

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, Frames.preserves, Algebraic.algebraic⟩

end Cert.Proof

end
